-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x128x2048 : Shape := ⟨4, ![8, 3, 128, 2048]⟩
abbrev S8192x2048 : Shape := ⟨2, ![8192, 2048]⟩
abbrev S2048x8192 : Shape := ⟨2, ![2048, 8192]⟩
abbrev S8192 : Shape := ⟨1, ![8192]⟩
abbrev S1000x3 : Shape := ⟨2, ![1000, 3]⟩
abbrev S1000 : Shape := ⟨1, ![1000]⟩
abbrev S_ : Shape := ⟨0, ![]⟩

class Facts : Prop where
  bcast_S_S8x3x128x2048 : S_.BroadcastsInDim S8x3x128x2048 (![] : Fin 0 → Fin S8x3x128x2048.rank)
  reducesTo_S8x3x128x2048_S_d0_1_2_3 : S8x3x128x2048.ReducesTo [0, 1, 2, 3] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S1000x3 : S_.BroadcastsInDim S1000x3 (![] : Fin 0 → Fin S1000x3.rank)
  reducesTo_S1000x3_S_d0_1 : S1000x3.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S8192 .f32) (main_arg5 : FVec F S1000x3 .f32) (main_arg6 : FVec F S1000 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S1000x3 .f32 := Host.absf main_arg5
  let main_cst_8 : FVec F S_ .f32 := constant S_ .f32 0x7F800000#32
  let main_v25 : FVec F S1000x3 .f32 := broadcastInDim S1000x3 ![] bcast_S_S1000x3 main_cst_8
  let main_v26 : IVec S1000x3 1 := cmpf .olt main_v24 main_v25
  let main_c_9 : IVec S_ 1 := constantI S_ 1 1#1
  let main_v27 : IVec S_ 1 := (fun x v => Host.reduce IntOp.andi x v reducesTo_S1000x3_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S8x3x128x2048 .f32) (main_arg1 : FVec F S8192x2048 .f32) (main_arg2 : FVec F S8192x2048 .f32) (main_arg3 : FVec F S2048x8192 .f32) (main_arg4 : FVec F S8192 .f32) (main_arg5 : FVec F S1000x3 .f32) (main_arg6 : FVec F S1000 .f32) : IVec S_ 1 :=
  let main_v0 : FVec F S8x3x128x2048 .f32 := Host.absf main_arg0
  let main_cst : FVec F S_ .f32 := constant S_ .f32 0x7F800000#32
  let main_v1 : FVec F S8x3x128x2048 .f32 := broadcastInDim S8x3x128x2048 ![] bcast_S_S8x3x128x2048 main_cst
  let main_v2 : IVec S8x3x128x2048 1 := cmpf .olt main_v0 main_v1
  let main_c : IVec S_ 1 := constantI S_ 1 1#1
  let main_v3 : IVec S_ 1 := (fun x v => Host.reduce IntOp.andi x v reducesTo_S8x3x128x2048_S_d0_1_2_3 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_arg6 main_v13 main_v16
-- ==== Kernel.lean ====
abbrev S8x3x128x2048 : Shape := ⟨4, ![8, 3, 128, 2048]⟩
abbrev S8192x2048 : Shape := ⟨2, ![8192, 2048]⟩
abbrev S2048x8192 : Shape := ⟨2, ![2048, 8192]⟩
abbrev S8192 : Shape := ⟨1, ![8192]⟩
abbrev S1000x3 : Shape := ⟨2, ![1000, 3]⟩
abbrev S1000 : Shape := ⟨1, ![1000]⟩
abbrev S3072x2048 : Shape := ⟨2, ![3072, 2048]⟩
abbrev S_ : Shape := ⟨0, ![]⟩
abbrev S1x8192 : Shape := ⟨2, ![1, 8192]⟩
abbrev S512x2048 : Shape := ⟨2, ![512, 2048]⟩
abbrev S512 : Shape := ⟨1, ![512]⟩
abbrev S512x1 : Shape := ⟨2, ![512, 1]⟩
abbrev S3072x8192 : Shape := ⟨2, ![3072, 8192]⟩
abbrev S1024x2048 : Shape := ⟨2, ![1024, 2048]⟩
abbrev S1024x512 : Shape := ⟨2, ![1024, 512]⟩
abbrev S128x8192 : Shape := ⟨2, ![128, 8192]⟩
abbrev S128 : Shape := ⟨1, ![128]⟩
abbrev S128x1 : Shape := ⟨2, ![128, 1]⟩
abbrev S512x8192 : Shape := ⟨2, ![512, 8192]⟩
abbrev S256x8192 : Shape := ⟨2, ![256, 8192]⟩
abbrev S512x256 : Shape := ⟨2, ![512, 256]⟩
abbrev S8x3 : Shape := ⟨2, ![8, 3]⟩
abbrev S3x1000 : Shape := ⟨2, ![3, 1000]⟩
abbrev S8x1000 : Shape := ⟨2, ![8, 1000]⟩
abbrev S1x1000 : Shape := ⟨2, ![1, 1000]⟩

abbrev nBuf : Space → Nat
  | .hbm => 93
  | .vmem => 23
  | .smem => 0
  | _ => 0

abbrev bufTy : (tb : Table) → Fin (tcTables nBuf tb) → BufTy
  | .hbm, ⟨0, _⟩ => ⟨S8x3x128x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192, .f32⟩
  | .hbm, ⟨5, _⟩ => ⟨S1000x3, .f32⟩
  | .hbm, ⟨6, _⟩ => ⟨S1000, .f32⟩
  | .hbm, ⟨7, _⟩ => ⟨S3072x2048, .f32⟩
  | .hbm, ⟨8, _⟩ => ⟨S8192x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | .hbm, ⟨31, _⟩ => ⟨S8192x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .bf16⟩
  | .hbm, ⟨54, _⟩ => ⟨S2048x8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S2048x8192, .f32⟩
  | .hbm, ⟨64, _⟩ => ⟨S2048x8192, .f32⟩
  | .hbm, ⟨65, _⟩ => ⟨S2048x8192, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S2048x8192, .f32⟩
  | .hbm, ⟨70, _⟩ => ⟨S2048x8192, .f32⟩
  | .hbm, ⟨71, _⟩ => ⟨S_, .f32⟩
  | .hbm, ⟨72, _⟩ => ⟨S2048x8192, .f32⟩
  | .hbm, ⟨73, _⟩ => ⟨S2048x8192, .f32⟩
  | .hbm, ⟨74, _⟩ => ⟨S2048x8192, .f32⟩
  | .hbm, ⟨75, _⟩ => ⟨S2048x8192, .f32⟩
  | .hbm, ⟨76, _⟩ => ⟨S2048x8192, .bf16⟩
  | .hbm, ⟨77, _⟩ => ⟨S1x8192, .f32⟩
  | .hbm, ⟨78, _⟩ => ⟨S3072x2048, .bf16⟩
  | .hbm, ⟨79, _⟩ => ⟨S3072x8192, .bf16⟩
  | .hbm, ⟨80, _⟩ => ⟨S3072x8192, .bf16⟩
  | .hbm, ⟨81, _⟩ => ⟨S3072x2048, .f32⟩
  | .hbm, ⟨82, _⟩ => ⟨S8x3x128x2048, .f32⟩
  | .hbm, ⟨83, _⟩ => ⟨S_, .f32⟩
  | .hbm, ⟨84, _⟩ => ⟨S8x3, .f32⟩
  | .hbm, ⟨85, _⟩ => ⟨S_, .f32⟩
  | .hbm, ⟨86, _⟩ => ⟨S8x3, .f32⟩
  | .hbm, ⟨87, _⟩ => ⟨S8x3, .f32⟩
  | .hbm, ⟨88, _⟩ => ⟨S3x1000, .f32⟩
  | .hbm, ⟨89, _⟩ => ⟨S8x1000, .f32⟩
  | .hbm, ⟨90, _⟩ => ⟨S1x1000, .f32⟩
  | .hbm, ⟨91, _⟩ => ⟨S8x1000, .f32⟩
  | .hbm, ⟨92, _⟩ => ⟨S8x1000, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1024x512, .bf16⟩
  | .local _ .vmem, ⟨11, _⟩ => ⟨S1024x512, .bf16⟩
  | .local _ .vmem, ⟨12, _⟩ => ⟨S128x8192, .bf16⟩
  | .local _ .vmem, ⟨13, _⟩ => ⟨S128x8192, .bf16⟩
  | .local _ .vmem, ⟨14, _⟩ => ⟨S1x8192, .f32⟩
  | .local _ .vmem, ⟨15, _⟩ => ⟨S128x8192, .bf16⟩
  | .local _ .vmem, ⟨16, _⟩ => ⟨S128x8192, .bf16⟩
  | .local _ .vmem, ⟨17, _⟩ => ⟨S512x8192, .bf16⟩
  | .local _ .vmem, ⟨18, _⟩ => ⟨S512x8192, .bf16⟩
  | .local _ .vmem, ⟨19, _⟩ => ⟨S256x8192, .bf16⟩
  | .local _ .vmem, ⟨20, _⟩ => ⟨S256x8192, .bf16⟩
  | .local _ .vmem, ⟨21, _⟩ => ⟨S512x256, .f32⟩
  | .local _ .vmem, ⟨22, _⟩ => ⟨S512x256, .f32⟩
  | _, _ => ⟨S8x3x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_cst_4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_cst_6 : Ref sig .tc := ⟨.hbm, 34, rfl⟩
abbrev main_v15 : Ref sig .tc := ⟨.hbm, 35, rfl⟩
abbrev main_cst_7 : Ref sig .tc := ⟨.hbm, 36, rfl⟩
abbrev main_v16 : Ref sig .tc := ⟨.hbm, 37, rfl⟩
abbrev main_cst_8 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_9 : Ref sig .tc := ⟨.hbm, 43, rfl⟩
abbrev main_cst_10 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_11 : Ref sig .tc := ⟨.hbm, 55, rfl⟩
abbrev main_v26 : Ref sig .tc := ⟨.hbm, 56, rfl⟩
abbrev main_cst_12 : Ref sig .tc := ⟨.hbm, 57, rfl⟩
abbrev main_v27 : Ref sig .tc := ⟨.hbm, 58, rfl⟩
abbrev main_cst_13 : Ref sig .tc := ⟨.hbm, 59, rfl⟩
abbrev main_v28 : Ref sig .tc := ⟨.hbm, 60, rfl⟩
abbrev main_cst_14 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_15 : Ref sig .tc := ⟨.hbm, 66, rfl⟩
abbrev main_cst_16 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_17 : Ref sig .tc := ⟨.hbm, 83, rfl⟩
abbrev main_v43 : Ref sig .tc := ⟨.hbm, 84, rfl⟩
abbrev main_cst_18 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![3, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![24], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x8192 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![6, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S256x8192 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  shapeCasts_S8x3x128x2048_S3072x2048 : S8x3x128x2048.ShapeCasts S3072x2048
  reducesTo_S8192x2048_S_d0_1 : S8192x2048.ReducesTo [0, 1] S_
  h_S_ : 0 < S_.numel
  bcast_S_S8192x2048 : S_.BroadcastsInDim S8192x2048 (![] : Fin 0 → Fin S8192x2048.rank)
  bitsLt_bf16_f32 : FTy.bits .bf16 < FTy.bits .f32
  reducesTo_S2048x8192_S_d0_1 : S2048x8192.ReducesTo [0, 1] S_
  bcast_S_S2048x8192 : S_.BroadcastsInDim S2048x8192 (![] : Fin 0 → Fin S2048x8192.rank)
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  packedbf16_S512x2048_S512x2048_0_0 : (Rect.unit (s := S512x2048) ![0, 0] S512x2048.size inb_S512x2048_S512x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S128x8192_S128 : S128x8192.Reduces [1] S128
  shapeCasts_S128_S128x1 : S128.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  packedbf16_S128x8192_S128x8192_0_0 : (Rect.unit (s := S128x8192) ![0, 0] S128x8192.size inb_S128x8192_S128x8192_0_0).PackedRows (EltTy.packing .bf16)
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S512x256_S512x256_0_0 : ∀ a, (![0, 0] : Fin 2 → Nat) a + S512x256.size a ≤ S512x256.size a
  h_S512x256 : 0 < S512x256.numel
  shapeCasts_S3072x2048_S8x3x128x2048 : S3072x2048.ShapeCasts S8x3x128x2048
  reducesTo_S8x3x128x2048_S8x3_d2_3 : S8x3x128x2048.ReducesTo [2, 3] S8x3
  bcast_S_S8x3 : S_.BroadcastsInDim S8x3 (![] : Fin 0 → Fin S8x3.rank)
  transposes_S1000x3_S3x1000_1_0 : S1000x3.Transposes [1, 0] S3x1000
  bcast_S1000_S1x1000_1 : S1000.BroadcastsInDim S1x1000 (![1] : Fin 1 → Fin S1x1000.rank)
  bcast_S1x1000_S8x1000_0_1 : S1x1000.BroadcastsInDim S8x1000 (![0, 1] : Fin 2 → Fin S8x1000.rank)
  dot_S1024x2048_S512x2048_S1024x512_1_1_0_0_n_n_wf : DotDims.WF S1024x2048 S512x2048 S1024x512 [1] [1] [0] [0] [] []
  dot_S512x8192_S256x8192_S512x256_1_1_0_0_n_n_wf : DotDims.WF S512x8192 S256x8192 S512x256 [1] [1] [0] [0] [] []
  dot_S8x3_S3x1000_S8x1000_1_0_0_1_n_n_wf : DotDims.WF S8x3 S3x1000 S8x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S3072x2048.size a
  hwx0_0 : ∀ i : grid0.Coords, EltTy.bits .f32 = 32 ∨ (Rect.block (s := S3072x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S3072x2048.size a
  hwx0_1 : ∀ i : grid0.Coords, EltTy.bits .bf16 = 32 ∨ (Rect.block (s := S3072x2048) S512x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S3072x2048.size a
  hwx1_0 : ∀ i : grid1.Coords, EltTy.bits .bf16 = 32 ∨ (Rect.block (s := S3072x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S8192x2048.size a
  hwx1_1 : ∀ i : grid1.Coords, EltTy.bits .bf16 = 32 ∨ (Rect.block (s := S8192x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S8192x2048.size a
  hwx1_2 : ∀ i : grid1.Coords, EltTy.bits .bf16 = 32 ∨ (Rect.block (s := S8192x2048) S512x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S3072x8192.size a
  hwx1_3 : ∀ i : grid1.Coords, EltTy.bits .bf16 = 32 ∨ (Rect.block (s := S3072x8192) S1024x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x8192.size a ≤ S3072x8192.size a
  hwx2_0 : ∀ i : grid2.Coords, EltTy.bits .bf16 = 32 ∨ (Rect.block (s := S3072x8192) S128x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8192.size a ≤ S1x8192.size a
  hwx2_1 : ∀ i : grid2.Coords, EltTy.bits .f32 = 32 ∨ (Rect.block (s := S1x8192) S1x8192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x8192.size a ≤ S3072x8192.size a
  hwx2_2 : ∀ i : grid2.Coords, EltTy.bits .bf16 = 32 ∨ (Rect.block (s := S3072x8192) S128x8192.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x8192.size a ≤ S3072x8192.size a
  hwx3_0 : ∀ i : grid3.Coords, EltTy.bits .bf16 = 32 ∨ (Rect.block (s := S3072x8192) S512x8192.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x8192.size a ≤ S2048x8192.size a
  hwx3_1 : ∀ i : grid3.Coords, EltTy.bits .bf16 = 32 ∨ (Rect.block (s := S2048x8192) S256x8192.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x256.size a ≤ S3072x2048.size a
  hwx3_2 : ∀ i : grid3.Coords, EltTy.bits .f32 = 32 ∨ (Rect.block (s := S3072x2048) S512x256.size (cc3_transform_2 i) (hinb3_2 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S512x8192_S256x8192_S512x256_1_1_0_0_n_n : DotDims S512x8192 S256x8192 S512x256 where
  lhsContracting := [1]
  rhsContracting := [1]
  lhsNonContracting := [0]
  rhsNonContracting := [0]
  lhsBatch := []
  rhsBatch := []
  wf := dot_S512x8192_S256x8192_S512x256_1_1_0_0_n_n_wf
def dot_S8x3_S3x1000_S8x1000_1_0_0_1_n_n : DotDims S8x3 S3x1000 S8x1000 where
  lhsContracting := [1]
  rhsContracting := [0]
  lhsNonContracting := [0]
  rhsNonContracting := [1]
  lhsBatch := []
  rhsBatch := []
  wf := dot_S8x3_S3x1000_S8x1000_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v38) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v39) S128x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x8192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S128x8192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S512x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S256x8192.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S512x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8x3x128x2048 : Shape := ⟨4, ![8, 3, 128, 2048]⟩
abbrev S8192x2048 : Shape := ⟨2, ![8192, 2048]⟩
abbrev S2048x8192 : Shape := ⟨2, ![2048, 8192]⟩
abbrev S8192 : Shape := ⟨1, ![8192]⟩
abbrev S1000x3 : Shape := ⟨2, ![1000, 3]⟩
abbrev S1000 : Shape := ⟨1, ![1000]⟩
abbrev S_ : Shape := ⟨0, ![]⟩
abbrev S8x3x128 : Shape := ⟨3, ![8, 3, 128]⟩
abbrev S8x3x128x1 : Shape := ⟨4, ![8, 3, 128, 1]⟩
abbrev S8x3x128x8192 : Shape := ⟨4, ![8, 3, 128, 8192]⟩
abbrev S1x1x1x8192 : Shape := ⟨4, ![1, 1, 1, 8192]⟩
abbrev S8x3 : Shape := ⟨2, ![8, 3]⟩
abbrev S3x1000 : Shape := ⟨2, ![3, 1000]⟩
abbrev S8x1000 : Shape := ⟨2, ![8, 1000]⟩
abbrev S1x1000 : Shape := ⟨2, ![1, 1000]⟩

abbrev nBuf : Space → Nat
  | .hbm => 199
  | .vmem => 0
  | .smem => 0
  | _ => 0

abbrev hbmTy0_0 (i : Nat) : BufTy := match i % 128 with
  | 0 => ⟨S8x3x128x2048, .f32⟩
  | 1 => ⟨S8192x2048, .f32⟩
  | 2 => ⟨S8192x2048, .f32⟩
  | 3 => ⟨S2048x8192, .f32⟩
  | 4 => ⟨S8192, .f32⟩
  | 5 => ⟨S1000x3, .f32⟩
  | 6 => ⟨S1000, .f32⟩
  | 7 => ⟨S8x3x128x2048, .f32⟩
  | 8 => ⟨S_, .f32⟩
  | 9 => ⟨S8x3x128, .f32⟩
  | 10 => ⟨S8x3x128x1, .f32⟩
  | 11 => ⟨S_, .f32⟩
  | 12 => ⟨S_, .f32⟩
  | 13 => ⟨S8x3x128x1, .f32⟩
  | 14 => ⟨S8x3x128x1, .f32⟩
  | 15 => ⟨S_, .f32⟩
  | 16 => ⟨S8x3x128x1, .f32⟩
  | 17 => ⟨S8x3x128x1, .f32⟩
  | 18 => ⟨S8x3x128x2048, .f32⟩
  | 19 => ⟨S8x3x128x2048, .f32⟩
  | 20 => ⟨S8x3x128x2048, .f32⟩
  | 21 => ⟨S_, .i32⟩
  | 22 => ⟨S_, .i32⟩
  | 23 => ⟨S_, .f32⟩
  | 24 => ⟨S8x3x128x2048, .f32⟩
  | 25 => ⟨S8x3x128x2048, .f32⟩
  | 26 => ⟨S_, .f32⟩
  | 27 => ⟨S8x3x128x2048, .f32⟩
  | 28 => ⟨S8x3x128x2048, .f32⟩
  | 29 => ⟨S8x3x128x2048, .f32⟩
  | 30 => ⟨S8x3x128x2048, .f32⟩
  | 31 => ⟨S8x3x128x2048, .f32⟩
  | 32 => ⟨S8x3x128x2048, .f32⟩
  | 33 => ⟨S8192x2048, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S8192x2048, .f32⟩
  | 44 => ⟨S8192x2048, .f32⟩
  | 45 => ⟨S8192x2048, .f32⟩
  | 46 => ⟨S_, .i32⟩
  | 47 => ⟨S_, .i32⟩
  | 48 => ⟨S_, .f32⟩
  | 49 => ⟨S8192x2048, .f32⟩
  | 50 => ⟨S8192x2048, .f32⟩
  | 51 => ⟨S_, .f32⟩
  | 52 => ⟨S8192x2048, .f32⟩
  | 53 => ⟨S8192x2048, .f32⟩
  | 54 => ⟨S8192x2048, .f32⟩
  | 55 => ⟨S8192x2048, .f32⟩
  | 56 => ⟨S8192x2048, .f32⟩
  | 57 => ⟨S8192x2048, .f32⟩
  | 58 => ⟨S8x3x128x8192, .f32⟩
  | 59 => ⟨S8x3x128x8192, .f32⟩
  | 60 => ⟨S8x3x128x8192, .f32⟩
  | 61 => ⟨S_, .f32⟩
  | 62 => ⟨S8x3x128x8192, .f32⟩
  | 63 => ⟨S8x3x128x8192, .f32⟩
  | 64 => ⟨S_, .f32⟩
  | 65 => ⟨S8x3x128x8192, .f32⟩
  | 66 => ⟨S8x3x128x8192, .f32⟩
  | 67 => ⟨S8x3x128x8192, .f32⟩
  | 68 => ⟨S8x3x128x2048, .f32⟩
  | 69 => ⟨S_, .f32⟩
  | 70 => ⟨S8x3x128, .f32⟩
  | 71 => ⟨S8x3x128x1, .f32⟩
  | 72 => ⟨S_, .f32⟩
  | 73 => ⟨S_, .f32⟩
  | 74 => ⟨S8x3x128x1, .f32⟩
  | 75 => ⟨S8x3x128x1, .f32⟩
  | 76 => ⟨S_, .f32⟩
  | 77 => ⟨S8x3x128x1, .f32⟩
  | 78 => ⟨S8x3x128x1, .f32⟩
  | 79 => ⟨S8x3x128x2048, .f32⟩
  | 80 => ⟨S8x3x128x2048, .f32⟩
  | 81 => ⟨S8x3x128x2048, .f32⟩
  | 82 => ⟨S_, .i32⟩
  | 83 => ⟨S_, .i32⟩
  | 84 => ⟨S_, .f32⟩
  | 85 => ⟨S8x3x128x2048, .f32⟩
  | 86 => ⟨S8x3x128x2048, .f32⟩
  | 87 => ⟨S_, .f32⟩
  | 88 => ⟨S8x3x128x2048, .f32⟩
  | 89 => ⟨S8x3x128x2048, .f32⟩
  | 90 => ⟨S8x3x128x2048, .f32⟩
  | 91 => ⟨S8x3x128x2048, .f32⟩
  | 92 => ⟨S8x3x128x2048, .f32⟩
  | 93 => ⟨S8x3x128x2048, .f32⟩
  | 94 => ⟨S8192x2048, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S8192x2048, .f32⟩
  | 105 => ⟨S8192x2048, .f32⟩
  | 106 => ⟨S8192x2048, .f32⟩
  | 107 => ⟨S_, .i32⟩
  | 108 => ⟨S_, .i32⟩
  | 109 => ⟨S_, .f32⟩
  | 110 => ⟨S8192x2048, .f32⟩
  | 111 => ⟨S8192x2048, .f32⟩
  | 112 => ⟨S_, .f32⟩
  | 113 => ⟨S8192x2048, .f32⟩
  | 114 => ⟨S8192x2048, .f32⟩
  | 115 => ⟨S8192x2048, .f32⟩
  | 116 => ⟨S8192x2048, .f32⟩
  | 117 => ⟨S8192x2048, .f32⟩
  | 118 => ⟨S8192x2048, .f32⟩
  | 119 => ⟨S8x3x128x8192, .f32⟩
  | 120 => ⟨S8x3x128x8192, .f32⟩
  | 121 => ⟨S8x3x128x8192, .f32⟩
  | 122 => ⟨S_, .f32⟩
  | 123 => ⟨S8x3x128, .f32⟩
  | 124 => ⟨S8x3x128x1, .f32⟩
  | 125 => ⟨S_, .f32⟩
  | 126 => ⟨S8x3x128x1, .f32⟩
  | 127 => ⟨S8x3x128x1, .f32⟩
  | _ => ⟨S8x3x128x2048, .f32⟩

abbrev hbmTy0_1 (i : Nat) : BufTy := match i % 128 with
  | 0 => ⟨S_, .f32⟩
  | 1 => ⟨S8x3x128x1, .f32⟩
  | 2 => ⟨S8x3x128x1, .f32⟩
  | 3 => ⟨S8x3x128x1, .f32⟩
  | 4 => ⟨S8x3x128x8192, .f32⟩
  | 5 => ⟨S8x3x128x8192, .f32⟩
  | 6 => ⟨S1x1x1x8192, .f32⟩
  | 7 => ⟨S8x3x128x8192, .f32⟩
  | 8 => ⟨S8x3x128x8192, .f32⟩
  | 9 => ⟨S8x3x128x8192, .f32⟩
  | 10 => ⟨S_, .f32⟩
  | 11 => ⟨S8x3x128, .f32⟩
  | 12 => ⟨S8x3x128x1, .f32⟩
  | 13 => ⟨S_, .f32⟩
  | 14 => ⟨S_, .f32⟩
  | 15 => ⟨S8x3x128x1, .f32⟩
  | 16 => ⟨S8x3x128x1, .f32⟩
  | 17 => ⟨S_, .f32⟩
  | 18 => ⟨S8x3x128x1, .f32⟩
  | 19 => ⟨S8x3x128x1, .f32⟩
  | 20 => ⟨S8x3x128x8192, .f32⟩
  | 21 => ⟨S8x3x128x8192, .f32⟩
  | 22 => ⟨S8x3x128x8192, .f32⟩
  | 23 => ⟨S_, .i32⟩
  | 24 => ⟨S_, .i32⟩
  | 25 => ⟨S_, .f32⟩
  | 26 => ⟨S8x3x128x8192, .f32⟩
  | 27 => ⟨S8x3x128x8192, .f32⟩
  | 28 => ⟨S_, .f32⟩
  | 29 => ⟨S8x3x128x8192, .f32⟩
  | 30 => ⟨S8x3x128x8192, .f32⟩
  | 31 => ⟨S8x3x128x8192, .f32⟩
  | 32 => ⟨S8x3x128x8192, .f32⟩
  | 33 => ⟨S8x3x128x8192, .f32⟩
  | 34 => ⟨S8x3x128x8192, .f32⟩
  | 35 => ⟨S2048x8192, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S2048x8192, .f32⟩
  | 46 => ⟨S2048x8192, .f32⟩
  | 47 => ⟨S2048x8192, .f32⟩
  | 48 => ⟨S_, .i32⟩
  | 49 => ⟨S_, .i32⟩
  | 50 => ⟨S_, .f32⟩
  | 51 => ⟨S2048x8192, .f32⟩
  | 52 => ⟨S2048x8192, .f32⟩
  | 53 => ⟨S_, .f32⟩
  | 54 => ⟨S2048x8192, .f32⟩
  | 55 => ⟨S2048x8192, .f32⟩
  | 56 => ⟨S2048x8192, .f32⟩
  | 57 => ⟨S2048x8192, .f32⟩
  | 58 => ⟨S2048x8192, .f32⟩
  | 59 => ⟨S2048x8192, .f32⟩
  | 60 => ⟨S8x3x128x2048, .f32⟩
  | 61 => ⟨S_, .f32⟩
  | 62 => ⟨S8x3, .f32⟩
  | 63 => ⟨S_, .f32⟩
  | 64 => ⟨S8x3, .f32⟩
  | 65 => ⟨S8x3, .f32⟩
  | 66 => ⟨S3x1000, .f32⟩
  | 67 => ⟨S8x1000, .f32⟩
  | 68 => ⟨S1x1000, .f32⟩
  | 69 => ⟨S8x1000, .f32⟩
  | 70 => ⟨S8x1000, .f32⟩
  | _ => ⟨S8x3x128x2048, .f32⟩

abbrev hbmTy (i : Nat) : BufTy := match i / 128 with
  | 0 => hbmTy0_0 i
  | 1 => hbmTy0_1 i
  | _ => ⟨S8x3x128x2048, .f32⟩

abbrev bufTy : (tb : Table) → Fin (tcTables nBuf tb) → BufTy
  | .hbm, ⟨i, _⟩ => hbmTy i
  | _, _ => ⟨S8x3x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_c_2 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_cst_5 : Ref sig .tc := ⟨.hbm, 38, rfl⟩
abbrev main_call3_v0 : Ref sig .tc := ⟨.hbm, 39, rfl⟩
abbrev main_v17 : Ref sig .tc := ⟨.hbm, 40, rfl⟩
abbrev main_cst_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_7 : Ref sig .tc := ⟨.hbm, 46, rfl⟩
abbrev main_c_8 : Ref sig .tc := ⟨.hbm, 47, rfl⟩
abbrev main_call5_v0 : Ref sig .tc := ⟨.hbm, 48, rfl⟩
abbrev main_call5_v1 : Ref sig .tc := ⟨.hbm, 49, rfl⟩
abbrev main_call5_v2 : Ref sig .tc := ⟨.hbm, 50, rfl⟩
abbrev main_call5_v3 : Ref sig .tc := ⟨.hbm, 51, rfl⟩
abbrev main_call5_v4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_call6_v0 : Ref sig .tc := ⟨.hbm, 59, rfl⟩
abbrev main_call6_v1 : Ref sig .tc := ⟨.hbm, 60, rfl⟩
abbrev main_call6_cst : Ref sig .tc := ⟨.hbm, 61, rfl⟩
abbrev main_call6_v2 : Ref sig .tc := ⟨.hbm, 62, rfl⟩
abbrev main_call6_v3 : Ref sig .tc := ⟨.hbm, 63, rfl⟩
abbrev main_call6_cst_0 : Ref sig .tc := ⟨.hbm, 64, rfl⟩
abbrev main_call6_v4 : Ref sig .tc := ⟨.hbm, 65, rfl⟩
abbrev main_call6_v5 : Ref sig .tc := ⟨.hbm, 66, rfl⟩
abbrev main_v28 : Ref sig .tc := ⟨.hbm, 67, rfl⟩
abbrev main_v29 : Ref sig .tc := ⟨.hbm, 68, rfl⟩
abbrev main_cst_9 : Ref sig .tc := ⟨.hbm, 69, rfl⟩
abbrev main_v30 : Ref sig .tc := ⟨.hbm, 70, rfl⟩
abbrev main_v31 : Ref sig .tc := ⟨.hbm, 71, rfl⟩
abbrev main_cst_10 : Ref sig .tc := ⟨.hbm, 72, rfl⟩
abbrev main_call7_v0 : Ref sig .tc := ⟨.hbm, 73, rfl⟩
abbrev main_call7_v1 : Ref sig .tc := ⟨.hbm, 74, rfl⟩
abbrev main_v32 : Ref sig .tc := ⟨.hbm, 75, rfl⟩
abbrev main_cst_11 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_c_12 : Ref sig .tc := ⟨.hbm, 82, rfl⟩
abbrev main_c_13 : Ref sig .tc := ⟨.hbm, 83, rfl⟩
abbrev main_call9_v0 : Ref sig .tc := ⟨.hbm, 84, rfl⟩
abbrev main_call9_v1 : Ref sig .tc := ⟨.hbm, 85, rfl⟩
abbrev main_call9_v2 : Ref sig .tc := ⟨.hbm, 86, rfl⟩
abbrev main_call9_v3 : Ref sig .tc := ⟨.hbm, 87, rfl⟩
abbrev main_call9_v4 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_cst_14 : Ref sig .tc := ⟨.hbm, 95, rfl⟩
abbrev main_v44 : Ref sig .tc := ⟨.hbm, 96, rfl⟩
abbrev main_cst_15 : Ref sig .tc := ⟨.hbm, 97, rfl⟩
abbrev main_v45 : Ref sig .tc := ⟨.hbm, 98, rfl⟩
abbrev main_cst_16 : Ref sig .tc := ⟨.hbm, 99, rfl⟩
abbrev main_call10_v0 : Ref sig .tc := ⟨.hbm, 100, rfl⟩
abbrev main_v46 : Ref sig .tc := ⟨.hbm, 101, rfl⟩
abbrev main_cst_17 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_c_18 : Ref sig .tc := ⟨.hbm, 107, rfl⟩
abbrev main_c_19 : Ref sig .tc := ⟨.hbm, 108, rfl⟩
abbrev main_call12_v0 : Ref sig .tc := ⟨.hbm, 109, rfl⟩
abbrev main_call12_v1 : Ref sig .tc := ⟨.hbm, 110, rfl⟩
abbrev main_call12_v2 : Ref sig .tc := ⟨.hbm, 111, rfl⟩
abbrev main_call12_v3 : Ref sig .tc := ⟨.hbm, 112, rfl⟩
abbrev main_call12_v4 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_cst_20 : Ref sig .tc := ⟨.hbm, 122, rfl⟩
abbrev main_v59 : Ref sig .tc := ⟨.hbm, 123, rfl⟩
abbrev main_v60 : Ref sig .tc := ⟨.hbm, 124, rfl⟩
abbrev main_cst_21 : Ref sig .tc := ⟨.hbm, 125, rfl⟩
abbrev main_v61 : Ref sig .tc := ⟨.hbm, 126, rfl⟩
abbrev main_v62 : Ref sig .tc := ⟨.hbm, 127, rfl⟩
abbrev main_cst_22 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_cst_23 : Ref sig .tc := ⟨.hbm, 138, rfl⟩
abbrev main_v72 : Ref sig .tc := ⟨.hbm, 139, rfl⟩
abbrev main_v73 : Ref sig .tc := ⟨.hbm, 140, rfl⟩
abbrev main_cst_24 : Ref sig .tc := ⟨.hbm, 141, rfl⟩
abbrev main_call13_v0 : Ref sig .tc := ⟨.hbm, 142, rfl⟩
abbrev main_call13_v1 : Ref sig .tc := ⟨.hbm, 143, rfl⟩
abbrev main_v74 : Ref sig .tc := ⟨.hbm, 144, rfl⟩
abbrev main_cst_25 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_c_26 : Ref sig .tc := ⟨.hbm, 151, rfl⟩
abbrev main_c_27 : Ref sig .tc := ⟨.hbm, 152, rfl⟩
abbrev main_call15_v0 : Ref sig .tc := ⟨.hbm, 153, rfl⟩
abbrev main_call15_v1 : Ref sig .tc := ⟨.hbm, 154, rfl⟩
abbrev main_call15_v2 : Ref sig .tc := ⟨.hbm, 155, rfl⟩
abbrev main_call15_v3 : Ref sig .tc := ⟨.hbm, 156, rfl⟩
abbrev main_call15_v4 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_cst_28 : Ref sig .tc := ⟨.hbm, 164, rfl⟩
abbrev main_v86 : Ref sig .tc := ⟨.hbm, 165, rfl⟩
abbrev main_cst_29 : Ref sig .tc := ⟨.hbm, 166, rfl⟩
abbrev main_v87 : Ref sig .tc := ⟨.hbm, 167, rfl⟩
abbrev main_cst_30 : Ref sig .tc := ⟨.hbm, 168, rfl⟩
abbrev main_call16_v0 : Ref sig .tc := ⟨.hbm, 169, rfl⟩
abbrev main_v88 : Ref sig .tc := ⟨.hbm, 170, rfl⟩
abbrev main_cst_31 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_c_32 : Ref sig .tc := ⟨.hbm, 176, rfl⟩
abbrev main_c_33 : Ref sig .tc := ⟨.hbm, 177, rfl⟩
abbrev main_call18_v0 : Ref sig .tc := ⟨.hbm, 178, rfl⟩
abbrev main_call18_v1 : Ref sig .tc := ⟨.hbm, 179, rfl⟩
abbrev main_call18_v2 : Ref sig .tc := ⟨.hbm, 180, rfl⟩
abbrev main_call18_v3 : Ref sig .tc := ⟨.hbm, 181, rfl⟩
abbrev main_call18_v4 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_cst_34 : Ref sig .tc := ⟨.hbm, 189, rfl⟩
abbrev main_v99 : Ref sig .tc := ⟨.hbm, 190, rfl⟩
abbrev main_cst_35 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩

abbrev nD : Nat := 1
abbrev τ : Topo := Topo.v7x

variable {F : FTy → Type} [FloatOps F]

class Facts₀ : Prop where
  reducesTo_S8x3x128x2048_S8x3x128_d3 : S8x3x128x2048.ReducesTo [3] S8x3x128
  h_S_ : 0 < S_.numel
  bcast_S8x3x128_S8x3x128x1_0_1_2 : S8x3x128.BroadcastsInDim S8x3x128x1 (![0, 1, 2] : Fin 3 → Fin S8x3x128x1.rank)
  bcast_S_S8x3x128x1 : S_.BroadcastsInDim S8x3x128x1 (![] : Fin 0 → Fin S8x3x128x1.rank)
  bcast_S8x3x128x1_S8x3x128x2048_0_1_2_3 : S8x3x128x1.BroadcastsInDim S8x3x128x2048 (![0, 1, 2, 3] : Fin 4 → Fin S8x3x128x2048.rank)
  bcast_S_S8x3x128x2048 : S_.BroadcastsInDim S8x3x128x2048 (![] : Fin 0 → Fin S8x3x128x2048.rank)
  reducesTo_S8192x2048_S_d0_1 : S8192x2048.ReducesTo [0, 1] S_
  bcast_S_S8192x2048 : S_.BroadcastsInDim S8192x2048 (![] : Fin 0 → Fin S8192x2048.rank)
  bcast_S_S8x3x128x8192 : S_.BroadcastsInDim S8x3x128x8192 (![] : Fin 0 → Fin S8x3x128x8192.rank)
  reducesTo_S8x3x128x8192_S8x3x128_d3 : S8x3x128x8192.ReducesTo [3] S8x3x128
  bcast_S8x3x128x1_S8x3x128x8192_0_1_2_3 : S8x3x128x1.BroadcastsInDim S8x3x128x8192 (![0, 1, 2, 3] : Fin 4 → Fin S8x3x128x8192.rank)
  bcast_S8192_S1x1x1x8192_3 : S8192.BroadcastsInDim S1x1x1x8192 (![3] : Fin 1 → Fin S1x1x1x8192.rank)
  bcast_S1x1x1x8192_S8x3x128x8192_0_1_2_3 : S1x1x1x8192.BroadcastsInDim S8x3x128x8192 (![0, 1, 2, 3] : Fin 4 → Fin S8x3x128x8192.rank)
  reducesTo_S2048x8192_S_d0_1 : S2048x8192.ReducesTo [0, 1] S_
  bcast_S_S2048x8192 : S_.BroadcastsInDim S2048x8192 (![] : Fin 0 → Fin S2048x8192.rank)
  reducesTo_S8x3x128x2048_S8x3_d2_3 : S8x3x128x2048.ReducesTo [2, 3] S8x3
  bcast_S_S8x3 : S_.BroadcastsInDim S8x3 (![] : Fin 0 → Fin S8x3.rank)
  transposes_S1000x3_S3x1000_1_0 : S1000x3.Transposes [1, 0] S3x1000
  bcast_S1000_S1x1000_1 : S1000.BroadcastsInDim S1x1000 (![1] : Fin 1 → Fin S1x1000.rank)
  bcast_S1x1000_S8x1000_0_1 : S1x1000.BroadcastsInDim S8x1000 (![0, 1] : Fin 2 → Fin S8x1000.rank)
  dot_S8x3x128x2048_S8192x2048_S8x3x128x8192_3_1_012_0_n_n_wf : DotDims.WF S8x3x128x2048 S8192x2048 S8x3x128x8192 [3] [1] [0, 1, 2] [0] [] []
  dot_S8x3x128x8192_S2048x8192_S8x3x128x2048_3_1_012_0_n_n_wf : DotDims.WF S8x3x128x8192 S2048x8192 S8x3x128x2048 [3] [1] [0, 1, 2] [0] [] []
  dot_S8x3_S3x1000_S8x1000_1_0_0_1_n_n_wf : DotDims.WF S8x3 S3x1000 S8x1000 [1] [0] [0] [1] [] []

variable [Facts₀]

def dot_S8x3x128x2048_S8192x2048_S8x3x128x8192_3_1_012_0_n_n : DotDims S8x3x128x2048 S8192x2048 S8x3x128x8192 where
  lhsContracting := [3]
  rhsContracting := [1]
  lhsNonContracting := [0, 1, 2]
  rhsNonContracting := [0]
  lhsBatch := []
  rhsBatch := []
  wf := dot_S8x3x128x2048_S8192x2048_S8x3x128x8192_3_1_012_0_n_n_wf
def dot_S8x3x128x8192_S2048x8192_S8x3x128x2048_3_1_012_0_n_n : DotDims S8x3x128x8192 S2048x8192 S8x3x128x2048 where
  lhsContracting := [3]
  rhsContracting := [1]
  lhsNonContracting := [0, 1, 2]
  rhsNonContracting := [0]
  lhsBatch := []
  rhsBatch := []
  wf := dot_S8x3x128x8192_S2048x8192_S8x3x128x2048_3_1_012_0_n_n_wf
def dot_S8x3_S3x1000_S8x1000_1_0_0_1_n_n : DotDims S8x3 S3x1000 S8x1000 where
  lhsContracting := [1]
  rhsContracting := [0]
  lhsNonContracting := [0]
  rhsNonContracting := [1]
  lhsBatch := []
  rhsBatch := []
  wf := dot_S8x3_S3x1000_S8x1000_1_0_0_1_n_n_wf

class Facts : Prop extends Facts₀ where

variable [Facts]
-- ==== Proof.KRun.lean ====
/-
  The kernel program's run with its result named.

  The program is thirteen stretches of host operations, four pipelined regions, and a last stretch of host operations.
  Every weakly fair execution from a memory with zero counters terminates, and at the end every buffer that outlives
  the regions holds what the fold of these segments from the launch memory gives it: a stretch applies its operations
  to the contents before it; a region leaves its arrays at what its write-backs leave and every other buffer as it
  found it. Read at the result buffer this names the program's result; read at an argument it gives the argument back.
-/
import proofs.«122326_j3453153706638_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the seven arguments end as launched. -/
theorem run_main : θ_run defs (onTc (τ := τ) (main (F := F))) ⟨m, fun _ => 0, ρ⟩ (fun r => ∀ c : Dev nD,
      r.2.mem ((c.tc : Thread nD τ).loc main_v50) = W18 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v50 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c)⟩)

end Cert.KernelIdeal.Val

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.LibTypedRef.lean ====
import Idealize.ShloMosaic.Lib.StableHlo

/-!
# A typed reference's two transports cancel

A typed reference `x : TRef sig T` carries contents of the value type `T` to its buffer's own type (`toBuf`) and
back (`ofBuf`), along the equation between the two types. Going there and back is the identity, whatever proof of
the equation the reference holds. A fold through a line of operations on typed references leaves one such pair
around every intermediate value; rewriting with this lemma removes them, so that the remaining term can be compared
with a plain one without unfolding any transport.
-/

namespace Cert.Lib.TypedRef

open Idealize.ShloMosaic Idealize.ShloMosaic.StableHlo

/-- Contents carried to a typed reference's buffer and back are the contents. -/
theorem ofBuf_toBuf {Val : EltTy → Type} {sig : RefSig} {T : BufTy} (x : TRef sig T) (v : T.Contents Val) :
    x.ofBuf (x.toBuf v) = v := by
  obtain ⟨r, rfl, _, _⟩ := x; rfl

end Cert.Lib.TypedRef
-- ==== Proof.RefRun.lean ====
import proofs.«122326_j3453153706638_2_alg».proof.Proof.RefReadPatched
import proofs.«122326_j3453153706638_2_alg».proof.Proof.LibAfterAssign
import proofs.«122326_j3453153706638_2_alg».proof.Proof.LibTypedRef

/-!
# The reference program's run, read one operation at a time

The reference is a straight line of 192 operations in single-assignment form: the k-th operation writes the k-th
reference of the list `ws` and nothing else (`hW`), and reads only arguments of the program and results of earlier
operations. The references of `ws` are numbered consecutively from 7 in program order (`ws_keys`), the arguments 0 to 6;
so a reference whose number is below `7 + k` is written by no operation from position `k` on (`nm`). This settles every
side condition of the per-operation equations of the fold by a comparison of two numbers.

The line from position `k` is the k-th operation followed by the line from position `k + 1` (`hk_<k>`, by computation).
With these, the contents after the whole line satisfy each operation's own equation (`after_nullary`, `after_unary`,
`after_binary`): at an argument the fold keeps the launch contents (`fin_main_arg*`); at the result of the k-th operation
it holds the operation's function of the fold at the operands, which the equations already obtained (`fin_<operand>`)
rewrite into the values `val_<operand>` of the arguments; the result is `val_<result>` by that definition's own equation.
For an operation of a called function the function is conjugated by the two transports of its typed references along
an equation between a type and itself, and equals the function itself (`cast_unary`, `cast_binary`).
No composed term of the program is ever formed. `ref_run` puts the last equation and the arguments' equations under
the run of the straight line (`run_seq`): every weakly fair execution terminates, the result buffer holds
`val_main_v106` of the arguments' launch contents, and the arguments are unchanged.
-/

noncomputable section

namespace Cert.ReferenceIdeal.RefVal

open Cert.ReferenceIdeal Cert.ReferenceIdeal.Gen Cert.ReferenceIdeal.ValueP Cert.ReferenceIdeal.ReadP Idealize.ShloMosaic
  Idealize.ShloMosaic.TcCoe Idealize.SL.Sem Idealize.ShloMosaic.StableHlo Cert.Lib.AfterAssign

variable {F : FTy → Type} [FloatOps F]

/-- In a list whose members' numbers are `s, s+1, …` in order, a member of the rest from position `k` has a number
    at least `s + k`: so one with a smaller number is not there. -/
theorem not_mem_drop_of_keys {α : Type} (key : α → Nat) {l : List α} {s n : Nat}
    (hl : l.map key = List.range' s n) (k : Nat) {r : α} (h : key r < s + k) : r ∉ l.drop k := by
  intro hm
  have h1 : key r ∈ (l.drop k).map key := List.mem_map_of_mem hm
  rw [List.map_drop, hl, List.drop_range', List.mem_range'_1] at h1
  omega

/-- A value carried along an equation between a type and itself is the value. The next two: a function conjugated by
    such transports, at its operands and at its result, is the function. -/
theorem cast_nullary {β : Type} (hβ : β = β) (v : β) : cast hβ v = v := rfl

theorem cast_unary {α β : Type} (hα : α = α) (hβ : β = β) (f : α → β) (u : α) : cast hβ (f (cast hα u)) = f u := rfl

theorem cast_binary {α β γ : Type} (hα : α = α) (hβ : β = β) (hγ : γ = γ) (f : α → β → γ) (u : α) (v : β) :
    cast hγ (f (cast hα u) (cast hβ v)) = f u v := rfl

/-- The result references of the 192 operations, in program order. -/
noncomputable def ws : List (Ref sig .tc) :=
  [main_v0, main_cst, main_v1, main_v2, main_cst_0, main_call0_v0, main_call0_v1, main_v3, main_cst_1, main_v4, main_v5, main_v6, main_v7, main_v8, main_c, main_c_2, main_call2_v0, main_call2_v1, main_call2_v2, main_call2_v3, main_call2_v4, main_v9, main_v10, main_v11, main_v12, main_v13, main_v14, main_cst_3, main_v15, main_cst_4, main_v16, main_cst_5, main_call3_v0, main_v17, main_cst_6, main_v18, main_v19, main_v20, main_v21, main_c_7, main_c_8, main_call5_v0, main_call5_v1, main_call5_v2, main_call5_v3, main_call5_v4, main_v22, main_v23, main_v24, main_v25, main_v26, main_v27, main_call6_v0, main_call6_v1, main_call6_cst, main_call6_v2, main_call6_v3, main_call6_cst_0, main_call6_v4, main_call6_v5, main_v28, main_v29, main_cst_9, main_v30, main_v31, main_cst_10, main_call7_v0, main_call7_v1, main_v32, main_cst_11, main_v33, main_v34, main_v35, main_v36, main_v37, main_c_12, main_c_13, main_call9_v0, main_call9_v1, main_call9_v2, main_call9_v3, main_call9_v4, main_v38, main_v39, main_v40, main_v41, main_v42, main_v43, main_cst_14, main_v44, main_cst_15, main_v45, main_cst_16, main_call10_v0, main_v46, main_cst_17, main_v47, main_v48, main_v49, main_v50, main_c_18, main_c_19, main_call12_v0, main_call12_v1, main_call12_v2, main_call12_v3, main_call12_v4, main_v51, main_v52, main_v53, main_v54, main_v55, main_v56, main_v57, main_v58, main_cst_20, main_v59, main_v60, main_cst_21, main_v61, main_v62, main_cst_22, main_v63, main_v64, main_v65, main_v66, main_v67, main_v68, main_v69, main_v70, main_v71, main_cst_23, main_v72, main_v73, main_cst_24, main_call13_v0, main_call13_v1, main_v74, main_cst_25, main_v75, main_v76, main_v77, main_v78, main_v79, main_c_26, main_c_27, main_call15_v0, main_call15_v1, main_call15_v2, main_call15_v3, main_call15_v4, main_v80, main_v81, main_v82, main_v83, main_v84, main_v85, main_cst_28, main_v86, main_cst_29, main_v87, main_cst_30, main_call16_v0, main_v88, main_cst_31, main_v89, main_v90, main_v91, main_v92, main_c_32, main_c_33, main_call18_v0, main_call18_v1, main_call18_v2, main_call18_v3, main_call18_v4, main_v93, main_v94, main_v95, main_v96, main_v97, main_v98, main_cst_34, main_v99, main_cst_35, main_v100, main_v101, main_v102, main_v103, main_v104, main_v105, main_v106]

/-- Their numbers are 7, 8, …, 198 in order. -/
theorem ws_keys : ws.map (fun r => r.idx.val) = List.range' 7 192 := by decide

/-- A reference numbered below `7 + k` is written by no operation from position `k` on. -/
theorem nm (r : Ref sig .tc) (k : Nat) (h : r.idx.val < 7 + k) : r ∉ ws.drop k :=
  not_mem_drop_of_keys (fun r => r.idx.val) ws_keys k h

/-- A reference numbered below 7 (an argument) is written by no operation. -/
theorem nm0 (r : Ref sig .tc) (h : r.idx.val < 7) : r ∉ ws := nm r 0 h

set_option maxRecDepth 8192 in
/-- The k-th operation writes exactly the k-th reference of `ws`. -/
theorem hW : WritesAre (ops (F := F)) ws :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

set_option maxRecDepth 8192 in
/-- Every operation determines its results. -/
theorem ops_fresh : ∀ op ∈ (ops : List (HloOp τ sig (Elt F))), op.fresh = ∅ :=
  List.forall_iff_forall_mem.1
    (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (ops : List (HloOp τ sig (Elt F))).Forall fun op => op.fresh = ∅)

section
variable (V : Valuation τ sig (Elt F))

theorem fin_main_arg0 :
    after (ops (F := F)) V (Proc.devRef .tc main_arg0) = V (Proc.devRef .tc main_arg0) :=
  after_of_not_written hW V (nm0 main_arg0 (by decide))

theorem fin_main_arg1 :
    after (ops (F := F)) V (Proc.devRef .tc main_arg1) = V (Proc.devRef .tc main_arg1) :=
  after_of_not_written hW V (nm0 main_arg1 (by decide))

theorem fin_main_arg2 :
    after (ops (F := F)) V (Proc.devRef .tc main_arg2) = V (Proc.devRef .tc main_arg2) :=
  after_of_not_written hW V (nm0 main_arg2 (by decide))

theorem fin_main_arg3 :
    after (ops (F := F)) V (Proc.devRef .tc main_arg3) = V (Proc.devRef .tc main_arg3) :=
  after_of_not_written hW V (nm0 main_arg3 (by decide))

theorem fin_main_arg4 :
    after (ops (F := F)) V (Proc.devRef .tc main_arg4) = V (Proc.devRef .tc main_arg4) :=
  after_of_not_written hW V (nm0 main_arg4 (by decide))

theorem fin_main_arg5 :
    after (ops (F := F)) V (Proc.devRef .tc main_arg5) = V (Proc.devRef .tc main_arg5) :=
  after_of_not_written hW V (nm0 main_arg5 (by decide))

theorem fin_main_arg6 :
    after (ops (F := F)) V (Proc.devRef .tc main_arg6) = V (Proc.devRef .tc main_arg6) :=
  after_of_not_written hW V (nm0 main_arg6 (by decide))

theorem hk_0 : (ops (F := F)).drop 0 = unary main_arg0 main_v0 (Host.absf : (⟨S8x3x128x2048, .f32⟩ : BufTy).Contents (Elt F) → (⟨S8x3x128x2048, .f32⟩ : BufTy).Contents (Elt F)) :: (ops (F := F)).drop 1 := rfl

theorem fin_main_v0 :
    after (ops (F := F)) V (Proc.devRef .tc main_v0) = val_main_v0 (F := F) (V (Proc.devRef .tc main_arg0)) := by
  rw [after_unary hW 0 hk_0 V (nm main_v0 1 (by decide)) (nm main_arg0 0 (by decide)), fin_main_arg0 V]
  rfl

theorem hk_1 : (ops (F := F)).drop 1 = nullary main_cst (constant S_ .f32 0xFF800000#32) :: (ops (F := F)).drop 2 := rfl

theorem fin_main_cst :
    after (ops (F := F)) V (Proc.devRef .tc main_cst) = val_main_cst (F := F) := by
  rw [after_nullary hW 1 hk_1 V (nm main_cst 2 (by decide))]
  rfl

theorem hk_2 : (ops (F := F)).drop 2 = binary main_v0 main_cst main_v1 ((fun x v => Host.reduce FloatOps.maximumf x v reducesTo_S8x3x128x2048_S8x3x128_d3 h_S_) : (⟨S8x3x128x2048, .f32⟩ : BufTy).Contents (Elt F) → (⟨S_, .f32⟩ : BufTy).Contents (Elt F) → (⟨S8x3x128, .f32⟩ : BufTy).Contents (Elt F)) :: (ops (F := F)).drop 3 := rfl

theorem fin_main_v1 :
    after (ops (F := F)) V (Proc.devRef .tc main_v1) = val_main_v1 (F := F) (V (Proc.devRef .tc main_arg0)) := by
  rw [after_binary hW 2 hk_2 V (nm main_v1 3 (by decide)) (nm main_v0 2 (by decide)) (nm main_cst 2 (by decide)), fin_main_v0 V, fin_main_cst V]
  rfl

theorem hk_3 : (ops (F := F)).drop 3 = unary main_v1 main_v2 (broadcastInDim S8x3x128x1 ![0, 1, 2] bcast_S8x3x128_S8x3x128x1_0_1_2 : (⟨S8x3x128, .f32⟩ : BufTy).Contents (Elt F) → (⟨S8x3x128x1, .f32⟩ : BufTy).Contents (Elt F)) :: (ops (F := F)).drop 4 := rfl

theorem fin_main_v2 :
    after (ops (F := F)) V (Proc.devRef .tc main_v2) = val_main_v2 (F := F) (V (Proc.devRef .tc main_arg0)) := by
  rw [after_unary hW 3 hk_3 V (nm main_v2 4 (by decide)) (nm main_v1 3 (by decide)), fin_main_v1 V]
  rfl

theorem hk_4 : (ops (F := F)).drop 4 = nullary main_cst_0 (constant S_ .f32 0x3727C5AC#32) :: (ops (F := F)).drop 5 := rfl

theorem fin_main_cst_0 :
    after (ops (F := F)) V (Proc.devRef .tc main_cst_0) = val_main_cst_0 (F := F) := by
  rw [after_nullary hW 4 hk_4 V (nm main_cst_0 5 (by decide))]
  rfl

theorem hk_5 : (ops (F := F)).drop 5 = TRef.unary (TRef.of (T := ⟨S_, .f32⟩) main_cst_0) (TRef.of (T := ⟨S_, .f32⟩) main_call0_v0) id :: (ops (F := F)).drop 6 := rfl

theorem fin_main_call0_v0 :
    after (ops (F := F)) V (Proc.devRef .tc main_call0_v0) = val_main_call0_v0 (F := F) := by
  rw [after_unary hW 5 hk_5 V (nm main_call0_v0 6 (by decide)) (nm main_cst_0 5 (by decide)), fin_main_cst_0 V]
  exact cast_unary _ _ _ _

theorem hk_6 : (ops (F := F)).drop 6 = TRef.unary (TRef.of (T := ⟨S_, .f32⟩) main_call0_v0) (TRef.of (T := ⟨S8x3x128x1, .f32⟩) main_call0_v1) (broadcastInDim S8x3x128x1 ![] bcast_S_S8x3x128x1) :: (ops (F := F)).drop 7 := rfl

theorem fin_main_call0_v1 :
    after (ops (F := F)) V (Proc.devRef .tc main_call0_v1) = val_main_call0_v1 (F := F) := by
  rw [after_unary hW 6 hk_6 V (nm main_call0_v1 7 (by decide)) (nm main_call0_v0 6 (by decide)), fin_main_call0_v0 V]
  exact cast_unary _ _ _ _

theorem hk_7 : (ops (F := F)).drop 7 = TRef.binary (TRef.of (T := ⟨S8x3x128x1, .f32⟩) main_call0_v1) (TRef.of (T := ⟨S8x3x128x1, .f32⟩) main_v2) (TRef.of (T := ⟨S8x3x128x1, .f32⟩) main_v3) maximumf :: (ops (F := F)).drop 8 := rfl

theorem fin_main_v3 :
    after (ops (F := F)) V (Proc.devRef .tc main_v3) = val_main_v3 (F := F) (V (Proc.devRef .tc main_arg0)) := by
  rw [after_binary hW 7 hk_7 V (nm main_v3 8 (by decide)) (nm main_call0_v1 7 (by decide)) (nm main_v2 7 (by decide)), fin_main_call0_v1 V, fin_main_v2 V]
  exact cast_binary _ _ _ _ _ _

theorem hk_8 : (ops (F := F)).drop 8 = nullary main_cst_1 (constant S_ .f32 0x42FE0000#32) :: (ops (F := F)).drop 9 := rfl

theorem fin_main_cst_1 :
    after (ops (F := F)) V (Proc.devRef .tc main_cst_1) = val_main_cst_1 (F := F) := by
  rw [after_nullary hW 8 hk_8 V (nm main_cst_1 9 (by decide))]
  rfl

theorem hk_9 : (ops (F := F)).drop 9 = unary main_cst_1 main_v4 (broadcastInDim S8x3x128x1 ![] bcast_S_S8x3x128x1 : (⟨S_, .f32⟩ : BufTy).Contents (Elt F) → (⟨S8x3x128x1, .f32⟩ : BufTy).Contents (Elt F)) :: (ops (F := F)).drop 10 := rfl

theorem fin_main_v4 :
    after (ops (F := F)) V (Proc.devRef .tc main_v4) = val_main_v4 (F := F) := by
  rw [after_unary hW 9 hk_9 V (nm main_v4 10 (by decide)) (nm main_cst_1 9 (by decide)), fin_main_cst_1 V]
  rfl

theorem hk_10 : (ops (F := F)).drop 10 = binary main_v4 main_v3 main_v5 (Host.divf : (⟨S8x3x128x1, .f32⟩ : BufTy).Contents (Elt F) → (⟨S8x3x128x1, .f32⟩ : BufTy).Contents (Elt F) → (⟨S8x3x128x1, .f32⟩ : BufTy).Contents (Elt F)) :: (ops (F := F)).drop 11 := rfl

theorem fin_main_v5 :
    after (ops (F := F)) V (Proc.devRef .tc main_v5) = val_main_v5 (F := F) (V (Proc.devRef .tc main_arg0)) := by
  rw [after_binary hW 10 hk_10 V (nm main_v5 11 (by decide)) (nm main_v4 10 (by decide)) (nm main_v3 10 (by decide)), fin_main_v4 V, fin_main_v3 V]
  rfl

theorem hk_11 : (ops (F := F)).drop 11 = unary main_v5 main_v6 (broadcastInDim S8x3x128x2048 ![0, 1, 2, 3] bcast_S8x3x128x1_S8x3x128x2048_0_1_2_3 : (⟨S8x3x128x1, .f32⟩ : BufTy).Contents (Elt F) → (⟨S8x3x128x2048, .f32⟩ : BufTy).Contents (Elt F)) :: (ops (F := F)).drop 12 := rfl

theorem fin_main_v6 :
    after (ops (F := F)) V (Proc.devRef .tc main_v6) = val_main_v6 (F := F) (V (Proc.devRef .tc main_arg0)) := by
  rw [after_unary hW 11 hk_11 V (nm main_v6 12 (by decide)) (nm main_v5 11 (by decide)), fin_main_v5 V]
  rfl

theorem hk_12 : (ops (F := F)).drop 12 = binary main_arg0 main_v6 main_v7 (mulf : (⟨S8x3x128x2048, .f32⟩ : BufTy).Contents (Elt F) → (⟨S8x3x128x2048, .f32⟩ : BufTy).Contents (Elt F) → (⟨S8x3x128x2048, .f32⟩ : BufTy).Contents (Elt F)) :: (ops (F := F)).drop 13 := rfl

theorem fin_main_v7 :
    after (ops (F := F)) V (Proc.devRef .tc main_v7) = val_main_v7 (F := F) (V (Proc.devRef .tc main_arg0)) := by
  rw [after_binary hW 12 hk_12 V (nm main_v7 13 (by decide)) (nm main_arg0 12 (by decide)) (nm main_v6 12 (by decide)), fin_main_arg0 V, fin_main_v6 V]
  rfl

theorem hk_13 : (ops (F := F)).drop 13 = TRef.unary (TRef.of (T := ⟨S8x3x128x2048, .f32⟩) main_v7) (TRef.of (T := ⟨S8x3x128x2048, .f32⟩) main_v8) Host.roundeven :: (ops (F := F)).drop 14 := rfl

theorem fin_main_v8 :
    after (ops (F := F)) V (Proc.devRef .tc main_v8) = val_main_v8 (F := F) (V (Proc.devRef .tc main_arg0)) := by
  rw [after_unary hW 13 hk_13 V (nm main_v8 14 (by decide)) (nm main_v7 13 (by decide)), fin_main_v7 V]
  exact cast_unary _ _ _ _

theorem hk_14 : (ops (F := F)).drop 14 = nullary main_c (constantI S_ 32 4294967168#32) :: (ops (F := F)).drop 15 := rfl

theorem fin_main_c :
    after (ops (F := F)) V (Proc.devRef .tc main_c) = val_main_c (F := F) := by
  rw [after_nullary hW 14 hk_14 V (nm main_c 15 (by decide))]
  rfl

theorem hk_15 : (ops (F := F)).drop 15 = nullary main_c_2 (constantI S_ 32 127#32) :: (ops (F := F)).drop 16 := rfl

theorem fin_main_c_2 :
    after (ops (F := F)) V (Proc.devRef .tc main_c_2) = val_main_c_2 (F := F) := by
  rw [after_nullary hW 15 hk_15 V (nm main_c_2 16 (by decide))]
  rfl

theorem hk_16 : (ops (F := F)).drop 16 = TRef.unary (TRef.of (T := ⟨S_, .i32⟩) main_c) (TRef.of (T := ⟨S_, .f32⟩) main_call2_v0) (sitofp .f32) :: (ops (F := F)).drop 17 := rfl

theorem fin_main_call2_v0 :
    after (ops (F := F)) V (Proc.devRef .tc main_call2_v0) = val_main_call2_v0 (F := F) := by
  rw [after_unary hW 16 hk_16 V (nm main_call2_v0 17 (by decide)) (nm main_c 16 (by decide)), fin_main_c V]
  exact cast_unary _ _ _ _

theorem hk_17 : (ops (F := F)).drop 17 = TRef.unary (TRef.of (T := ⟨S_, .f32⟩) main_call2_v0) (TRef.of (T := ⟨S8x3x128x2048, .f32⟩) main_call2_v1) (broadcastInDim S8x3x128x2048 ![] bcast_S_S8x3x128x2048) :: (ops (F := F)).drop 18 := rfl

theorem fin_main_call2_v1 :
    after (ops (F := F)) V (Proc.devRef .tc main_call2_v1) = val_main_call2_v1 (F := F) := by
  rw [after_unary hW 17 hk_17 V (nm main_call2_v1 18 (by decide)) (nm main_call2_v0 17 (by decide)), fin_main_call2_v0 V]
  exact cast_unary _ _ _ _

theorem hk_18 : (ops (F := F)).drop 18 = TRef.binary (TRef.of (T := ⟨S8x3x128x2048, .f32⟩) main_call2_v1) (TRef.of (T := ⟨S8x3x128x2048, .f32⟩) main_v8) (TRef.of (T := ⟨S8x3x128x2048, .f32⟩) main_call2_v2) maximumf :: (ops (F := F)).drop 19 := rfl

theorem fin_main_call2_v2 :
    after (ops (F := F)) V (Proc.devRef .tc main_call2_v2) = val_main_call2_v2 (F := F) (V (Proc.devRef .tc main_arg0)) := by
  rw [after_binary hW 18 hk_18 V (nm main_call2_v2 19 (by decide)) (nm main_call2_v1 18 (by decide)) (nm main_v8 18 (by decide)), fin_main_call2_v1 V, fin_main_v8 V]
  exact cast_binary _ _ _ _ _ _

theorem hk_19 : (ops (F := F)).drop 19 = TRef.unary (TRef.of (T := ⟨S_, .i32⟩) main_c_2) (TRef.of (T := ⟨S_, .f32⟩) main_call2_v3) (sitofp .f32) :: (ops (F := F)).drop 20 := rfl

theorem fin_main_call2_v3 :
    after (ops (F := F)) V (Proc.devRef .tc main_call2_v3) = val_main_call2_v3 (F := F) := by
  rw [after_unary hW 19 hk_19 V (nm main_call2_v3 20 (by decide)) (nm main_c_2 19 (by decide)), fin_main_c_2 V]
  exact cast_unary _ _ _ _

theorem hk_20 : (ops (F := F)).drop 20 = TRef.unary (TRef.of (T := ⟨S_, .f32⟩) main_call2_v3) (TRef.of (T := ⟨S8x3x128x2048, .f32⟩) main_call2_v4) (broadcastInDim S8x3x128x2048 ![] bcast_S_S8x3x128x2048) :: (ops (F := F)).drop 21 := rfl

theorem fin_main_call2_v4 :
    after (ops (F := F)) V (Proc.devRef .tc main_call2_v4) = val_main_call2_v4 (F := F) := by
  rw [after_unary hW 20 hk_20 V (nm main_call2_v4 21 (by decide)) (nm main_call2_v3 20 (by decide)), fin_main_call2_v3 V]
  exact cast_unary _ _ _ _

theorem hk_21 : (ops (F := F)).drop 21 = TRef.binary (TRef.of (T := ⟨S8x3x128x2048, .f32⟩) main_call2_v4) (TRef.of (T := ⟨S8x3x128x2048, .f32⟩) main_call2_v2) (TRef.of (T := ⟨S8x3x128x2048, .f32⟩) main_v9) minimumf :: (ops (F := F)).drop 22 := rfl

theorem fin_main_v9 :
    after (ops (F := F)) V (Proc.devRef .tc main_v9) = val_main_v9 (F := F) (V (Proc.devRef .tc main_arg0)) := by
  rw [after_binary hW 21 hk_21 V (nm main_v9 22 (by decide)) (nm main_call2_v4 21 (by decide)) (nm main_call2_v2 21 (by decide)), fin_main_call2_v4 V, fin_main_call2_v2 V]
  exact cast_binary _ _ _ _ _ _

theorem hk_22 : (ops (F := F)).drop 22 = unary main_v5 main_v10 (broadcastInDim S8x3x128x2048 ![0, 1, 2, 3] bcast_S8x3x128x1_S8x3x128x2048_0_1_2_3 : (⟨S8x3x128x1, .f32⟩ : BufTy).Contents (Elt F) → (⟨S8x3x128x2048, .f32⟩ : BufTy).Contents (Elt F)) :: (ops (F := F)).drop 23 := rfl

theorem fin_main_v10 :
    after (ops (F := F)) V (Proc.devRef .tc main_v10) = val_main_v10 (F := F) (V (Proc.devRef .tc main_arg0)) := by
  rw [after_unary hW 22 hk_22 V (nm main_v10 23 (by decide)) (nm main_v5 22 (by decide)), fin_main_v5 V]
  rfl

theorem hk_23 : (ops (F := F)).drop 23 = binary main_v9 main_v10 main_v11 (Host.divf : (⟨S8x3x128x2048, .f32⟩ : BufTy).Contents (Elt F) → (⟨S8x3x128x2048, .f32⟩ : BufTy).Contents (Elt F) → (⟨S8x3x128x2048, .f32⟩ : BufTy).Contents (Elt F)) :: (ops (F := F)).drop 24 := rfl

theorem fin_main_v11 :
    after (ops (F := F)) V (Proc.devRef .tc main_v11) = val_main_v11 (F := F) (V (Proc.devRef .tc main_arg0)) := by
  rw [after_binary hW 23 hk_23 V (nm main_v11 24 (by decide)) (nm main_v9 23 (by decide)) (nm main_v10 23 (by decide)), fin_main_v9 V, fin_main_v10 V]
  rfl

theorem hk_24 : (ops (F := F)).drop 24 = binary main_v11 main_arg0 main_v12 (subf : (⟨S8x3x128x2048, .f32⟩ : BufTy).Contents (Elt F) → (⟨S8x3x128x2048, .f32⟩ : BufTy).Contents (Elt F) → (⟨S8x3x128x2048, .f32⟩ : BufTy).Contents (Elt F)) :: (ops (F := F)).drop 25 := rfl

theorem fin_main_v12 :
    after (ops (F := F)) V (Proc.devRef .tc main_v12) = val_main_v12 (F := F) (V (Proc.devRef .tc main_arg0)) := by
  rw [after_binary hW 24 hk_24 V (nm main_v12 25 (by decide)) (nm main_v11 24 (by decide)) (nm main_arg0 24 (by decide)), fin_main_v11 V, fin_main_arg0 V]
  rfl

theorem hk_25 : (ops (F := F)).drop 25 = binary main_arg0 main_v12 main_v13 (addf : (⟨S8x3x128x2048, .f32⟩ : BufTy).Contents (Elt F) → (⟨S8x3x128x2048, .f32⟩ : BufTy).Contents (Elt F) → (⟨S8x3x128x2048, .f32⟩ : BufTy).Contents (Elt F)) :: (ops (F := F)).drop 26 := rfl

theorem fin_main_v13 :
    after (ops (F := F)) V (Proc.devRef .tc main_v13) = val_main_v13 (F := F) (V (Proc.devRef .tc main_arg0)) := by
  rw [after_binary hW 25 hk_25 V (nm main_v13 26 (by decide)) (nm main_arg0 25 (by decide)) (nm main_v12 25 (by decide)), fin_main_arg0 V, fin_main_v12 V]
  rfl

theorem hk_26 : (ops (F := F)).drop 26 = unary main_arg1 main_v14 (Host.absf : (⟨S8192x2048, .f32⟩ : BufTy).Contents (Elt F) → (⟨S8192x2048, .f32⟩ : BufTy).Contents (Elt F)) :: (ops (F := F)).drop 27 := rfl

theorem fin_main_v14 :
    after (ops (F := F)) V (Proc.devRef .tc main_v14) = val_main_v14 (F := F) (V (Proc.devRef .tc main_arg1)) := by
  rw [after_unary hW 26 hk_26 V (nm main_v14 27 (by decide)) (nm main_arg1 26 (by decide)), fin_main_arg1 V]
  rfl

theorem hk_27 : (ops (F := F)).drop 27 = nullary main_cst_3 (constant S_ .f32 0x00000000#32) :: (ops (F := F)).drop 28 := rfl

theorem fin_main_cst_3 :
    after (ops (F := F)) V (Proc.devRef .tc main_cst_3) = val_main_cst_3 (F := F) := by
  rw [after_nullary hW 27 hk_27 V (nm main_cst_3 28 (by decide))]
  rfl

theorem hk_28 : (ops (F := F)).drop 28 = binary main_v14 main_cst_3 main_v15 ((fun x v => Host.reduceAdd x v reducesTo_S8192x2048_S_d0_1 h_S_) : (⟨S8192x2048, .f32⟩ : BufTy).Contents (Elt F) → (⟨S_, .f32⟩ : BufTy).Contents (Elt F) → (⟨S_, .f32⟩ : BufTy).Contents (Elt F)) :: (ops (F := F)).drop 29 := rfl

theorem fin_main_v15 :
    after (ops (F := F)) V (Proc.devRef .tc main_v15) = val_main_v15 (F := F) (V (Proc.devRef .tc main_arg1)) := by
  rw [after_binary hW 28 hk_28 V (nm main_v15 29 (by decide)) (nm main_v14 28 (by decide)) (nm main_cst_3 28 (by decide)), fin_main_v14 V, fin_main_cst_3 V]
  rfl

theorem hk_29 : (ops (F := F)).drop 29 = nullary main_cst_4 (constant S_ .f32 0x4B800000#32) :: (ops (F := F)).drop 30 := rfl

theorem fin_main_cst_4 :
    after (ops (F := F)) V (Proc.devRef .tc main_cst_4) = val_main_cst_4 (F := F) := by
  rw [after_nullary hW 29 hk_29 V (nm main_cst_4 30 (by decide))]
  rfl

theorem hk_30 : (ops (F := F)).drop 30 = binary main_v15 main_cst_4 main_v16 (Host.divf : (⟨S_, .f32⟩ : BufTy).Contents (Elt F) → (⟨S_, .f32⟩ : BufTy).Contents (Elt F) → (⟨S_, .f32⟩ : BufTy).Contents (Elt F)) :: (ops (F := F)).drop 31 := rfl

theorem fin_main_v16 :
    after (ops (F := F)) V (Proc.devRef .tc main_v16) = val_main_v16 (F := F) (V (Proc.devRef .tc main_arg1)) := by
  rw [after_binary hW 30 hk_30 V (nm main_v16 31 (by decide)) (nm main_v15 30 (by decide)) (nm main_cst_4 30 (by decide)), fin_main_v15 V, fin_main_cst_4 V]
  rfl

theorem hk_31 : (ops (F := F)).drop 31 = nullary main_cst_5 (constant S_ .f32 0x3727C5AC#32) :: (ops (F := F)).drop 32 := rfl

theorem fin_main_cst_5 :
    after (ops (F := F)) V (Proc.devRef .tc main_cst_5) = val_main_cst_5 (F := F) := by
  rw [after_nullary hW 31 hk_31 V (nm main_cst_5 32 (by decide))]
  rfl

theorem hk_32 : (ops (F := F)).drop 32 = TRef.unary (TRef.of (T := ⟨S_, .f32⟩) main_cst_5) (TRef.of (T := ⟨S_, .f32⟩) main_call3_v0) id :: (ops (F := F)).drop 33 := rfl

theorem fin_main_call3_v0 :
    after (ops (F := F)) V (Proc.devRef .tc main_call3_v0) = val_main_call3_v0 (F := F) := by
  rw [after_unary hW 32 hk_32 V (nm main_call3_v0 33 (by decide)) (nm main_cst_5 32 (by decide)), fin_main_cst_5 V]
  exact cast_unary _ _ _ _

theorem hk_33 : (ops (F := F)).drop 33 = TRef.binary (TRef.of (T := ⟨S_, .f32⟩) main_call3_v0) (TRef.of (T := ⟨S_, .f32⟩) main_v16) (TRef.of (T := ⟨S_, .f32⟩) main_v17) maximumf :: (ops (F := F)).drop 34 := rfl

theorem fin_main_v17 :
    after (ops (F := F)) V (Proc.devRef .tc main_v17) = val_main_v17 (F := F) (V (Proc.devRef .tc main_arg1)) := by
  rw [after_binary hW 33 hk_33 V (nm main_v17 34 (by decide)) (nm main_call3_v0 33 (by decide)) (nm main_v16 33 (by decide)), fin_main_call3_v0 V, fin_main_v16 V]
  exact cast_binary _ _ _ _ _ _

theorem hk_34 : (ops (F := F)).drop 34 = nullary main_cst_6 (constant S_ .f32 0x3F800000#32) :: (ops (F := F)).drop 35 := rfl

theorem fin_main_cst_6 :
    after (ops (F := F)) V (Proc.devRef .tc main_cst_6) = val_main_cst_6 (F := F) := by
  rw [after_nullary hW 34 hk_34 V (nm main_cst_6 35 (by decide))]
  rfl

theorem hk_35 : (ops (F := F)).drop 35 = binary main_cst_6 main_v17 main_v18 (Host.divf : (⟨S_, .f32⟩ : BufTy).Contents (Elt F) → (⟨S_, .f32⟩ : BufTy).Contents (Elt F) → (⟨S_, .f32⟩ : BufTy).Contents (Elt F)) :: (ops (F := F)).drop 36 := rfl

theorem fin_main_v18 :
    after (ops (F := F)) V (Proc.devRef .tc main_v18) = val_main_v18 (F := F) (V (Proc.devRef .tc main_arg1)) := by
  rw [after_binary hW 35 hk_35 V (nm main_v18 36 (by decide)) (nm main_cst_6 35 (by decide)) (nm main_v17 35 (by decide)), fin_main_cst_6 V, fin_main_v17 V]
  rfl

theorem hk_36 : (ops (F := F)).drop 36 = unary main_v18 main_v19 (broadcastInDim S8192x2048 ![] bcast_S_S8192x2048 : (⟨S_, .f32⟩ : BufTy).Contents (Elt F) → (⟨S8192x2048, .f32⟩ : BufTy).Contents (Elt F)) :: (ops (F := F)).drop 37 := rfl

theorem fin_main_v19 :
    after (ops (F := F)) V (Proc.devRef .tc main_v19) = val_main_v19 (F := F) (V (Proc.devRef .tc main_arg1)) := by
  rw [after_unary hW 36 hk_36 V (nm main_v19 37 (by decide)) (nm main_v18 36 (by decide)), fin_main_v18 V]
  rfl

theorem hk_37 : (ops (F := F)).drop 37 = binary main_arg1 main_v19 main_v20 (mulf : (⟨S8192x2048, .f32⟩ : BufTy).Contents (Elt F) → (⟨S8192x2048, .f32⟩ : BufTy).Contents (Elt F) → (⟨S8192x2048, .f32⟩ : BufTy).Contents (Elt F)) :: (ops (F := F)).drop 38 := rfl

theorem fin_main_v20 :
    after (ops (F := F)) V (Proc.devRef .tc main_v20) = val_main_v20 (F := F) (V (Proc.devRef .tc main_arg1)) := by
  rw [after_binary hW 37 hk_37 V (nm main_v20 38 (by decide)) (nm main_arg1 37 (by decide)) (nm main_v19 37 (by decide)), fin_main_arg1 V, fin_main_v19 V]
  rfl

theorem hk_38 : (ops (F := F)).drop 38 = TRef.unary (TRef.of (T := ⟨S8192x2048, .f32⟩) main_v20) (TRef.of (T := ⟨S8192x2048, .f32⟩) main_v21) Host.roundeven :: (ops (F := F)).drop 39 := rfl

theorem fin_main_v21 :
    after (ops (F := F)) V (Proc.devRef .tc main_v21) = val_main_v21 (F := F) (V (Proc.devRef .tc main_arg1)) := by
  rw [after_unary hW 38 hk_38 V (nm main_v21 39 (by decide)) (nm main_v20 38 (by decide)), fin_main_v20 V]
  exact cast_unary _ _ _ _

theorem hk_39 : (ops (F := F)).drop 39 = nullary main_c_7 (constantI S_ 32 4294967295#32) :: (ops (F := F)).drop 40 := rfl

theorem fin_main_c_7 :
    after (ops (F := F)) V (Proc.devRef .tc main_c_7) = val_main_c_7 (F := F) := by
  rw [after_nullary hW 39 hk_39 V (nm main_c_7 40 (by decide))]
  rfl

theorem hk_40 : (ops (F := F)).drop 40 = nullary main_c_8 (constantI S_ 32 1#32) :: (ops (F := F)).drop 41 := rfl

theorem fin_main_c_8 :
    after (ops (F := F)) V (Proc.devRef .tc main_c_8) = val_main_c_8 (F := F) := by
  rw [after_nullary hW 40 hk_40 V (nm main_c_8 41 (by decide))]
  rfl

theorem hk_41 : (ops (F := F)).drop 41 = TRef.unary (TRef.of (T := ⟨S_, .i32⟩) main_c_7) (TRef.of (T := ⟨S_, .f32⟩) main_call5_v0) (sitofp .f32) :: (ops (F := F)).drop 42 := rfl

theorem fin_main_call5_v0 :
    after (ops (F := F)) V (Proc.devRef .tc main_call5_v0) = val_main_call5_v0 (F := F) := by
  rw [after_unary hW 41 hk_41 V (nm main_call5_v0 42 (by decide)) (nm main_c_7 41 (by decide)), fin_main_c_7 V]
  exact cast_unary _ _ _ _

theorem hk_42 : (ops (F := F)).drop 42 = TRef.unary (TRef.of (T := ⟨S_, .f32⟩) main_call5_v0) (TRef.of (T := ⟨S8192x2048, .f32⟩) main_call5_v1) (broadcastInDim S8192x2048 ![] bcast_S_S8192x2048) :: (ops (F := F)).drop 43 := rfl

theorem fin_main_call5_v1 :
    after (ops (F := F)) V (Proc.devRef .tc main_call5_v1) = val_main_call5_v1 (F := F) := by
  rw [after_unary hW 42 hk_42 V (nm main_call5_v1 43 (by decide)) (nm main_call5_v0 42 (by decide)), fin_main_call5_v0 V]
  exact cast_unary _ _ _ _

theorem hk_43 : (ops (F := F)).drop 43 = TRef.binary (TRef.of (T := ⟨S8192x2048, .f32⟩) main_call5_v1) (TRef.of (T := ⟨S8192x2048, .f32⟩) main_v21) (TRef.of (T := ⟨S8192x2048, .f32⟩) main_call5_v2) maximumf :: (ops (F := F)).drop 44 := rfl

theorem fin_main_call5_v2 :
    after (ops (F := F)) V (Proc.devRef .tc main_call5_v2) = val_main_call5_v2 (F := F) (V (Proc.devRef .tc main_arg1)) := by
  rw [after_binary hW 43 hk_43 V (nm main_call5_v2 44 (by decide)) (nm main_call5_v1 43 (by decide)) (nm main_v21 43 (by decide)), fin_main_call5_v1 V, fin_main_v21 V]
  exact cast_binary _ _ _ _ _ _

theorem hk_44 : (ops (F := F)).drop 44 = TRef.unary (TRef.of (T := ⟨S_, .i32⟩) main_c_8) (TRef.of (T := ⟨S_, .f32⟩) main_call5_v3) (sitofp .f32) :: (ops (F := F)).drop 45 := rfl

theorem fin_main_call5_v3 :
    after (ops (F := F)) V (Proc.devRef .tc main_call5_v3) = val_main_call5_v3 (F := F) := by
  rw [after_unary hW 44 hk_44 V (nm main_call5_v3 45 (by decide)) (nm main_c_8 44 (by decide)), fin_main_c_8 V]
  exact cast_unary _ _ _ _

theorem hk_45 : (ops (F := F)).drop 45 = TRef.unary (TRef.of (T := ⟨S_, .f32⟩) main_call5_v3) (TRef.of (T := ⟨S8192x2048, .f32⟩) main_call5_v4) (broadcastInDim S8192x2048 ![] bcast_S_S8192x2048) :: (ops (F := F)).drop 46 := rfl

theorem fin_main_call5_v4 :
    after (ops (F := F)) V (Proc.devRef .tc main_call5_v4) = val_main_call5_v4 (F := F) := by
  rw [after_unary hW 45 hk_45 V (nm main_call5_v4 46 (by decide)) (nm main_call5_v3 45 (by decide)), fin_main_call5_v3 V]
  exact cast_unary _ _ _ _

theorem hk_46 : (ops (F := F)).drop 46 = TRef.binary (TRef.of (T := ⟨S8192x2048, .f32⟩) main_call5_v4) (TRef.of (T := ⟨S8192x2048, .f32⟩) main_call5_v2) (TRef.of (T := ⟨S8192x2048, .f32⟩) main_v22) minimumf :: (ops (F := F)).drop 47 := rfl

theorem fin_main_v22 :
    after (ops (F := F)) V (Proc.devRef .tc main_v22) = val_main_v22 (F := F) (V (Proc.devRef .tc main_arg1)) := by
  rw [after_binary hW 46 hk_46 V (nm main_v22 47 (by decide)) (nm main_call5_v4 46 (by decide)) (nm main_call5_v2 46 (by decide)), fin_main_call5_v4 V, fin_main_call5_v2 V]
  exact cast_binary _ _ _ _ _ _

theorem hk_47 : (ops (F := F)).drop 47 = unary main_v18 main_v23 (broadcastInDim S8192x2048 ![] bcast_S_S8192x2048 : (⟨S_, .f32⟩ : BufTy).Contents (Elt F) → (⟨S8192x2048, .f32⟩ : BufTy).Contents (Elt F)) :: (ops (F := F)).drop 48 := rfl

theorem fin_main_v23 :
    after (ops (F := F)) V (Proc.devRef .tc main_v23) = val_main_v23 (F := F) (V (Proc.devRef .tc main_arg1)) := by
  rw [after_unary hW 47 hk_47 V (nm main_v23 48 (by decide)) (nm main_v18 47 (by decide)), fin_main_v18 V]
  rfl

theorem hk_48 : (ops (F := F)).drop 48 = binary main_v22 main_v23 main_v24 (Host.divf : (⟨S8192x2048, .f32⟩ : BufTy).Contents (Elt F) → (⟨S8192x2048, .f32⟩ : BufTy).Contents (Elt F) → (⟨S8192x2048, .f32⟩ : BufTy).Contents (Elt F)) :: (ops (F := F)).drop 49 := rfl

theorem fin_main_v24 :
    after (ops (F := F)) V (Proc.devRef .tc main_v24) = val_main_v24 (F := F) (V (Proc.devRef .tc main_arg1)) := by
  rw [after_binary hW 48 hk_48 V (nm main_v24 49 (by decide)) (nm main_v22 48 (by decide)) (nm main_v23 48 (by decide)), fin_main_v22 V, fin_main_v23 V]
  rfl

theorem hk_49 : (ops (F := F)).drop 49 = binary main_v24 main_arg1 main_v25 (subf : (⟨S8192x2048, .f32⟩ : BufTy).Contents (Elt F) → (⟨S8192x2048, .f32⟩ : BufTy).Contents (Elt F) → (⟨S8192x2048, .f32⟩ : BufTy).Contents (Elt F)) :: (ops (F := F)).drop 50 := rfl

theorem fin_main_v25 :
    after (ops (F := F)) V (Proc.devRef .tc main_v25) = val_main_v25 (F := F) (V (Proc.devRef .tc main_arg1)) := by
  rw [after_binary hW 49 hk_49 V (nm main_v25 50 (by decide)) (nm main_v24 49 (by decide)) (nm main_arg1 49 (by decide)), fin_main_v24 V, fin_main_arg1 V]
  rfl

theorem hk_50 : (ops (F := F)).drop 50 = binary main_arg1 main_v25 main_v26 (addf : (⟨S8192x2048, .f32⟩ : BufTy).Contents (Elt F) → (⟨S8192x2048, .f32⟩ : BufTy).Contents (Elt F) → (⟨S8192x2048, .f32⟩ : BufTy).Contents (Elt F)) :: (ops (F := F)).drop 51 := rfl

theorem fin_main_v26 :
    after (ops (F := F)) V (Proc.devRef .tc main_v26) = val_main_v26 (F := F) (V (Proc.devRef .tc main_arg1)) := by
  rw [after_binary hW 50 hk_50 V (nm main_v26 51 (by decide)) (nm main_arg1 50 (by decide)) (nm main_v25 50 (by decide)), fin_main_arg1 V, fin_main_v25 V]
  rfl

theorem hk_51 : (ops (F := F)).drop 51 = binary main_v13 main_v26 main_v27 ((fun l r => Host.dotGeneral dot_S8x3x128x2048_S8192x2048_S8x3x128x8192_3_1_012_0_n_n none l r) : (⟨S8x3x128x2048, .f32⟩ : BufTy).Contents (Elt F) → (⟨S8192x2048, .f32⟩ : BufTy).Contents (Elt F) → (⟨S8x3x128x8192, .f32⟩ : BufTy).Contents (Elt F)) :: (ops (F := F)).drop 52 := rfl

theorem fin_main_v27 :
    after (ops (F := F)) V (Proc.devRef .tc main_v27) = val_main_v27 (F := F) (V (Proc.devRef .tc main_arg0)) (V (Proc.devRef .tc main_arg1)) := by
  rw [after_binary hW 51 hk_51 V (nm main_v27 52 (by decide)) (nm main_v13 51 (by decide)) (nm main_v26 51 (by decide)), fin_main_v13 V, fin_main_v26 V]
  rfl

theorem hk_52 : (ops (F := F)).drop 52 = TRef.unary (TRef.of (T := ⟨S8x3x128x8192, .f32⟩) main_v27) (TRef.of (T := ⟨S8x3x128x8192, .f32⟩) main_call6_v0) Host.negf :: (ops (F := F)).drop 53 := rfl

theorem fin_main_call6_v0 :
    after (ops (F := F)) V (Proc.devRef .tc main_call6_v0) = val_main_call6_v0 (F := F) (V (Proc.devRef .tc main_arg0)) (V (Proc.devRef .tc main_arg1)) := by
  rw [after_unary hW 52 hk_52 V (nm main_call6_v0 53 (by decide)) (nm main_v27 52 (by decide)), fin_main_v27 V]
  exact cast_unary _ _ _ _

theorem hk_53 : (ops (F := F)).drop 53 = TRef.unary (TRef.of (T := ⟨S8x3x128x8192, .f32⟩) main_call6_v0) (TRef.of (T := ⟨S8x3x128x8192, .f32⟩) main_call6_v1) Host.exp :: (ops (F := F)).drop 54 := rfl

theorem fin_main_call6_v1 :
    after (ops (F := F)) V (Proc.devRef .tc main_call6_v1) = val_main_call6_v1 (F := F) (V (Proc.devRef .tc main_arg0)) (V (Proc.devRef .tc main_arg1)) := by
  rw [after_unary hW 53 hk_53 V (nm main_call6_v1 54 (by decide)) (nm main_call6_v0 53 (by decide)), fin_main_call6_v0 V]
  exact cast_unary _ _ _ _

theorem hk_54 : (ops (F := F)).drop 54 = TRef.nullary (TRef.of (T := ⟨S_, .f32⟩) main_call6_cst) (constant S_ .f32 0x3F800000#32) :: (ops (F := F)).drop 55 := rfl

theorem fin_main_call6_cst :
    after (ops (F := F)) V (Proc.devRef .tc main_call6_cst) = val_main_call6_cst (F := F) := by
  rw [after_nullary hW 54 hk_54 V (nm main_call6_cst 55 (by decide))]
  exact cast_nullary _ _

theorem hk_55 : (ops (F := F)).drop 55 = TRef.unary (TRef.of (T := ⟨S_, .f32⟩) main_call6_cst) (TRef.of (T := ⟨S8x3x128x8192, .f32⟩) main_call6_v2) (broadcastInDim S8x3x128x8192 ![] bcast_S_S8x3x128x8192) :: (ops (F := F)).drop 56 := rfl

theorem fin_main_call6_v2 :
    after (ops (F := F)) V (Proc.devRef .tc main_call6_v2) = val_main_call6_v2 (F := F) := by
  rw [after_unary hW 55 hk_55 V (nm main_call6_v2 56 (by decide)) (nm main_call6_cst 55 (by decide)), fin_main_call6_cst V]
  exact cast_unary _ _ _ _

theorem hk_56 : (ops (F := F)).drop 56 = TRef.binary (TRef.of (T := ⟨S8x3x128x8192, .f32⟩) main_call6_v2) (TRef.of (T := ⟨S8x3x128x8192, .f32⟩) main_call6_v1) (TRef.of (T := ⟨S8x3x128x8192, .f32⟩) main_call6_v3) addf :: (ops (F := F)).drop 57 := rfl

theorem fin_main_call6_v3 :
    after (ops (F := F)) V (Proc.devRef .tc main_call6_v3) = val_main_call6_v3 (F := F) (V (Proc.devRef .tc main_arg0)) (V (Proc.devRef .tc main_arg1)) := by
  rw [after_binary hW 56 hk_56 V (nm main_call6_v3 57 (by decide)) (nm main_call6_v2 56 (by decide)) (nm main_call6_v1 56 (by decide)), fin_main_call6_v2 V, fin_main_call6_v1 V]
  exact cast_binary _ _ _ _ _ _

theorem hk_57 : (ops (F := F)).drop 57 = TRef.nullary (TRef.of (T := ⟨S_, .f32⟩) main_call6_cst_0) (constant S_ .f32 0x3F800000#32) :: (ops (F := F)).drop 58 := rfl

theorem fin_main_call6_cst_0 :
    after (ops (F := F)) V (Proc.devRef .tc main_call6_cst_0) = val_main_call6_cst_0 (F := F) := by
  rw [after_nullary hW 57 hk_57 V (nm main_call6_cst_0 58 (by decide))]
  exact cast_nullary _ _

theorem hk_58 : (ops (F := F)).drop 58 = TRef.unary (TRef.of (T := ⟨S_, .f32⟩) main_call6_cst_0) (TRef.of (T := ⟨S8x3x128x8192, .f32⟩) main_call6_v4) (broadcastInDim S8x3x128x8192 ![] bcast_S_S8x3x128x8192) :: (ops (F := F)).drop 59 := rfl

theorem fin_main_call6_v4 :
    after (ops (F := F)) V (Proc.devRef .tc main_call6_v4) = val_main_call6_v4 (F := F) := by
  rw [after_unary hW 58 hk_58 V (nm main_call6_v4 59 (by decide)) (nm main_call6_cst_0 58 (by decide)), fin_main_call6_cst_0 V]
  exact cast_unary _ _ _ _

theorem hk_59 : (ops (F := F)).drop 59 = TRef.binary (TRef.of (T := ⟨S8x3x128x8192, .f32⟩) main_call6_v4) (TRef.of (T := ⟨S8x3x128x8192, .f32⟩) main_call6_v3) (TRef.of (T := ⟨S8x3x128x8192, .f32⟩) main_call6_v5) Host.divf :: (ops (F := F)).drop 60 := rfl

theorem fin_main_call6_v5 :
    after (ops (F := F)) V (Proc.devRef .tc main_call6_v5) = val_main_call6_v5 (F := F) (V (Proc.devRef .tc main_arg0)) (V (Proc.devRef .tc main_arg1)) := by
  rw [after_binary hW 59 hk_59 V (nm main_call6_v5 60 (by decide)) (nm main_call6_v4 59 (by decide)) (nm main_call6_v3 59 (by decide)), fin_main_call6_v4 V, fin_main_call6_v3 V]
  exact cast_binary _ _ _ _ _ _

theorem hk_60 : (ops (F := F)).drop 60 = TRef.binary (TRef.of (T := ⟨S8x3x128x8192, .f32⟩) main_v27) (TRef.of (T := ⟨S8x3x128x8192, .f32⟩) main_call6_v5) (TRef.of (T := ⟨S8x3x128x8192, .f32⟩) main_v28) mulf :: (ops (F := F)).drop 61 := rfl

theorem fin_main_v28 :
    after (ops (F := F)) V (Proc.devRef .tc main_v28) = val_main_v28 (F := F) (V (Proc.devRef .tc main_arg0)) (V (Proc.devRef .tc main_arg1)) := by
  rw [after_binary hW 60 hk_60 V (nm main_v28 61 (by decide)) (nm main_v27 60 (by decide)) (nm main_call6_v5 60 (by decide)), fin_main_v27 V, fin_main_call6_v5 V]
  exact cast_binary _ _ _ _ _ _

theorem hk_61 : (ops (F := F)).drop 61 = unary main_arg0 main_v29 (Host.absf : (⟨S8x3x128x2048, .f32⟩ : BufTy).Contents (Elt F) → (⟨S8x3x128x2048, .f32⟩ : BufTy).Contents (Elt F)) :: (ops (F := F)).drop 62 := rfl

theorem fin_main_v29 :
    after (ops (F := F)) V (Proc.devRef .tc main_v29) = val_main_v29 (F := F) (V (Proc.devRef .tc main_arg0)) := by
  rw [after_unary hW 61 hk_61 V (nm main_v29 62 (by decide)) (nm main_arg0 61 (by decide)), fin_main_arg0 V]
  rfl

theorem hk_62 : (ops (F := F)).drop 62 = nullary main_cst_9 (constant S_ .f32 0xFF800000#32) :: (ops (F := F)).drop 63 := rfl

theorem fin_main_cst_9 :
    after (ops (F := F)) V (Proc.devRef .tc main_cst_9) = val_main_cst_9 (F := F) := by
  rw [after_nullary hW 62 hk_62 V (nm main_cst_9 63 (by decide))]
  rfl

theorem hk_63 : (ops (F := F)).drop 63 = binary main_v29 main_cst_9 main_v30 ((fun x v => Host.reduce FloatOps.maximumf x v reducesTo_S8x3x128x2048_S8x3x128_d3 h_S_) : (⟨S8x3x128x2048, .f32⟩ : BufTy).Contents (Elt F) → (⟨S_, .f32⟩ : BufTy).Contents (Elt F) → (⟨S8x3x128, .f32⟩ : BufTy).Contents (Elt F)) :: (ops (F := F)).drop 64 := rfl

theorem fin_main_v30 :
    after (ops (F := F)) V (Proc.devRef .tc main_v30) = val_main_v30 (F := F) (V (Proc.devRef .tc main_arg0)) := by
  rw [after_binary hW 63 hk_63 V (nm main_v30 64 (by decide)) (nm main_v29 63 (by decide)) (nm main_cst_9 63 (by decide)), fin_main_v29 V, fin_main_cst_9 V]
  rfl

theorem hk_64 : (ops (F := F)).drop 64 = unary main_v30 main_v31 (broadcastInDim S8x3x128x1 ![0, 1, 2] bcast_S8x3x128_S8x3x128x1_0_1_2 : (⟨S8x3x128, .f32⟩ : BufTy).Contents (Elt F) → (⟨S8x3x128x1, .f32⟩ : BufTy).Contents (Elt F)) :: (ops (F := F)).drop 65 := rfl

theorem fin_main_v31 :
    after (ops (F := F)) V (Proc.devRef .tc main_v31) = val_main_v31 (F := F) (V (Proc.devRef .tc main_arg0)) := by
  rw [after_unary hW 64 hk_64 V (nm main_v31 65 (by decide)) (nm main_v30 64 (by decide)), fin_main_v30 V]
  rfl

theorem hk_65 : (ops (F := F)).drop 65 = nullary main_cst_10 (constant S_ .f32 0x3727C5AC#32) :: (ops (F := F)).drop 66 := rfl

theorem fin_main_cst_10 :
    after (ops (F := F)) V (Proc.devRef .tc main_cst_10) = val_main_cst_10 (F := F) := by
  rw [after_nullary hW 65 hk_65 V (nm main_cst_10 66 (by decide))]
  rfl

theorem hk_66 : (ops (F := F)).drop 66 = TRef.unary (TRef.of (T := ⟨S_, .f32⟩) main_cst_10) (TRef.of (T := ⟨S_, .f32⟩) main_call7_v0) id :: (ops (F := F)).drop 67 := rfl

theorem fin_main_call7_v0 :
    after (ops (F := F)) V (Proc.devRef .tc main_call7_v0) = val_main_call7_v0 (F := F) := by
  rw [after_unary hW 66 hk_66 V (nm main_call7_v0 67 (by decide)) (nm main_cst_10 66 (by decide)), fin_main_cst_10 V]
  exact cast_unary _ _ _ _

theorem hk_67 : (ops (F := F)).drop 67 = TRef.unary (TRef.of (T := ⟨S_, .f32⟩) main_call7_v0) (TRef.of (T := ⟨S8x3x128x1, .f32⟩) main_call7_v1) (broadcastInDim S8x3x128x1 ![] bcast_S_S8x3x128x1) :: (ops (F := F)).drop 68 := rfl

theorem fin_main_call7_v1 :
    after (ops (F := F)) V (Proc.devRef .tc main_call7_v1) = val_main_call7_v1 (F := F) := by
  rw [after_unary hW 67 hk_67 V (nm main_call7_v1 68 (by decide)) (nm main_call7_v0 67 (by decide)), fin_main_call7_v0 V]
  exact cast_unary _ _ _ _

theorem hk_68 : (ops (F := F)).drop 68 = TRef.binary (TRef.of (T := ⟨S8x3x128x1, .f32⟩) main_call7_v1) (TRef.of (T := ⟨S8x3x128x1, .f32⟩) main_v31) (TRef.of (T := ⟨S8x3x128x1, .f32⟩) main_v32) maximumf :: (ops (F := F)).drop 69 := rfl

theorem fin_main_v32 :
    after (ops (F := F)) V (Proc.devRef .tc main_v32) = val_main_v32 (F := F) (V (Proc.devRef .tc main_arg0)) := by
  rw [after_binary hW 68 hk_68 V (nm main_v32 69 (by decide)) (nm main_call7_v1 68 (by decide)) (nm main_v31 68 (by decide)), fin_main_call7_v1 V, fin_main_v31 V]
  exact cast_binary _ _ _ _ _ _

theorem hk_69 : (ops (F := F)).drop 69 = nullary main_cst_11 (constant S_ .f32 0x42FE0000#32) :: (ops (F := F)).drop 70 := rfl

theorem fin_main_cst_11 :
    after (ops (F := F)) V (Proc.devRef .tc main_cst_11) = val_main_cst_11 (F := F) := by
  rw [after_nullary hW 69 hk_69 V (nm main_cst_11 70 (by decide))]
  rfl

theorem hk_70 : (ops (F := F)).drop 70 = unary main_cst_11 main_v33 (broadcastInDim S8x3x128x1 ![] bcast_S_S8x3x128x1 : (⟨S_, .f32⟩ : BufTy).Contents (Elt F) → (⟨S8x3x128x1, .f32⟩ : BufTy).Contents (Elt F)) :: (ops (F := F)).drop 71 := rfl

theorem fin_main_v33 :
    after (ops (F := F)) V (Proc.devRef .tc main_v33) = val_main_v33 (F := F) := by
  rw [after_unary hW 70 hk_70 V (nm main_v33 71 (by decide)) (nm main_cst_11 70 (by decide)), fin_main_cst_11 V]
  rfl

theorem hk_71 : (ops (F := F)).drop 71 = binary main_v33 main_v32 main_v34 (Host.divf : (⟨S8x3x128x1, .f32⟩ : BufTy).Contents (Elt F) → (⟨S8x3x128x1, .f32⟩ : BufTy).Contents (Elt F) → (⟨S8x3x128x1, .f32⟩ : BufTy).Contents (Elt F)) :: (ops (F := F)).drop 72 := rfl

theorem fin_main_v34 :
    after (ops (F := F)) V (Proc.devRef .tc main_v34) = val_main_v34 (F := F) (V (Proc.devRef .tc main_arg0)) := by
  rw [after_binary hW 71 hk_71 V (nm main_v34 72 (by decide)) (nm main_v33 71 (by decide)) (nm main_v32 71 (by decide)), fin_main_v33 V, fin_main_v32 V]
  rfl

theorem hk_72 : (ops (F := F)).drop 72 = unary main_v34 main_v35 (broadcastInDim S8x3x128x2048 ![0, 1, 2, 3] bcast_S8x3x128x1_S8x3x128x2048_0_1_2_3 : (⟨S8x3x128x1, .f32⟩ : BufTy).Contents (Elt F) → (⟨S8x3x128x2048, .f32⟩ : BufTy).Contents (Elt F)) :: (ops (F := F)).drop 73 := rfl

theorem fin_main_v35 :
    after (ops (F := F)) V (Proc.devRef .tc main_v35) = val_main_v35 (F := F) (V (Proc.devRef .tc main_arg0)) := by
  rw [after_unary hW 72 hk_72 V (nm main_v35 73 (by decide)) (nm main_v34 72 (by decide)), fin_main_v34 V]
  rfl

theorem hk_73 : (ops (F := F)).drop 73 = binary main_arg0 main_v35 main_v36 (mulf : (⟨S8x3x128x2048, .f32⟩ : BufTy).Contents (Elt F) → (⟨S8x3x128x2048, .f32⟩ : BufTy).Contents (Elt F) → (⟨S8x3x128x2048, .f32⟩ : BufTy).Contents (Elt F)) :: (ops (F := F)).drop 74 := rfl

theorem fin_main_v36 :
    after (ops (F := F)) V (Proc.devRef .tc main_v36) = val_main_v36 (F := F) (V (Proc.devRef .tc main_arg0)) := by
  rw [after_binary hW 73 hk_73 V (nm main_v36 74 (by decide)) (nm main_arg0 73 (by decide)) (nm main_v35 73 (by decide)), fin_main_arg0 V, fin_main_v35 V]
  rfl

theorem hk_74 : (ops (F := F)).drop 74 = TRef.unary (TRef.of (T := ⟨S8x3x128x2048, .f32⟩) main_v36) (TRef.of (T := ⟨S8x3x128x2048, .f32⟩) main_v37) Host.roundeven :: (ops (F := F)).drop 75 := rfl

theorem fin_main_v37 :
    after (ops (F := F)) V (Proc.devRef .tc main_v37) = val_main_v37 (F := F) (V (Proc.devRef .tc main_arg0)) := by
  rw [after_unary hW 74 hk_74 V (nm main_v37 75 (by decide)) (nm main_v36 74 (by decide)), fin_main_v36 V]
  exact cast_unary _ _ _ _

theorem hk_75 : (ops (F := F)).drop 75 = nullary main_c_12 (constantI S_ 32 4294967168#32) :: (ops (F := F)).drop 76 := rfl

theorem fin_main_c_12 :
    after (ops (F := F)) V (Proc.devRef .tc main_c_12) = val_main_c_12 (F := F) := by
  rw [after_nullary hW 75 hk_75 V (nm main_c_12 76 (by decide))]
  rfl

theorem hk_76 : (ops (F := F)).drop 76 = nullary main_c_13 (constantI S_ 32 127#32) :: (ops (F := F)).drop 77 := rfl

theorem fin_main_c_13 :
    after (ops (F := F)) V (Proc.devRef .tc main_c_13) = val_main_c_13 (F := F) := by
  rw [after_nullary hW 76 hk_76 V (nm main_c_13 77 (by decide))]
  rfl

theorem hk_77 : (ops (F := F)).drop 77 = TRef.unary (TRef.of (T := ⟨S_, .i32⟩) main_c_12) (TRef.of (T := ⟨S_, .f32⟩) main_call9_v0) (sitofp .f32) :: (ops (F := F)).drop 78 := rfl

theorem fin_main_call9_v0 :
    after (ops (F := F)) V (Proc.devRef .tc main_call9_v0) = val_main_call9_v0 (F := F) := by
  rw [after_unary hW 77 hk_77 V (nm main_call9_v0 78 (by decide)) (nm main_c_12 77 (by decide)), fin_main_c_12 V]
  exact cast_unary _ _ _ _

theorem hk_78 : (ops (F := F)).drop 78 = TRef.unary (TRef.of (T := ⟨S_, .f32⟩) main_call9_v0) (TRef.of (T := ⟨S8x3x128x2048, .f32⟩) main_call9_v1) (broadcastInDim S8x3x128x2048 ![] bcast_S_S8x3x128x2048) :: (ops (F := F)).drop 79 := rfl

theorem fin_main_call9_v1 :
    after (ops (F := F)) V (Proc.devRef .tc main_call9_v1) = val_main_call9_v1 (F := F) := by
  rw [after_unary hW 78 hk_78 V (nm main_call9_v1 79 (by decide)) (nm main_call9_v0 78 (by decide)), fin_main_call9_v0 V]
  exact cast_unary _ _ _ _

theorem hk_79 : (ops (F := F)).drop 79 = TRef.binary (TRef.of (T := ⟨S8x3x128x2048, .f32⟩) main_call9_v1) (TRef.of (T := ⟨S8x3x128x2048, .f32⟩) main_v37) (TRef.of (T := ⟨S8x3x128x2048, .f32⟩) main_call9_v2) maximumf :: (ops (F := F)).drop 80 := rfl

theorem fin_main_call9_v2 :
    after (ops (F := F)) V (Proc.devRef .tc main_call9_v2) = val_main_call9_v2 (F := F) (V (Proc.devRef .tc main_arg0)) := by
  rw [after_binary hW 79 hk_79 V (nm main_call9_v2 80 (by decide)) (nm main_call9_v1 79 (by decide)) (nm main_v37 79 (by decide)), fin_main_call9_v1 V, fin_main_v37 V]
  exact cast_binary _ _ _ _ _ _

theorem hk_80 : (ops (F := F)).drop 80 = TRef.unary (TRef.of (T := ⟨S_, .i32⟩) main_c_13) (TRef.of (T := ⟨S_, .f32⟩) main_call9_v3) (sitofp .f32) :: (ops (F := F)).drop 81 := rfl

theorem fin_main_call9_v3 :
    after (ops (F := F)) V (Proc.devRef .tc main_call9_v3) = val_main_call9_v3 (F := F) := by
  rw [after_unary hW 80 hk_80 V (nm main_call9_v3 81 (by decide)) (nm main_c_13 80 (by decide)), fin_main_c_13 V]
  exact cast_unary _ _ _ _

theorem hk_81 : (ops (F := F)).drop 81 = TRef.unary (TRef.of (T := ⟨S_, .f32⟩) main_call9_v3) (TRef.of (T := ⟨S8x3x128x2048, .f32⟩) main_call9_v4) (broadcastInDim S8x3x128x2048 ![] bcast_S_S8x3x128x2048) :: (ops (F := F)).drop 82 := rfl

theorem fin_main_call9_v4 :
    after (ops (F := F)) V (Proc.devRef .tc main_call9_v4) = val_main_call9_v4 (F := F) := by
  rw [after_unary hW 81 hk_81 V (nm main_call9_v4 82 (by decide)) (nm main_call9_v3 81 (by decide)), fin_main_call9_v3 V]
  exact cast_unary _ _ _ _

theorem hk_82 : (ops (F := F)).drop 82 = TRef.binary (TRef.of (T := ⟨S8x3x128x2048, .f32⟩) main_call9_v4) (TRef.of (T := ⟨S8x3x128x2048, .f32⟩) main_call9_v2) (TRef.of (T := ⟨S8x3x128x2048, .f32⟩) main_v38) minimumf :: (ops (F := F)).drop 83 := rfl

theorem fin_main_v38 :
    after (ops (F := F)) V (Proc.devRef .tc main_v38) = val_main_v38 (F := F) (V (Proc.devRef .tc main_arg0)) := by
  rw [after_binary hW 82 hk_82 V (nm main_v38 83 (by decide)) (nm main_call9_v4 82 (by decide)) (nm main_call9_v2 82 (by decide)), fin_main_call9_v4 V, fin_main_call9_v2 V]
  exact cast_binary _ _ _ _ _ _

theorem hk_83 : (ops (F := F)).drop 83 = unary main_v34 main_v39 (broadcastInDim S8x3x128x2048 ![0, 1, 2, 3] bcast_S8x3x128x1_S8x3x128x2048_0_1_2_3 : (⟨S8x3x128x1, .f32⟩ : BufTy).Contents (Elt F) → (⟨S8x3x128x2048, .f32⟩ : BufTy).Contents (Elt F)) :: (ops (F := F)).drop 84 := rfl

theorem fin_main_v39 :
    after (ops (F := F)) V (Proc.devRef .tc main_v39) = val_main_v39 (F := F) (V (Proc.devRef .tc main_arg0)) := by
  rw [after_unary hW 83 hk_83 V (nm main_v39 84 (by decide)) (nm main_v34 83 (by decide)), fin_main_v34 V]
  rfl

theorem hk_84 : (ops (F := F)).drop 84 = binary main_v38 main_v39 main_v40 (Host.divf : (⟨S8x3x128x2048, .f32⟩ : BufTy).Contents (Elt F) → (⟨S8x3x128x2048, .f32⟩ : BufTy).Contents (Elt F) → (⟨S8x3x128x2048, .f32⟩ : BufTy).Contents (Elt F)) :: (ops (F := F)).drop 85 := rfl

theorem fin_main_v40 :
    after (ops (F := F)) V (Proc.devRef .tc main_v40) = val_main_v40 (F := F) (V (Proc.devRef .tc main_arg0)) := by
  rw [after_binary hW 84 hk_84 V (nm main_v40 85 (by decide)) (nm main_v38 84 (by decide)) (nm main_v39 84 (by decide)), fin_main_v38 V, fin_main_v39 V]
  rfl

theorem hk_85 : (ops (F := F)).drop 85 = binary main_v40 main_arg0 main_v41 (subf : (⟨S8x3x128x2048, .f32⟩ : BufTy).Contents (Elt F) → (⟨S8x3x128x2048, .f32⟩ : BufTy).Contents (Elt F) → (⟨S8x3x128x2048, .f32⟩ : BufTy).Contents (Elt F)) :: (ops (F := F)).drop 86 := rfl

theorem fin_main_v41 :
    after (ops (F := F)) V (Proc.devRef .tc main_v41) = val_main_v41 (F := F) (V (Proc.devRef .tc main_arg0)) := by
  rw [after_binary hW 85 hk_85 V (nm main_v41 86 (by decide)) (nm main_v40 85 (by decide)) (nm main_arg0 85 (by decide)), fin_main_v40 V, fin_main_arg0 V]
  rfl

theorem hk_86 : (ops (F := F)).drop 86 = binary main_arg0 main_v41 main_v42 (addf : (⟨S8x3x128x2048, .f32⟩ : BufTy).Contents (Elt F) → (⟨S8x3x128x2048, .f32⟩ : BufTy).Contents (Elt F) → (⟨S8x3x128x2048, .f32⟩ : BufTy).Contents (Elt F)) :: (ops (F := F)).drop 87 := rfl

theorem fin_main_v42 :
    after (ops (F := F)) V (Proc.devRef .tc main_v42) = val_main_v42 (F := F) (V (Proc.devRef .tc main_arg0)) := by
  rw [after_binary hW 86 hk_86 V (nm main_v42 87 (by decide)) (nm main_arg0 86 (by decide)) (nm main_v41 86 (by decide)), fin_main_arg0 V, fin_main_v41 V]
  rfl

theorem hk_87 : (ops (F := F)).drop 87 = unary main_arg2 main_v43 (Host.absf : (⟨S8192x2048, .f32⟩ : BufTy).Contents (Elt F) → (⟨S8192x2048, .f32⟩ : BufTy).Contents (Elt F)) :: (ops (F := F)).drop 88 := rfl

theorem fin_main_v43 :
    after (ops (F := F)) V (Proc.devRef .tc main_v43) = val_main_v43 (F := F) (V (Proc.devRef .tc main_arg2)) := by
  rw [after_unary hW 87 hk_87 V (nm main_v43 88 (by decide)) (nm main_arg2 87 (by decide)), fin_main_arg2 V]
  rfl

theorem hk_88 : (ops (F := F)).drop 88 = nullary main_cst_14 (constant S_ .f32 0x00000000#32) :: (ops (F := F)).drop 89 := rfl

theorem fin_main_cst_14 :
    after (ops (F := F)) V (Proc.devRef .tc main_cst_14) = val_main_cst_14 (F := F) := by
  rw [after_nullary hW 88 hk_88 V (nm main_cst_14 89 (by decide))]
  rfl

theorem hk_89 : (ops (F := F)).drop 89 = binary main_v43 main_cst_14 main_v44 ((fun x v => Host.reduceAdd x v reducesTo_S8192x2048_S_d0_1 h_S_) : (⟨S8192x2048, .f32⟩ : BufTy).Contents (Elt F) → (⟨S_, .f32⟩ : BufTy).Contents (Elt F) → (⟨S_, .f32⟩ : BufTy).Contents (Elt F)) :: (ops (F := F)).drop 90 := rfl

theorem fin_main_v44 :
    after (ops (F := F)) V (Proc.devRef .tc main_v44) = val_main_v44 (F := F) (V (Proc.devRef .tc main_arg2)) := by
  rw [after_binary hW 89 hk_89 V (nm main_v44 90 (by decide)) (nm main_v43 89 (by decide)) (nm main_cst_14 89 (by decide)), fin_main_v43 V, fin_main_cst_14 V]
  rfl

theorem hk_90 : (ops (F := F)).drop 90 = nullary main_cst_15 (constant S_ .f32 0x4B800000#32) :: (ops (F := F)).drop 91 := rfl

theorem fin_main_cst_15 :
    after (ops (F := F)) V (Proc.devRef .tc main_cst_15) = val_main_cst_15 (F := F) := by
  rw [after_nullary hW 90 hk_90 V (nm main_cst_15 91 (by decide))]
  rfl

theorem hk_91 : (ops (F := F)).drop 91 = binary main_v44 main_cst_15 main_v45 (Host.divf : (⟨S_, .f32⟩ : BufTy).Contents (Elt F) → (⟨S_, .f32⟩ : BufTy).Contents (Elt F) → (⟨S_, .f32⟩ : BufTy).Contents (Elt F)) :: (ops (F := F)).drop 92 := rfl

theorem fin_main_v45 :
    after (ops (F := F)) V (Proc.devRef .tc main_v45) = val_main_v45 (F := F) (V (Proc.devRef .tc main_arg2)) := by
  rw [after_binary hW 91 hk_91 V (nm main_v45 92 (by decide)) (nm main_v44 91 (by decide)) (nm main_cst_15 91 (by decide)), fin_main_v44 V, fin_main_cst_15 V]
  rfl

theorem hk_92 : (ops (F := F)).drop 92 = nullary main_cst_16 (constant S_ .f32 0x3727C5AC#32) :: (ops (F := F)).drop 93 := rfl

theorem fin_main_cst_16 :
    after (ops (F := F)) V (Proc.devRef .tc main_cst_16) = val_main_cst_16 (F := F) := by
  rw [after_nullary hW 92 hk_92 V (nm main_cst_16 93 (by decide))]
  rfl

theorem hk_93 : (ops (F := F)).drop 93 = TRef.unary (TRef.of (T := ⟨S_, .f32⟩) main_cst_16) (TRef.of (T := ⟨S_, .f32⟩) main_call10_v0) id :: (ops (F := F)).drop 94 := rfl

theorem fin_main_call10_v0 :
    after (ops (F := F)) V (Proc.devRef .tc main_call10_v0) = val_main_call10_v0 (F := F) := by
  rw [after_unary hW 93 hk_93 V (nm main_call10_v0 94 (by decide)) (nm main_cst_16 93 (by decide)), fin_main_cst_16 V]
  exact cast_unary _ _ _ _

theorem hk_94 : (ops (F := F)).drop 94 = TRef.binary (TRef.of (T := ⟨S_, .f32⟩) main_call10_v0) (TRef.of (T := ⟨S_, .f32⟩) main_v45) (TRef.of (T := ⟨S_, .f32⟩) main_v46) maximumf :: (ops (F := F)).drop 95 := rfl

theorem fin_main_v46 :
    after (ops (F := F)) V (Proc.devRef .tc main_v46) = val_main_v46 (F := F) (V (Proc.devRef .tc main_arg2)) := by
  rw [after_binary hW 94 hk_94 V (nm main_v46 95 (by decide)) (nm main_call10_v0 94 (by decide)) (nm main_v45 94 (by decide)), fin_main_call10_v0 V, fin_main_v45 V]
  exact cast_binary _ _ _ _ _ _

theorem hk_95 : (ops (F := F)).drop 95 = nullary main_cst_17 (constant S_ .f32 0x3F800000#32) :: (ops (F := F)).drop 96 := rfl

theorem fin_main_cst_17 :
    after (ops (F := F)) V (Proc.devRef .tc main_cst_17) = val_main_cst_17 (F := F) := by
  rw [after_nullary hW 95 hk_95 V (nm main_cst_17 96 (by decide))]
  rfl

theorem hk_96 : (ops (F := F)).drop 96 = binary main_cst_17 main_v46 main_v47 (Host.divf : (⟨S_, .f32⟩ : BufTy).Contents (Elt F) → (⟨S_, .f32⟩ : BufTy).Contents (Elt F) → (⟨S_, .f32⟩ : BufTy).Contents (Elt F)) :: (ops (F := F)).drop 97 := rfl

theorem fin_main_v47 :
    after (ops (F := F)) V (Proc.devRef .tc main_v47) = val_main_v47 (F := F) (V (Proc.devRef .tc main_arg2)) := by
  rw [after_binary hW 96 hk_96 V (nm main_v47 97 (by decide)) (nm main_cst_17 96 (by decide)) (nm main_v46 96 (by decide)), fin_main_cst_17 V, fin_main_v46 V]
  rfl

theorem hk_97 : (ops (F := F)).drop 97 = unary main_v47 main_v48 (broadcastInDim S8192x2048 ![] bcast_S_S8192x2048 : (⟨S_, .f32⟩ : BufTy).Contents (Elt F) → (⟨S8192x2048, .f32⟩ : BufTy).Contents (Elt F)) :: (ops (F := F)).drop 98 := rfl

theorem fin_main_v48 :
    after (ops (F := F)) V (Proc.devRef .tc main_v48) = val_main_v48 (F := F) (V (Proc.devRef .tc main_arg2)) := by
  rw [after_unary hW 97 hk_97 V (nm main_v48 98 (by decide)) (nm main_v47 97 (by decide)), fin_main_v47 V]
  rfl

theorem hk_98 : (ops (F := F)).drop 98 = binary main_arg2 main_v48 main_v49 (mulf : (⟨S8192x2048, .f32⟩ : BufTy).Contents (Elt F) → (⟨S8192x2048, .f32⟩ : BufTy).Contents (Elt F) → (⟨S8192x2048, .f32⟩ : BufTy).Contents (Elt F)) :: (ops (F := F)).drop 99 := rfl

theorem fin_main_v49 :
    after (ops (F := F)) V (Proc.devRef .tc main_v49) = val_main_v49 (F := F) (V (Proc.devRef .tc main_arg2)) := by
  rw [after_binary hW 98 hk_98 V (nm main_v49 99 (by decide)) (nm main_arg2 98 (by decide)) (nm main_v48 98 (by decide)), fin_main_arg2 V, fin_main_v48 V]
  rfl

theorem hk_99 : (ops (F := F)).drop 99 = TRef.unary (TRef.of (T := ⟨S8192x2048, .f32⟩) main_v49) (TRef.of (T := ⟨S8192x2048, .f32⟩) main_v50) Host.roundeven :: (ops (F := F)).drop 100 := rfl

theorem fin_main_v50 :
    after (ops (F := F)) V (Proc.devRef .tc main_v50) = val_main_v50 (F := F) (V (Proc.devRef .tc main_arg2)) := by
  rw [after_unary hW 99 hk_99 V (nm main_v50 100 (by decide)) (nm main_v49 99 (by decide)), fin_main_v49 V]
  exact cast_unary _ _ _ _

theorem hk_100 : (ops (F := F)).drop 100 = nullary main_c_18 (constantI S_ 32 4294967295#32) :: (ops (F := F)).drop 101 := rfl

theorem fin_main_c_18 :
    after (ops (F := F)) V (Proc.devRef .tc main_c_18) = val_main_c_18 (F := F) := by
  rw [after_nullary hW 100 hk_100 V (nm main_c_18 101 (by decide))]
  rfl

theorem hk_101 : (ops (F := F)).drop 101 = nullary main_c_19 (constantI S_ 32 1#32) :: (ops (F := F)).drop 102 := rfl

theorem fin_main_c_19 :
    after (ops (F := F)) V (Proc.devRef .tc main_c_19) = val_main_c_19 (F := F) := by
  rw [after_nullary hW 101 hk_101 V (nm main_c_19 102 (by decide))]
  rfl

theorem hk_102 : (ops (F := F)).drop 102 = TRef.unary (TRef.of (T := ⟨S_, .i32⟩) main_c_18) (TRef.of (T := ⟨S_, .f32⟩) main_call12_v0) (sitofp .f32) :: (ops (F := F)).drop 103 := rfl

theorem fin_main_call12_v0 :
    after (ops (F := F)) V (Proc.devRef .tc main_call12_v0) = val_main_call12_v0 (F := F) := by
  rw [after_unary hW 102 hk_102 V (nm main_call12_v0 103 (by decide)) (nm main_c_18 102 (by decide)), fin_main_c_18 V]
  exact cast_unary _ _ _ _

theorem hk_103 : (ops (F := F)).drop 103 = TRef.unary (TRef.of (T := ⟨S_, .f32⟩) main_call12_v0) (TRef.of (T := ⟨S8192x2048, .f32⟩) main_call12_v1) (broadcastInDim S8192x2048 ![] bcast_S_S8192x2048) :: (ops (F := F)).drop 104 := rfl

theorem fin_main_call12_v1 :
    after (ops (F := F)) V (Proc.devRef .tc main_call12_v1) = val_main_call12_v1 (F := F) := by
  rw [after_unary hW 103 hk_103 V (nm main_call12_v1 104 (by decide)) (nm main_call12_v0 103 (by decide)), fin_main_call12_v0 V]
  exact cast_unary _ _ _ _

theorem hk_104 : (ops (F := F)).drop 104 = TRef.binary (TRef.of (T := ⟨S8192x2048, .f32⟩) main_call12_v1) (TRef.of (T := ⟨S8192x2048, .f32⟩) main_v50) (TRef.of (T := ⟨S8192x2048, .f32⟩) main_call12_v2) maximumf :: (ops (F := F)).drop 105 := rfl

theorem fin_main_call12_v2 :
    after (ops (F := F)) V (Proc.devRef .tc main_call12_v2) = val_main_call12_v2 (F := F) (V (Proc.devRef .tc main_arg2)) := by
  rw [after_binary hW 104 hk_104 V (nm main_call12_v2 105 (by decide)) (nm main_call12_v1 104 (by decide)) (nm main_v50 104 (by decide)), fin_main_call12_v1 V, fin_main_v50 V]
  exact cast_binary _ _ _ _ _ _

theorem hk_105 : (ops (F := F)).drop 105 = TRef.unary (TRef.of (T := ⟨S_, .i32⟩) main_c_19) (TRef.of (T := ⟨S_, .f32⟩) main_call12_v3) (sitofp .f32) :: (ops (F := F)).drop 106 := rfl

theorem fin_main_call12_v3 :
    after (ops (F := F)) V (Proc.devRef .tc main_call12_v3) = val_main_call12_v3 (F := F) := by
  rw [after_unary hW 105 hk_105 V (nm main_call12_v3 106 (by decide)) (nm main_c_19 105 (by decide)), fin_main_c_19 V]
  exact cast_unary _ _ _ _

theorem hk_106 : (ops (F := F)).drop 106 = TRef.unary (TRef.of (T := ⟨S_, .f32⟩) main_call12_v3) (TRef.of (T := ⟨S8192x2048, .f32⟩) main_call12_v4) (broadcastInDim S8192x2048 ![] bcast_S_S8192x2048) :: (ops (F := F)).drop 107 := rfl

theorem fin_main_call12_v4 :
    after (ops (F := F)) V (Proc.devRef .tc main_call12_v4) = val_main_call12_v4 (F := F) := by
  rw [after_unary hW 106 hk_106 V (nm main_call12_v4 107 (by decide)) (nm main_call12_v3 106 (by decide)), fin_main_call12_v3 V]
  exact cast_unary _ _ _ _

theorem hk_107 : (ops (F := F)).drop 107 = TRef.binary (TRef.of (T := ⟨S8192x2048, .f32⟩) main_call12_v4) (TRef.of (T := ⟨S8192x2048, .f32⟩) main_call12_v2) (TRef.of (T := ⟨S8192x2048, .f32⟩) main_v51) minimumf :: (ops (F := F)).drop 108 := rfl

theorem fin_main_v51 :
    after (ops (F := F)) V (Proc.devRef .tc main_v51) = val_main_v51 (F := F) (V (Proc.devRef .tc main_arg2)) := by
  rw [after_binary hW 107 hk_107 V (nm main_v51 108 (by decide)) (nm main_call12_v4 107 (by decide)) (nm main_call12_v2 107 (by decide)), fin_main_call12_v4 V, fin_main_call12_v2 V]
  exact cast_binary _ _ _ _ _ _

theorem hk_108 : (ops (F := F)).drop 108 = unary main_v47 main_v52 (broadcastInDim S8192x2048 ![] bcast_S_S8192x2048 : (⟨S_, .f32⟩ : BufTy).Contents (Elt F) → (⟨S8192x2048, .f32⟩ : BufTy).Contents (Elt F)) :: (ops (F := F)).drop 109 := rfl

theorem fin_main_v52 :
    after (ops (F := F)) V (Proc.devRef .tc main_v52) = val_main_v52 (F := F) (V (Proc.devRef .tc main_arg2)) := by
  rw [after_unary hW 108 hk_108 V (nm main_v52 109 (by decide)) (nm main_v47 108 (by decide)), fin_main_v47 V]
  rfl

theorem hk_109 : (ops (F := F)).drop 109 = binary main_v51 main_v52 main_v53 (Host.divf : (⟨S8192x2048, .f32⟩ : BufTy).Contents (Elt F) → (⟨S8192x2048, .f32⟩ : BufTy).Contents (Elt F) → (⟨S8192x2048, .f32⟩ : BufTy).Contents (Elt F)) :: (ops (F := F)).drop 110 := rfl

theorem fin_main_v53 :
    after (ops (F := F)) V (Proc.devRef .tc main_v53) = val_main_v53 (F := F) (V (Proc.devRef .tc main_arg2)) := by
  rw [after_binary hW 109 hk_109 V (nm main_v53 110 (by decide)) (nm main_v51 109 (by decide)) (nm main_v52 109 (by decide)), fin_main_v51 V, fin_main_v52 V]
  rfl

theorem hk_110 : (ops (F := F)).drop 110 = binary main_v53 main_arg2 main_v54 (subf : (⟨S8192x2048, .f32⟩ : BufTy).Contents (Elt F) → (⟨S8192x2048, .f32⟩ : BufTy).Contents (Elt F) → (⟨S8192x2048, .f32⟩ : BufTy).Contents (Elt F)) :: (ops (F := F)).drop 111 := rfl

theorem fin_main_v54 :
    after (ops (F := F)) V (Proc.devRef .tc main_v54) = val_main_v54 (F := F) (V (Proc.devRef .tc main_arg2)) := by
  rw [after_binary hW 110 hk_110 V (nm main_v54 111 (by decide)) (nm main_v53 110 (by decide)) (nm main_arg2 110 (by decide)), fin_main_v53 V, fin_main_arg2 V]
  rfl

theorem hk_111 : (ops (F := F)).drop 111 = binary main_arg2 main_v54 main_v55 (addf : (⟨S8192x2048, .f32⟩ : BufTy).Contents (Elt F) → (⟨S8192x2048, .f32⟩ : BufTy).Contents (Elt F) → (⟨S8192x2048, .f32⟩ : BufTy).Contents (Elt F)) :: (ops (F := F)).drop 112 := rfl

theorem fin_main_v55 :
    after (ops (F := F)) V (Proc.devRef .tc main_v55) = val_main_v55 (F := F) (V (Proc.devRef .tc main_arg2)) := by
  rw [after_binary hW 111 hk_111 V (nm main_v55 112 (by decide)) (nm main_arg2 111 (by decide)) (nm main_v54 111 (by decide)), fin_main_arg2 V, fin_main_v54 V]
  rfl

theorem hk_112 : (ops (F := F)).drop 112 = binary main_v42 main_v55 main_v56 ((fun l r => Host.dotGeneral dot_S8x3x128x2048_S8192x2048_S8x3x128x8192_3_1_012_0_n_n none l r) : (⟨S8x3x128x2048, .f32⟩ : BufTy).Contents (Elt F) → (⟨S8192x2048, .f32⟩ : BufTy).Contents (Elt F) → (⟨S8x3x128x8192, .f32⟩ : BufTy).Contents (Elt F)) :: (ops (F := F)).drop 113 := rfl

theorem fin_main_v56 :
    after (ops (F := F)) V (Proc.devRef .tc main_v56) = val_main_v56 (F := F) (V (Proc.devRef .tc main_arg0)) (V (Proc.devRef .tc main_arg2)) := by
  rw [after_binary hW 112 hk_112 V (nm main_v56 113 (by decide)) (nm main_v42 112 (by decide)) (nm main_v55 112 (by decide)), fin_main_v42 V, fin_main_v55 V]
  rfl

theorem hk_113 : (ops (F := F)).drop 113 = binary main_v28 main_v56 main_v57 (mulf : (⟨S8x3x128x8192, .f32⟩ : BufTy).Contents (Elt F) → (⟨S8x3x128x8192, .f32⟩ : BufTy).Contents (Elt F) → (⟨S8x3x128x8192, .f32⟩ : BufTy).Contents (Elt F)) :: (ops (F := F)).drop 114 := rfl

theorem fin_main_v57 :
    after (ops (F := F)) V (Proc.devRef .tc main_v57) = val_main_v57 (F := F) (V (Proc.devRef .tc main_arg0)) (V (Proc.devRef .tc main_arg1)) (V (Proc.devRef .tc main_arg2)) := by
  rw [after_binary hW 113 hk_113 V (nm main_v57 114 (by decide)) (nm main_v28 113 (by decide)) (nm main_v56 113 (by decide)), fin_main_v28 V, fin_main_v56 V]
  rfl

theorem hk_114 : (ops (F := F)).drop 114 = binary main_v57 main_v57 main_v58 (mulf : (⟨S8x3x128x8192, .f32⟩ : BufTy).Contents (Elt F) → (⟨S8x3x128x8192, .f32⟩ : BufTy).Contents (Elt F) → (⟨S8x3x128x8192, .f32⟩ : BufTy).Contents (Elt F)) :: (ops (F := F)).drop 115 := rfl

theorem fin_main_v58 :
    after (ops (F := F)) V (Proc.devRef .tc main_v58) = val_main_v58 (F := F) (V (Proc.devRef .tc main_arg0)) (V (Proc.devRef .tc main_arg1)) (V (Proc.devRef .tc main_arg2)) := by
  rw [after_binary hW 114 hk_114 V (nm main_v58 115 (by decide)) (nm main_v57 114 (by decide)) (nm main_v57 114 (by decide)), fin_main_v57 V]
  rfl

theorem hk_115 : (ops (F := F)).drop 115 = nullary main_cst_20 (constant S_ .f32 0x00000000#32) :: (ops (F := F)).drop 116 := rfl

theorem fin_main_cst_20 :
    after (ops (F := F)) V (Proc.devRef .tc main_cst_20) = val_main_cst_20 (F := F) := by
  rw [after_nullary hW 115 hk_115 V (nm main_cst_20 116 (by decide))]
  rfl

theorem hk_116 : (ops (F := F)).drop 116 = binary main_v58 main_cst_20 main_v59 ((fun x v => Host.reduceAdd x v reducesTo_S8x3x128x8192_S8x3x128_d3 h_S_) : (⟨S8x3x128x8192, .f32⟩ : BufTy).Contents (Elt F) → (⟨S_, .f32⟩ : BufTy).Contents (Elt F) → (⟨S8x3x128, .f32⟩ : BufTy).Contents (Elt F)) :: (ops (F := F)).drop 117 := rfl

theorem fin_main_v59 :
    after (ops (F := F)) V (Proc.devRef .tc main_v59) = val_main_v59 (F := F) (V (Proc.devRef .tc main_arg0)) (V (Proc.devRef .tc main_arg1)) (V (Proc.devRef .tc main_arg2)) := by
  rw [after_binary hW 116 hk_116 V (nm main_v59 117 (by decide)) (nm main_v58 116 (by decide)) (nm main_cst_20 116 (by decide)), fin_main_v58 V, fin_main_cst_20 V]
  rfl

theorem hk_117 : (ops (F := F)).drop 117 = unary main_v59 main_v60 (broadcastInDim S8x3x128x1 ![0, 1, 2] bcast_S8x3x128_S8x3x128x1_0_1_2 : (⟨S8x3x128, .f32⟩ : BufTy).Contents (Elt F) → (⟨S8x3x128x1, .f32⟩ : BufTy).Contents (Elt F)) :: (ops (F := F)).drop 118 := rfl

theorem fin_main_v60 :
    after (ops (F := F)) V (Proc.devRef .tc main_v60) = val_main_v60 (F := F) (V (Proc.devRef .tc main_arg0)) (V (Proc.devRef .tc main_arg1)) (V (Proc.devRef .tc main_arg2)) := by
  rw [after_unary hW 117 hk_117 V (nm main_v60 118 (by decide)) (nm main_v59 117 (by decide)), fin_main_v59 V]
  rfl

theorem hk_118 : (ops (F := F)).drop 118 = nullary main_cst_21 (constant S_ .f32 0x46000000#32) :: (ops (F := F)).drop 119 := rfl

theorem fin_main_cst_21 :
    after (ops (F := F)) V (Proc.devRef .tc main_cst_21) = val_main_cst_21 (F := F) := by
  rw [after_nullary hW 118 hk_118 V (nm main_cst_21 119 (by decide))]
  rfl

theorem hk_119 : (ops (F := F)).drop 119 = unary main_cst_21 main_v61 (broadcastInDim S8x3x128x1 ![] bcast_S_S8x3x128x1 : (⟨S_, .f32⟩ : BufTy).Contents (Elt F) → (⟨S8x3x128x1, .f32⟩ : BufTy).Contents (Elt F)) :: (ops (F := F)).drop 120 := rfl

theorem fin_main_v61 :
    after (ops (F := F)) V (Proc.devRef .tc main_v61) = val_main_v61 (F := F) := by
  rw [after_unary hW 119 hk_119 V (nm main_v61 120 (by decide)) (nm main_cst_21 119 (by decide)), fin_main_cst_21 V]
  rfl

theorem hk_120 : (ops (F := F)).drop 120 = binary main_v60 main_v61 main_v62 (Host.divf : (⟨S8x3x128x1, .f32⟩ : BufTy).Contents (Elt F) → (⟨S8x3x128x1, .f32⟩ : BufTy).Contents (Elt F) → (⟨S8x3x128x1, .f32⟩ : BufTy).Contents (Elt F)) :: (ops (F := F)).drop 121 := rfl

theorem fin_main_v62 :
    after (ops (F := F)) V (Proc.devRef .tc main_v62) = val_main_v62 (F := F) (V (Proc.devRef .tc main_arg0)) (V (Proc.devRef .tc main_arg1)) (V (Proc.devRef .tc main_arg2)) := by
  rw [after_binary hW 120 hk_120 V (nm main_v62 121 (by decide)) (nm main_v60 120 (by decide)) (nm main_v61 120 (by decide)), fin_main_v60 V, fin_main_v61 V]
  rfl

theorem hk_121 : (ops (F := F)).drop 121 = nullary main_cst_22 (constant S_ .f32 0x358637BD#32) :: (ops (F := F)).drop 122 := rfl

theorem fin_main_cst_22 :
    after (ops (F := F)) V (Proc.devRef .tc main_cst_22) = val_main_cst_22 (F := F) := by
  rw [after_nullary hW 121 hk_121 V (nm main_cst_22 122 (by decide))]
  rfl

theorem hk_122 : (ops (F := F)).drop 122 = unary main_cst_22 main_v63 (broadcastInDim S8x3x128x1 ![] bcast_S_S8x3x128x1 : (⟨S_, .f32⟩ : BufTy).Contents (Elt F) → (⟨S8x3x128x1, .f32⟩ : BufTy).Contents (Elt F)) :: (ops (F := F)).drop 123 := rfl

theorem fin_main_v63 :
    after (ops (F := F)) V (Proc.devRef .tc main_v63) = val_main_v63 (F := F) := by
  rw [after_unary hW 122 hk_122 V (nm main_v63 123 (by decide)) (nm main_cst_22 122 (by decide)), fin_main_cst_22 V]
  rfl

theorem hk_123 : (ops (F := F)).drop 123 = binary main_v62 main_v63 main_v64 (addf : (⟨S8x3x128x1, .f32⟩ : BufTy).Contents (Elt F) → (⟨S8x3x128x1, .f32⟩ : BufTy).Contents (Elt F) → (⟨S8x3x128x1, .f32⟩ : BufTy).Contents (Elt F)) :: (ops (F := F)).drop 124 := rfl

theorem fin_main_v64 :
    after (ops (F := F)) V (Proc.devRef .tc main_v64) = val_main_v64 (F := F) (V (Proc.devRef .tc main_arg0)) (V (Proc.devRef .tc main_arg1)) (V (Proc.devRef .tc main_arg2)) := by
  rw [after_binary hW 123 hk_123 V (nm main_v64 124 (by decide)) (nm main_v62 123 (by decide)) (nm main_v63 123 (by decide)), fin_main_v62 V, fin_main_v63 V]
  rfl

theorem hk_124 : (ops (F := F)).drop 124 = unary main_v64 main_v65 (Host.rsqrt : (⟨S8x3x128x1, .f32⟩ : BufTy).Contents (Elt F) → (⟨S8x3x128x1, .f32⟩ : BufTy).Contents (Elt F)) :: (ops (F := F)).drop 125 := rfl

theorem fin_main_v65 :
    after (ops (F := F)) V (Proc.devRef .tc main_v65) = val_main_v65 (F := F) (V (Proc.devRef .tc main_arg0)) (V (Proc.devRef .tc main_arg1)) (V (Proc.devRef .tc main_arg2)) := by
  rw [after_unary hW 124 hk_124 V (nm main_v65 125 (by decide)) (nm main_v64 124 (by decide)), fin_main_v64 V]
  rfl

theorem hk_125 : (ops (F := F)).drop 125 = unary main_v65 main_v66 (broadcastInDim S8x3x128x8192 ![0, 1, 2, 3] bcast_S8x3x128x1_S8x3x128x8192_0_1_2_3 : (⟨S8x3x128x1, .f32⟩ : BufTy).Contents (Elt F) → (⟨S8x3x128x8192, .f32⟩ : BufTy).Contents (Elt F)) :: (ops (F := F)).drop 126 := rfl

theorem fin_main_v66 :
    after (ops (F := F)) V (Proc.devRef .tc main_v66) = val_main_v66 (F := F) (V (Proc.devRef .tc main_arg0)) (V (Proc.devRef .tc main_arg1)) (V (Proc.devRef .tc main_arg2)) := by
  rw [after_unary hW 125 hk_125 V (nm main_v66 126 (by decide)) (nm main_v65 125 (by decide)), fin_main_v65 V]
  rfl

theorem hk_126 : (ops (F := F)).drop 126 = binary main_v57 main_v66 main_v67 (mulf : (⟨S8x3x128x8192, .f32⟩ : BufTy).Contents (Elt F) → (⟨S8x3x128x8192, .f32⟩ : BufTy).Contents (Elt F) → (⟨S8x3x128x8192, .f32⟩ : BufTy).Contents (Elt F)) :: (ops (F := F)).drop 127 := rfl

theorem fin_main_v67 :
    after (ops (F := F)) V (Proc.devRef .tc main_v67) = val_main_v67 (F := F) (V (Proc.devRef .tc main_arg0)) (V (Proc.devRef .tc main_arg1)) (V (Proc.devRef .tc main_arg2)) := by
  rw [after_binary hW 126 hk_126 V (nm main_v67 127 (by decide)) (nm main_v57 126 (by decide)) (nm main_v66 126 (by decide)), fin_main_v57 V, fin_main_v66 V]
  rfl

theorem hk_127 : (ops (F := F)).drop 127 = unary main_arg4 main_v68 (broadcastInDim S1x1x1x8192 ![3] bcast_S8192_S1x1x1x8192_3 : (⟨S8192, .f32⟩ : BufTy).Contents (Elt F) → (⟨S1x1x1x8192, .f32⟩ : BufTy).Contents (Elt F)) :: (ops (F := F)).drop 128 := rfl

theorem fin_main_v68 :
    after (ops (F := F)) V (Proc.devRef .tc main_v68) = val_main_v68 (F := F) (V (Proc.devRef .tc main_arg4)) := by
  rw [after_unary hW 127 hk_127 V (nm main_v68 128 (by decide)) (nm main_arg4 127 (by decide)), fin_main_arg4 V]
  rfl

theorem hk_128 : (ops (F := F)).drop 128 = unary main_v68 main_v69 (broadcastInDim S8x3x128x8192 ![0, 1, 2, 3] bcast_S1x1x1x8192_S8x3x128x8192_0_1_2_3 : (⟨S1x1x1x8192, .f32⟩ : BufTy).Contents (Elt F) → (⟨S8x3x128x8192, .f32⟩ : BufTy).Contents (Elt F)) :: (ops (F := F)).drop 129 := rfl

theorem fin_main_v69 :
    after (ops (F := F)) V (Proc.devRef .tc main_v69) = val_main_v69 (F := F) (V (Proc.devRef .tc main_arg4)) := by
  rw [after_unary hW 128 hk_128 V (nm main_v69 129 (by decide)) (nm main_v68 128 (by decide)), fin_main_v68 V]
  rfl

theorem hk_129 : (ops (F := F)).drop 129 = binary main_v67 main_v69 main_v70 (mulf : (⟨S8x3x128x8192, .f32⟩ : BufTy).Contents (Elt F) → (⟨S8x3x128x8192, .f32⟩ : BufTy).Contents (Elt F) → (⟨S8x3x128x8192, .f32⟩ : BufTy).Contents (Elt F)) :: (ops (F := F)).drop 130 := rfl

theorem fin_main_v70 :
    after (ops (F := F)) V (Proc.devRef .tc main_v70) = val_main_v70 (F := F) (V (Proc.devRef .tc main_arg0)) (V (Proc.devRef .tc main_arg1)) (V (Proc.devRef .tc main_arg2)) (V (Proc.devRef .tc main_arg4)) := by
  rw [after_binary hW 129 hk_129 V (nm main_v70 130 (by decide)) (nm main_v67 129 (by decide)) (nm main_v69 129 (by decide)), fin_main_v67 V, fin_main_v69 V]
  rfl

theorem hk_130 : (ops (F := F)).drop 130 = unary main_v70 main_v71 (Host.absf : (⟨S8x3x128x8192, .f32⟩ : BufTy).Contents (Elt F) → (⟨S8x3x128x8192, .f32⟩ : BufTy).Contents (Elt F)) :: (ops (F := F)).drop 131 := rfl

theorem fin_main_v71 :
    after (ops (F := F)) V (Proc.devRef .tc main_v71) = val_main_v71 (F := F) (V (Proc.devRef .tc main_arg0)) (V (Proc.devRef .tc main_arg1)) (V (Proc.devRef .tc main_arg2)) (V (Proc.devRef .tc main_arg4)) := by
  rw [after_unary hW 130 hk_130 V (nm main_v71 131 (by decide)) (nm main_v70 130 (by decide)), fin_main_v70 V]
  rfl

theorem hk_131 : (ops (F := F)).drop 131 = nullary main_cst_23 (constant S_ .f32 0xFF800000#32) :: (ops (F := F)).drop 132 := rfl

theorem fin_main_cst_23 :
    after (ops (F := F)) V (Proc.devRef .tc main_cst_23) = val_main_cst_23 (F := F) := by
  rw [after_nullary hW 131 hk_131 V (nm main_cst_23 132 (by decide))]
  rfl

theorem hk_132 : (ops (F := F)).drop 132 = binary main_v71 main_cst_23 main_v72 ((fun x v => Host.reduce FloatOps.maximumf x v reducesTo_S8x3x128x8192_S8x3x128_d3 h_S_) : (⟨S8x3x128x8192, .f32⟩ : BufTy).Contents (Elt F) → (⟨S_, .f32⟩ : BufTy).Contents (Elt F) → (⟨S8x3x128, .f32⟩ : BufTy).Contents (Elt F)) :: (ops (F := F)).drop 133 := rfl

theorem fin_main_v72 :
    after (ops (F := F)) V (Proc.devRef .tc main_v72) = val_main_v72 (F := F) (V (Proc.devRef .tc main_arg0)) (V (Proc.devRef .tc main_arg1)) (V (Proc.devRef .tc main_arg2)) (V (Proc.devRef .tc main_arg4)) := by
  rw [after_binary hW 132 hk_132 V (nm main_v72 133 (by decide)) (nm main_v71 132 (by decide)) (nm main_cst_23 132 (by decide)), fin_main_v71 V, fin_main_cst_23 V]
  rfl

theorem hk_133 : (ops (F := F)).drop 133 = unary main_v72 main_v73 (broadcastInDim S8x3x128x1 ![0, 1, 2] bcast_S8x3x128_S8x3x128x1_0_1_2 : (⟨S8x3x128, .f32⟩ : BufTy).Contents (Elt F) → (⟨S8x3x128x1, .f32⟩ : BufTy).Contents (Elt F)) :: (ops (F := F)).drop 134 := rfl

theorem fin_main_v73 :
    after (ops (F := F)) V (Proc.devRef .tc main_v73) = val_main_v73 (F := F) (V (Proc.devRef .tc main_arg0)) (V (Proc.devRef .tc main_arg1)) (V (Proc.devRef .tc main_arg2)) (V (Proc.devRef .tc main_arg4)) := by
  rw [after_unary hW 133 hk_133 V (nm main_v73 134 (by decide)) (nm main_v72 133 (by decide)), fin_main_v72 V]
  rfl

theorem hk_134 : (ops (F := F)).drop 134 = nullary main_cst_24 (constant S_ .f32 0x3727C5AC#32) :: (ops (F := F)).drop 135 := rfl

theorem fin_main_cst_24 :
    after (ops (F := F)) V (Proc.devRef .tc main_cst_24) = val_main_cst_24 (F := F) := by
  rw [after_nullary hW 134 hk_134 V (nm main_cst_24 135 (by decide))]
  rfl

theorem hk_135 : (ops (F := F)).drop 135 = TRef.unary (TRef.of (T := ⟨S_, .f32⟩) main_cst_24) (TRef.of (T := ⟨S_, .f32⟩) main_call13_v0) id :: (ops (F := F)).drop 136 := rfl

theorem fin_main_call13_v0 :
    after (ops (F := F)) V (Proc.devRef .tc main_call13_v0) = val_main_call13_v0 (F := F) := by
  rw [after_unary hW 135 hk_135 V (nm main_call13_v0 136 (by decide)) (nm main_cst_24 135 (by decide)), fin_main_cst_24 V]
  exact cast_unary _ _ _ _

theorem hk_136 : (ops (F := F)).drop 136 = TRef.unary (TRef.of (T := ⟨S_, .f32⟩) main_call13_v0) (TRef.of (T := ⟨S8x3x128x1, .f32⟩) main_call13_v1) (broadcastInDim S8x3x128x1 ![] bcast_S_S8x3x128x1) :: (ops (F := F)).drop 137 := rfl

theorem fin_main_call13_v1 :
    after (ops (F := F)) V (Proc.devRef .tc main_call13_v1) = val_main_call13_v1 (F := F) := by
  rw [after_unary hW 136 hk_136 V (nm main_call13_v1 137 (by decide)) (nm main_call13_v0 136 (by decide)), fin_main_call13_v0 V]
  exact cast_unary _ _ _ _

theorem hk_137 : (ops (F := F)).drop 137 = TRef.binary (TRef.of (T := ⟨S8x3x128x1, .f32⟩) main_call13_v1) (TRef.of (T := ⟨S8x3x128x1, .f32⟩) main_v73) (TRef.of (T := ⟨S8x3x128x1, .f32⟩) main_v74) maximumf :: (ops (F := F)).drop 138 := rfl

theorem fin_main_v74 :
    after (ops (F := F)) V (Proc.devRef .tc main_v74) = val_main_v74 (F := F) (V (Proc.devRef .tc main_arg0)) (V (Proc.devRef .tc main_arg1)) (V (Proc.devRef .tc main_arg2)) (V (Proc.devRef .tc main_arg4)) := by
  rw [after_binary hW 137 hk_137 V (nm main_v74 138 (by decide)) (nm main_call13_v1 137 (by decide)) (nm main_v73 137 (by decide)), fin_main_call13_v1 V, fin_main_v73 V]
  exact cast_binary _ _ _ _ _ _

theorem hk_138 : (ops (F := F)).drop 138 = nullary main_cst_25 (constant S_ .f32 0x42FE0000#32) :: (ops (F := F)).drop 139 := rfl

theorem fin_main_cst_25 :
    after (ops (F := F)) V (Proc.devRef .tc main_cst_25) = val_main_cst_25 (F := F) := by
  rw [after_nullary hW 138 hk_138 V (nm main_cst_25 139 (by decide))]
  rfl

theorem hk_139 : (ops (F := F)).drop 139 = unary main_cst_25 main_v75 (broadcastInDim S8x3x128x1 ![] bcast_S_S8x3x128x1 : (⟨S_, .f32⟩ : BufTy).Contents (Elt F) → (⟨S8x3x128x1, .f32⟩ : BufTy).Contents (Elt F)) :: (ops (F := F)).drop 140 := rfl

theorem fin_main_v75 :
    after (ops (F := F)) V (Proc.devRef .tc main_v75) = val_main_v75 (F := F) := by
  rw [after_unary hW 139 hk_139 V (nm main_v75 140 (by decide)) (nm main_cst_25 139 (by decide)), fin_main_cst_25 V]
  rfl

theorem hk_140 : (ops (F := F)).drop 140 = binary main_v75 main_v74 main_v76 (Host.divf : (⟨S8x3x128x1, .f32⟩ : BufTy).Contents (Elt F) → (⟨S8x3x128x1, .f32⟩ : BufTy).Contents (Elt F) → (⟨S8x3x128x1, .f32⟩ : BufTy).Contents (Elt F)) :: (ops (F := F)).drop 141 := rfl

theorem fin_main_v76 :
    after (ops (F := F)) V (Proc.devRef .tc main_v76) = val_main_v76 (F := F) (V (Proc.devRef .tc main_arg0)) (V (Proc.devRef .tc main_arg1)) (V (Proc.devRef .tc main_arg2)) (V (Proc.devRef .tc main_arg4)) := by
  rw [after_binary hW 140 hk_140 V (nm main_v76 141 (by decide)) (nm main_v75 140 (by decide)) (nm main_v74 140 (by decide)), fin_main_v75 V, fin_main_v74 V]
  rfl

theorem hk_141 : (ops (F := F)).drop 141 = unary main_v76 main_v77 (broadcastInDim S8x3x128x8192 ![0, 1, 2, 3] bcast_S8x3x128x1_S8x3x128x8192_0_1_2_3 : (⟨S8x3x128x1, .f32⟩ : BufTy).Contents (Elt F) → (⟨S8x3x128x8192, .f32⟩ : BufTy).Contents (Elt F)) :: (ops (F := F)).drop 142 := rfl

theorem fin_main_v77 :
    after (ops (F := F)) V (Proc.devRef .tc main_v77) = val_main_v77 (F := F) (V (Proc.devRef .tc main_arg0)) (V (Proc.devRef .tc main_arg1)) (V (Proc.devRef .tc main_arg2)) (V (Proc.devRef .tc main_arg4)) := by
  rw [after_unary hW 141 hk_141 V (nm main_v77 142 (by decide)) (nm main_v76 141 (by decide)), fin_main_v76 V]
  rfl

theorem hk_142 : (ops (F := F)).drop 142 = binary main_v70 main_v77 main_v78 (mulf : (⟨S8x3x128x8192, .f32⟩ : BufTy).Contents (Elt F) → (⟨S8x3x128x8192, .f32⟩ : BufTy).Contents (Elt F) → (⟨S8x3x128x8192, .f32⟩ : BufTy).Contents (Elt F)) :: (ops (F := F)).drop 143 := rfl

theorem fin_main_v78 :
    after (ops (F := F)) V (Proc.devRef .tc main_v78) = val_main_v78 (F := F) (V (Proc.devRef .tc main_arg0)) (V (Proc.devRef .tc main_arg1)) (V (Proc.devRef .tc main_arg2)) (V (Proc.devRef .tc main_arg4)) := by
  rw [after_binary hW 142 hk_142 V (nm main_v78 143 (by decide)) (nm main_v70 142 (by decide)) (nm main_v77 142 (by decide)), fin_main_v70 V, fin_main_v77 V]
  rfl

theorem hk_143 : (ops (F := F)).drop 143 = TRef.unary (TRef.of (T := ⟨S8x3x128x8192, .f32⟩) main_v78) (TRef.of (T := ⟨S8x3x128x8192, .f32⟩) main_v79) Host.roundeven :: (ops (F := F)).drop 144 := rfl

theorem fin_main_v79 :
    after (ops (F := F)) V (Proc.devRef .tc main_v79) = val_main_v79 (F := F) (V (Proc.devRef .tc main_arg0)) (V (Proc.devRef .tc main_arg1)) (V (Proc.devRef .tc main_arg2)) (V (Proc.devRef .tc main_arg4)) := by
  rw [after_unary hW 143 hk_143 V (nm main_v79 144 (by decide)) (nm main_v78 143 (by decide)), fin_main_v78 V]
  exact cast_unary _ _ _ _

theorem hk_144 : (ops (F := F)).drop 144 = nullary main_c_26 (constantI S_ 32 4294967168#32) :: (ops (F := F)).drop 145 := rfl

theorem fin_main_c_26 :
    after (ops (F := F)) V (Proc.devRef .tc main_c_26) = val_main_c_26 (F := F) := by
  rw [after_nullary hW 144 hk_144 V (nm main_c_26 145 (by decide))]
  rfl

theorem hk_145 : (ops (F := F)).drop 145 = nullary main_c_27 (constantI S_ 32 127#32) :: (ops (F := F)).drop 146 := rfl

theorem fin_main_c_27 :
    after (ops (F := F)) V (Proc.devRef .tc main_c_27) = val_main_c_27 (F := F) := by
  rw [after_nullary hW 145 hk_145 V (nm main_c_27 146 (by decide))]
  rfl

theorem hk_146 : (ops (F := F)).drop 146 = TRef.unary (TRef.of (T := ⟨S_, .i32⟩) main_c_26) (TRef.of (T := ⟨S_, .f32⟩) main_call15_v0) (sitofp .f32) :: (ops (F := F)).drop 147 := rfl

theorem fin_main_call15_v0 :
    after (ops (F := F)) V (Proc.devRef .tc main_call15_v0) = val_main_call15_v0 (F := F) := by
  rw [after_unary hW 146 hk_146 V (nm main_call15_v0 147 (by decide)) (nm main_c_26 146 (by decide)), fin_main_c_26 V]
  exact cast_unary _ _ _ _

theorem hk_147 : (ops (F := F)).drop 147 = TRef.unary (TRef.of (T := ⟨S_, .f32⟩) main_call15_v0) (TRef.of (T := ⟨S8x3x128x8192, .f32⟩) main_call15_v1) (broadcastInDim S8x3x128x8192 ![] bcast_S_S8x3x128x8192) :: (ops (F := F)).drop 148 := rfl

theorem fin_main_call15_v1 :
    after (ops (F := F)) V (Proc.devRef .tc main_call15_v1) = val_main_call15_v1 (F := F) := by
  rw [after_unary hW 147 hk_147 V (nm main_call15_v1 148 (by decide)) (nm main_call15_v0 147 (by decide)), fin_main_call15_v0 V]
  exact cast_unary _ _ _ _

theorem hk_148 : (ops (F := F)).drop 148 = TRef.binary (TRef.of (T := ⟨S8x3x128x8192, .f32⟩) main_call15_v1) (TRef.of (T := ⟨S8x3x128x8192, .f32⟩) main_v79) (TRef.of (T := ⟨S8x3x128x8192, .f32⟩) main_call15_v2) maximumf :: (ops (F := F)).drop 149 := rfl

theorem fin_main_call15_v2 :
    after (ops (F := F)) V (Proc.devRef .tc main_call15_v2) = val_main_call15_v2 (F := F) (V (Proc.devRef .tc main_arg0)) (V (Proc.devRef .tc main_arg1)) (V (Proc.devRef .tc main_arg2)) (V (Proc.devRef .tc main_arg4)) := by
  rw [after_binary hW 148 hk_148 V (nm main_call15_v2 149 (by decide)) (nm main_call15_v1 148 (by decide)) (nm main_v79 148 (by decide)), fin_main_call15_v1 V, fin_main_v79 V]
  exact cast_binary _ _ _ _ _ _

theorem hk_149 : (ops (F := F)).drop 149 = TRef.unary (TRef.of (T := ⟨S_, .i32⟩) main_c_27) (TRef.of (T := ⟨S_, .f32⟩) main_call15_v3) (sitofp .f32) :: (ops (F := F)).drop 150 := rfl

theorem fin_main_call15_v3 :
    after (ops (F := F)) V (Proc.devRef .tc main_call15_v3) = val_main_call15_v3 (F := F) := by
  rw [after_unary hW 149 hk_149 V (nm main_call15_v3 150 (by decide)) (nm main_c_27 149 (by decide)), fin_main_c_27 V]
  exact cast_unary _ _ _ _

theorem hk_150 : (ops (F := F)).drop 150 = TRef.unary (TRef.of (T := ⟨S_, .f32⟩) main_call15_v3) (TRef.of (T := ⟨S8x3x128x8192, .f32⟩) main_call15_v4) (broadcastInDim S8x3x128x8192 ![] bcast_S_S8x3x128x8192) :: (ops (F := F)).drop 151 := rfl

theorem fin_main_call15_v4 :
    after (ops (F := F)) V (Proc.devRef .tc main_call15_v4) = val_main_call15_v4 (F := F) := by
  rw [after_unary hW 150 hk_150 V (nm main_call15_v4 151 (by decide)) (nm main_call15_v3 150 (by decide)), fin_main_call15_v3 V]
  exact cast_unary _ _ _ _

theorem hk_151 : (ops (F := F)).drop 151 = TRef.binary (TRef.of (T := ⟨S8x3x128x8192, .f32⟩) main_call15_v4) (TRef.of (T := ⟨S8x3x128x8192, .f32⟩) main_call15_v2) (TRef.of (T := ⟨S8x3x128x8192, .f32⟩) main_v80) minimumf :: (ops (F := F)).drop 152 := rfl

theorem fin_main_v80 :
    after (ops (F := F)) V (Proc.devRef .tc main_v80) = val_main_v80 (F := F) (V (Proc.devRef .tc main_arg0)) (V (Proc.devRef .tc main_arg1)) (V (Proc.devRef .tc main_arg2)) (V (Proc.devRef .tc main_arg4)) := by
  rw [after_binary hW 151 hk_151 V (nm main_v80 152 (by decide)) (nm main_call15_v4 151 (by decide)) (nm main_call15_v2 151 (by decide)), fin_main_call15_v4 V, fin_main_call15_v2 V]
  exact cast_binary _ _ _ _ _ _

theorem hk_152 : (ops (F := F)).drop 152 = unary main_v76 main_v81 (broadcastInDim S8x3x128x8192 ![0, 1, 2, 3] bcast_S8x3x128x1_S8x3x128x8192_0_1_2_3 : (⟨S8x3x128x1, .f32⟩ : BufTy).Contents (Elt F) → (⟨S8x3x128x8192, .f32⟩ : BufTy).Contents (Elt F)) :: (ops (F := F)).drop 153 := rfl

theorem fin_main_v81 :
    after (ops (F := F)) V (Proc.devRef .tc main_v81) = val_main_v81 (F := F) (V (Proc.devRef .tc main_arg0)) (V (Proc.devRef .tc main_arg1)) (V (Proc.devRef .tc main_arg2)) (V (Proc.devRef .tc main_arg4)) := by
  rw [after_unary hW 152 hk_152 V (nm main_v81 153 (by decide)) (nm main_v76 152 (by decide)), fin_main_v76 V]
  rfl

theorem hk_153 : (ops (F := F)).drop 153 = binary main_v80 main_v81 main_v82 (Host.divf : (⟨S8x3x128x8192, .f32⟩ : BufTy).Contents (Elt F) → (⟨S8x3x128x8192, .f32⟩ : BufTy).Contents (Elt F) → (⟨S8x3x128x8192, .f32⟩ : BufTy).Contents (Elt F)) :: (ops (F := F)).drop 154 := rfl

theorem fin_main_v82 :
    after (ops (F := F)) V (Proc.devRef .tc main_v82) = val_main_v82 (F := F) (V (Proc.devRef .tc main_arg0)) (V (Proc.devRef .tc main_arg1)) (V (Proc.devRef .tc main_arg2)) (V (Proc.devRef .tc main_arg4)) := by
  rw [after_binary hW 153 hk_153 V (nm main_v82 154 (by decide)) (nm main_v80 153 (by decide)) (nm main_v81 153 (by decide)), fin_main_v80 V, fin_main_v81 V]
  rfl

theorem hk_154 : (ops (F := F)).drop 154 = binary main_v82 main_v70 main_v83 (subf : (⟨S8x3x128x8192, .f32⟩ : BufTy).Contents (Elt F) → (⟨S8x3x128x8192, .f32⟩ : BufTy).Contents (Elt F) → (⟨S8x3x128x8192, .f32⟩ : BufTy).Contents (Elt F)) :: (ops (F := F)).drop 155 := rfl

theorem fin_main_v83 :
    after (ops (F := F)) V (Proc.devRef .tc main_v83) = val_main_v83 (F := F) (V (Proc.devRef .tc main_arg0)) (V (Proc.devRef .tc main_arg1)) (V (Proc.devRef .tc main_arg2)) (V (Proc.devRef .tc main_arg4)) := by
  rw [after_binary hW 154 hk_154 V (nm main_v83 155 (by decide)) (nm main_v82 154 (by decide)) (nm main_v70 154 (by decide)), fin_main_v82 V, fin_main_v70 V]
  rfl

theorem hk_155 : (ops (F := F)).drop 155 = binary main_v70 main_v83 main_v84 (addf : (⟨S8x3x128x8192, .f32⟩ : BufTy).Contents (Elt F) → (⟨S8x3x128x8192, .f32⟩ : BufTy).Contents (Elt F) → (⟨S8x3x128x8192, .f32⟩ : BufTy).Contents (Elt F)) :: (ops (F := F)).drop 156 := rfl

theorem fin_main_v84 :
    after (ops (F := F)) V (Proc.devRef .tc main_v84) = val_main_v84 (F := F) (V (Proc.devRef .tc main_arg0)) (V (Proc.devRef .tc main_arg1)) (V (Proc.devRef .tc main_arg2)) (V (Proc.devRef .tc main_arg4)) := by
  rw [after_binary hW 155 hk_155 V (nm main_v84 156 (by decide)) (nm main_v70 155 (by decide)) (nm main_v83 155 (by decide)), fin_main_v70 V, fin_main_v83 V]
  rfl

theorem hk_156 : (ops (F := F)).drop 156 = unary main_arg3 main_v85 (Host.absf : (⟨S2048x8192, .f32⟩ : BufTy).Contents (Elt F) → (⟨S2048x8192, .f32⟩ : BufTy).Contents (Elt F)) :: (ops (F := F)).drop 157 := rfl

theorem fin_main_v85 :
    after (ops (F := F)) V (Proc.devRef .tc main_v85) = val_main_v85 (F := F) (V (Proc.devRef .tc main_arg3)) := by
  rw [after_unary hW 156 hk_156 V (nm main_v85 157 (by decide)) (nm main_arg3 156 (by decide)), fin_main_arg3 V]
  rfl

theorem hk_157 : (ops (F := F)).drop 157 = nullary main_cst_28 (constant S_ .f32 0x00000000#32) :: (ops (F := F)).drop 158 := rfl

theorem fin_main_cst_28 :
    after (ops (F := F)) V (Proc.devRef .tc main_cst_28) = val_main_cst_28 (F := F) := by
  rw [after_nullary hW 157 hk_157 V (nm main_cst_28 158 (by decide))]
  rfl

theorem hk_158 : (ops (F := F)).drop 158 = binary main_v85 main_cst_28 main_v86 ((fun x v => Host.reduceAdd x v reducesTo_S2048x8192_S_d0_1 h_S_) : (⟨S2048x8192, .f32⟩ : BufTy).Contents (Elt F) → (⟨S_, .f32⟩ : BufTy).Contents (Elt F) → (⟨S_, .f32⟩ : BufTy).Contents (Elt F)) :: (ops (F := F)).drop 159 := rfl

theorem fin_main_v86 :
    after (ops (F := F)) V (Proc.devRef .tc main_v86) = val_main_v86 (F := F) (V (Proc.devRef .tc main_arg3)) := by
  rw [after_binary hW 158 hk_158 V (nm main_v86 159 (by decide)) (nm main_v85 158 (by decide)) (nm main_cst_28 158 (by decide)), fin_main_v85 V, fin_main_cst_28 V]
  rfl

theorem hk_159 : (ops (F := F)).drop 159 = nullary main_cst_29 (constant S_ .f32 0x4B800000#32) :: (ops (F := F)).drop 160 := rfl

theorem fin_main_cst_29 :
    after (ops (F := F)) V (Proc.devRef .tc main_cst_29) = val_main_cst_29 (F := F) := by
  rw [after_nullary hW 159 hk_159 V (nm main_cst_29 160 (by decide))]
  rfl

theorem hk_160 : (ops (F := F)).drop 160 = binary main_v86 main_cst_29 main_v87 (Host.divf : (⟨S_, .f32⟩ : BufTy).Contents (Elt F) → (⟨S_, .f32⟩ : BufTy).Contents (Elt F) → (⟨S_, .f32⟩ : BufTy).Contents (Elt F)) :: (ops (F := F)).drop 161 := rfl

theorem fin_main_v87 :
    after (ops (F := F)) V (Proc.devRef .tc main_v87) = val_main_v87 (F := F) (V (Proc.devRef .tc main_arg3)) := by
  rw [after_binary hW 160 hk_160 V (nm main_v87 161 (by decide)) (nm main_v86 160 (by decide)) (nm main_cst_29 160 (by decide)), fin_main_v86 V, fin_main_cst_29 V]
  rfl

theorem hk_161 : (ops (F := F)).drop 161 = nullary main_cst_30 (constant S_ .f32 0x3727C5AC#32) :: (ops (F := F)).drop 162 := rfl

theorem fin_main_cst_30 :
    after (ops (F := F)) V (Proc.devRef .tc main_cst_30) = val_main_cst_30 (F := F) := by
  rw [after_nullary hW 161 hk_161 V (nm main_cst_30 162 (by decide))]
  rfl

theorem hk_162 : (ops (F := F)).drop 162 = TRef.unary (TRef.of (T := ⟨S_, .f32⟩) main_cst_30) (TRef.of (T := ⟨S_, .f32⟩) main_call16_v0) id :: (ops (F := F)).drop 163 := rfl

theorem fin_main_call16_v0 :
    after (ops (F := F)) V (Proc.devRef .tc main_call16_v0) = val_main_call16_v0 (F := F) := by
  rw [after_unary hW 162 hk_162 V (nm main_call16_v0 163 (by decide)) (nm main_cst_30 162 (by decide)), fin_main_cst_30 V]
  exact cast_unary _ _ _ _

theorem hk_163 : (ops (F := F)).drop 163 = TRef.binary (TRef.of (T := ⟨S_, .f32⟩) main_call16_v0) (TRef.of (T := ⟨S_, .f32⟩) main_v87) (TRef.of (T := ⟨S_, .f32⟩) main_v88) maximumf :: (ops (F := F)).drop 164 := rfl

theorem fin_main_v88 :
    after (ops (F := F)) V (Proc.devRef .tc main_v88) = val_main_v88 (F := F) (V (Proc.devRef .tc main_arg3)) := by
  rw [after_binary hW 163 hk_163 V (nm main_v88 164 (by decide)) (nm main_call16_v0 163 (by decide)) (nm main_v87 163 (by decide)), fin_main_call16_v0 V, fin_main_v87 V]
  exact cast_binary _ _ _ _ _ _

theorem hk_164 : (ops (F := F)).drop 164 = nullary main_cst_31 (constant S_ .f32 0x3F800000#32) :: (ops (F := F)).drop 165 := rfl

theorem fin_main_cst_31 :
    after (ops (F := F)) V (Proc.devRef .tc main_cst_31) = val_main_cst_31 (F := F) := by
  rw [after_nullary hW 164 hk_164 V (nm main_cst_31 165 (by decide))]
  rfl

theorem hk_165 : (ops (F := F)).drop 165 = binary main_cst_31 main_v88 main_v89 (Host.divf : (⟨S_, .f32⟩ : BufTy).Contents (Elt F) → (⟨S_, .f32⟩ : BufTy).Contents (Elt F) → (⟨S_, .f32⟩ : BufTy).Contents (Elt F)) :: (ops (F := F)).drop 166 := rfl

theorem fin_main_v89 :
    after (ops (F := F)) V (Proc.devRef .tc main_v89) = val_main_v89 (F := F) (V (Proc.devRef .tc main_arg3)) := by
  rw [after_binary hW 165 hk_165 V (nm main_v89 166 (by decide)) (nm main_cst_31 165 (by decide)) (nm main_v88 165 (by decide)), fin_main_cst_31 V, fin_main_v88 V]
  rfl

theorem hk_166 : (ops (F := F)).drop 166 = unary main_v89 main_v90 (broadcastInDim S2048x8192 ![] bcast_S_S2048x8192 : (⟨S_, .f32⟩ : BufTy).Contents (Elt F) → (⟨S2048x8192, .f32⟩ : BufTy).Contents (Elt F)) :: (ops (F := F)).drop 167 := rfl

theorem fin_main_v90 :
    after (ops (F := F)) V (Proc.devRef .tc main_v90) = val_main_v90 (F := F) (V (Proc.devRef .tc main_arg3)) := by
  rw [after_unary hW 166 hk_166 V (nm main_v90 167 (by decide)) (nm main_v89 166 (by decide)), fin_main_v89 V]
  rfl

theorem hk_167 : (ops (F := F)).drop 167 = binary main_arg3 main_v90 main_v91 (mulf : (⟨S2048x8192, .f32⟩ : BufTy).Contents (Elt F) → (⟨S2048x8192, .f32⟩ : BufTy).Contents (Elt F) → (⟨S2048x8192, .f32⟩ : BufTy).Contents (Elt F)) :: (ops (F := F)).drop 168 := rfl

theorem fin_main_v91 :
    after (ops (F := F)) V (Proc.devRef .tc main_v91) = val_main_v91 (F := F) (V (Proc.devRef .tc main_arg3)) := by
  rw [after_binary hW 167 hk_167 V (nm main_v91 168 (by decide)) (nm main_arg3 167 (by decide)) (nm main_v90 167 (by decide)), fin_main_arg3 V, fin_main_v90 V]
  rfl

theorem hk_168 : (ops (F := F)).drop 168 = TRef.unary (TRef.of (T := ⟨S2048x8192, .f32⟩) main_v91) (TRef.of (T := ⟨S2048x8192, .f32⟩) main_v92) Host.roundeven :: (ops (F := F)).drop 169 := rfl

theorem fin_main_v92 :
    after (ops (F := F)) V (Proc.devRef .tc main_v92) = val_main_v92 (F := F) (V (Proc.devRef .tc main_arg3)) := by
  rw [after_unary hW 168 hk_168 V (nm main_v92 169 (by decide)) (nm main_v91 168 (by decide)), fin_main_v91 V]
  exact cast_unary _ _ _ _

theorem hk_169 : (ops (F := F)).drop 169 = nullary main_c_32 (constantI S_ 32 4294967295#32) :: (ops (F := F)).drop 170 := rfl

theorem fin_main_c_32 :
    after (ops (F := F)) V (Proc.devRef .tc main_c_32) = val_main_c_32 (F := F) := by
  rw [after_nullary hW 169 hk_169 V (nm main_c_32 170 (by decide))]
  rfl

theorem hk_170 : (ops (F := F)).drop 170 = nullary main_c_33 (constantI S_ 32 1#32) :: (ops (F := F)).drop 171 := rfl

theorem fin_main_c_33 :
    after (ops (F := F)) V (Proc.devRef .tc main_c_33) = val_main_c_33 (F := F) := by
  rw [after_nullary hW 170 hk_170 V (nm main_c_33 171 (by decide))]
  rfl

theorem hk_171 : (ops (F := F)).drop 171 = TRef.unary (TRef.of (T := ⟨S_, .i32⟩) main_c_32) (TRef.of (T := ⟨S_, .f32⟩) main_call18_v0) (sitofp .f32) :: (ops (F := F)).drop 172 := rfl

theorem fin_main_call18_v0 :
    after (ops (F := F)) V (Proc.devRef .tc main_call18_v0) = val_main_call18_v0 (F := F) := by
  rw [after_unary hW 171 hk_171 V (nm main_call18_v0 172 (by decide)) (nm main_c_32 171 (by decide)), fin_main_c_32 V]
  exact cast_unary _ _ _ _

theorem hk_172 : (ops (F := F)).drop 172 = TRef.unary (TRef.of (T := ⟨S_, .f32⟩) main_call18_v0) (TRef.of (T := ⟨S2048x8192, .f32⟩) main_call18_v1) (broadcastInDim S2048x8192 ![] bcast_S_S2048x8192) :: (ops (F := F)).drop 173 := rfl

theorem fin_main_call18_v1 :
    after (ops (F := F)) V (Proc.devRef .tc main_call18_v1) = val_main_call18_v1 (F := F) := by
  rw [after_unary hW 172 hk_172 V (nm main_call18_v1 173 (by decide)) (nm main_call18_v0 172 (by decide)), fin_main_call18_v0 V]
  exact cast_unary _ _ _ _

theorem hk_173 : (ops (F := F)).drop 173 = TRef.binary (TRef.of (T := ⟨S2048x8192, .f32⟩) main_call18_v1) (TRef.of (T := ⟨S2048x8192, .f32⟩) main_v92) (TRef.of (T := ⟨S2048x8192, .f32⟩) main_call18_v2) maximumf :: (ops (F := F)).drop 174 := rfl

theorem fin_main_call18_v2 :
    after (ops (F := F)) V (Proc.devRef .tc main_call18_v2) = val_main_call18_v2 (F := F) (V (Proc.devRef .tc main_arg3)) := by
  rw [after_binary hW 173 hk_173 V (nm main_call18_v2 174 (by decide)) (nm main_call18_v1 173 (by decide)) (nm main_v92 173 (by decide)), fin_main_call18_v1 V, fin_main_v92 V]
  exact cast_binary _ _ _ _ _ _

theorem hk_174 : (ops (F := F)).drop 174 = TRef.unary (TRef.of (T := ⟨S_, .i32⟩) main_c_33) (TRef.of (T := ⟨S_, .f32⟩) main_call18_v3) (sitofp .f32) :: (ops (F := F)).drop 175 := rfl

theorem fin_main_call18_v3 :
    after (ops (F := F)) V (Proc.devRef .tc main_call18_v3) = val_main_call18_v3 (F := F) := by
  rw [after_unary hW 174 hk_174 V (nm main_call18_v3 175 (by decide)) (nm main_c_33 174 (by decide)), fin_main_c_33 V]
  exact cast_unary _ _ _ _

theorem hk_175 : (ops (F := F)).drop 175 = TRef.unary (TRef.of (T := ⟨S_, .f32⟩) main_call18_v3) (TRef.of (T := ⟨S2048x8192, .f32⟩) main_call18_v4) (broadcastInDim S2048x8192 ![] bcast_S_S2048x8192) :: (ops (F := F)).drop 176 := rfl

theorem fin_main_call18_v4 :
    after (ops (F := F)) V (Proc.devRef .tc main_call18_v4) = val_main_call18_v4 (F := F) := by
  rw [after_unary hW 175 hk_175 V (nm main_call18_v4 176 (by decide)) (nm main_call18_v3 175 (by decide)), fin_main_call18_v3 V]
  exact cast_unary _ _ _ _

theorem hk_176 : (ops (F := F)).drop 176 = TRef.binary (TRef.of (T := ⟨S2048x8192, .f32⟩) main_call18_v4) (TRef.of (T := ⟨S2048x8192, .f32⟩) main_call18_v2) (TRef.of (T := ⟨S2048x8192, .f32⟩) main_v93) minimumf :: (ops (F := F)).drop 177 := rfl

theorem fin_main_v93 :
    after (ops (F := F)) V (Proc.devRef .tc main_v93) = val_main_v93 (F := F) (V (Proc.devRef .tc main_arg3)) := by
  rw [after_binary hW 176 hk_176 V (nm main_v93 177 (by decide)) (nm main_call18_v4 176 (by decide)) (nm main_call18_v2 176 (by decide)), fin_main_call18_v4 V, fin_main_call18_v2 V]
  exact cast_binary _ _ _ _ _ _

theorem hk_177 : (ops (F := F)).drop 177 = unary main_v89 main_v94 (broadcastInDim S2048x8192 ![] bcast_S_S2048x8192 : (⟨S_, .f32⟩ : BufTy).Contents (Elt F) → (⟨S2048x8192, .f32⟩ : BufTy).Contents (Elt F)) :: (ops (F := F)).drop 178 := rfl

theorem fin_main_v94 :
    after (ops (F := F)) V (Proc.devRef .tc main_v94) = val_main_v94 (F := F) (V (Proc.devRef .tc main_arg3)) := by
  rw [after_unary hW 177 hk_177 V (nm main_v94 178 (by decide)) (nm main_v89 177 (by decide)), fin_main_v89 V]
  rfl

theorem hk_178 : (ops (F := F)).drop 178 = binary main_v93 main_v94 main_v95 (Host.divf : (⟨S2048x8192, .f32⟩ : BufTy).Contents (Elt F) → (⟨S2048x8192, .f32⟩ : BufTy).Contents (Elt F) → (⟨S2048x8192, .f32⟩ : BufTy).Contents (Elt F)) :: (ops (F := F)).drop 179 := rfl

theorem fin_main_v95 :
    after (ops (F := F)) V (Proc.devRef .tc main_v95) = val_main_v95 (F := F) (V (Proc.devRef .tc main_arg3)) := by
  rw [after_binary hW 178 hk_178 V (nm main_v95 179 (by decide)) (nm main_v93 178 (by decide)) (nm main_v94 178 (by decide)), fin_main_v93 V, fin_main_v94 V]
  rfl

theorem hk_179 : (ops (F := F)).drop 179 = binary main_v95 main_arg3 main_v96 (subf : (⟨S2048x8192, .f32⟩ : BufTy).Contents (Elt F) → (⟨S2048x8192, .f32⟩ : BufTy).Contents (Elt F) → (⟨S2048x8192, .f32⟩ : BufTy).Contents (Elt F)) :: (ops (F := F)).drop 180 := rfl

theorem fin_main_v96 :
    after (ops (F := F)) V (Proc.devRef .tc main_v96) = val_main_v96 (F := F) (V (Proc.devRef .tc main_arg3)) := by
  rw [after_binary hW 179 hk_179 V (nm main_v96 180 (by decide)) (nm main_v95 179 (by decide)) (nm main_arg3 179 (by decide)), fin_main_v95 V, fin_main_arg3 V]
  rfl

theorem hk_180 : (ops (F := F)).drop 180 = binary main_arg3 main_v96 main_v97 (addf : (⟨S2048x8192, .f32⟩ : BufTy).Contents (Elt F) → (⟨S2048x8192, .f32⟩ : BufTy).Contents (Elt F) → (⟨S2048x8192, .f32⟩ : BufTy).Contents (Elt F)) :: (ops (F := F)).drop 181 := rfl

theorem fin_main_v97 :
    after (ops (F := F)) V (Proc.devRef .tc main_v97) = val_main_v97 (F := F) (V (Proc.devRef .tc main_arg3)) := by
  rw [after_binary hW 180 hk_180 V (nm main_v97 181 (by decide)) (nm main_arg3 180 (by decide)) (nm main_v96 180 (by decide)), fin_main_arg3 V, fin_main_v96 V]
  rfl

theorem hk_181 : (ops (F := F)).drop 181 = binary main_v84 main_v97 main_v98 ((fun l r => Host.dotGeneral dot_S8x3x128x8192_S2048x8192_S8x3x128x2048_3_1_012_0_n_n none l r) : (⟨S8x3x128x8192, .f32⟩ : BufTy).Contents (Elt F) → (⟨S2048x8192, .f32⟩ : BufTy).Contents (Elt F) → (⟨S8x3x128x2048, .f32⟩ : BufTy).Contents (Elt F)) :: (ops (F := F)).drop 182 := rfl

theorem fin_main_v98 :
    after (ops (F := F)) V (Proc.devRef .tc main_v98) = val_main_v98 (F := F) (V (Proc.devRef .tc main_arg0)) (V (Proc.devRef .tc main_arg1)) (V (Proc.devRef .tc main_arg2)) (V (Proc.devRef .tc main_arg3)) (V (Proc.devRef .tc main_arg4)) := by
  rw [after_binary hW 181 hk_181 V (nm main_v98 182 (by decide)) (nm main_v84 181 (by decide)) (nm main_v97 181 (by decide)), fin_main_v84 V, fin_main_v97 V]
  rfl

theorem hk_182 : (ops (F := F)).drop 182 = nullary main_cst_34 (constant S_ .f32 0x00000000#32) :: (ops (F := F)).drop 183 := rfl

theorem fin_main_cst_34 :
    after (ops (F := F)) V (Proc.devRef .tc main_cst_34) = val_main_cst_34 (F := F) := by
  rw [after_nullary hW 182 hk_182 V (nm main_cst_34 183 (by decide))]
  rfl

theorem hk_183 : (ops (F := F)).drop 183 = binary main_v98 main_cst_34 main_v99 ((fun x v => Host.reduceAdd x v reducesTo_S8x3x128x2048_S8x3_d2_3 h_S_) : (⟨S8x3x128x2048, .f32⟩ : BufTy).Contents (Elt F) → (⟨S_, .f32⟩ : BufTy).Contents (Elt F) → (⟨S8x3, .f32⟩ : BufTy).Contents (Elt F)) :: (ops (F := F)).drop 184 := rfl

theorem fin_main_v99 :
    after (ops (F := F)) V (Proc.devRef .tc main_v99) = val_main_v99 (F := F) (V (Proc.devRef .tc main_arg0)) (V (Proc.devRef .tc main_arg1)) (V (Proc.devRef .tc main_arg2)) (V (Proc.devRef .tc main_arg3)) (V (Proc.devRef .tc main_arg4)) := by
  rw [after_binary hW 183 hk_183 V (nm main_v99 184 (by decide)) (nm main_v98 183 (by decide)) (nm main_cst_34 183 (by decide)), fin_main_v98 V, fin_main_cst_34 V]
  rfl

theorem hk_184 : (ops (F := F)).drop 184 = nullary main_cst_35 (constant S_ .f32 0x48800000#32) :: (ops (F := F)).drop 185 := rfl

theorem fin_main_cst_35 :
    after (ops (F := F)) V (Proc.devRef .tc main_cst_35) = val_main_cst_35 (F := F) := by
  rw [after_nullary hW 184 hk_184 V (nm main_cst_35 185 (by decide))]
  rfl

theorem hk_185 : (ops (F := F)).drop 185 = unary main_cst_35 main_v100 (broadcastInDim S8x3 ![] bcast_S_S8x3 : (⟨S_, .f32⟩ : BufTy).Contents (Elt F) → (⟨S8x3, .f32⟩ : BufTy).Contents (Elt F)) :: (ops (F := F)).drop 186 := rfl

theorem fin_main_v100 :
    after (ops (F := F)) V (Proc.devRef .tc main_v100) = val_main_v100 (F := F) := by
  rw [after_unary hW 185 hk_185 V (nm main_v100 186 (by decide)) (nm main_cst_35 185 (by decide)), fin_main_cst_35 V]
  rfl

theorem hk_186 : (ops (F := F)).drop 186 = binary main_v99 main_v100 main_v101 (Host.divf : (⟨S8x3, .f32⟩ : BufTy).Contents (Elt F) → (⟨S8x3, .f32⟩ : BufTy).Contents (Elt F) → (⟨S8x3, .f32⟩ : BufTy).Contents (Elt F)) :: (ops (F := F)).drop 187 := rfl

theorem fin_main_v101 :
    after (ops (F := F)) V (Proc.devRef .tc main_v101) = val_main_v101 (F := F) (V (Proc.devRef .tc main_arg0)) (V (Proc.devRef .tc main_arg1)) (V (Proc.devRef .tc main_arg2)) (V (Proc.devRef .tc main_arg3)) (V (Proc.devRef .tc main_arg4)) := by
  rw [after_binary hW 186 hk_186 V (nm main_v101 187 (by decide)) (nm main_v99 186 (by decide)) (nm main_v100 186 (by decide)), fin_main_v99 V, fin_main_v100 V]
  rfl

theorem hk_187 : (ops (F := F)).drop 187 = unary main_arg5 main_v102 ((transpose S3x1000 [1, 0] · transposes_S1000x3_S3x1000_1_0) : (⟨S1000x3, .f32⟩ : BufTy).Contents (Elt F) → (⟨S3x1000, .f32⟩ : BufTy).Contents (Elt F)) :: (ops (F := F)).drop 188 := rfl

theorem fin_main_v102 :
    after (ops (F := F)) V (Proc.devRef .tc main_v102) = val_main_v102 (F := F) (V (Proc.devRef .tc main_arg5)) := by
  rw [after_unary hW 187 hk_187 V (nm main_v102 188 (by decide)) (nm main_arg5 187 (by decide)), fin_main_arg5 V]
  rfl

theorem hk_188 : (ops (F := F)).drop 188 = binary main_v101 main_v102 main_v103 ((fun l r => Host.dotGeneral dot_S8x3_S3x1000_S8x1000_1_0_0_1_n_n none l r) : (⟨S8x3, .f32⟩ : BufTy).Contents (Elt F) → (⟨S3x1000, .f32⟩ : BufTy).Contents (Elt F) → (⟨S8x1000, .f32⟩ : BufTy).Contents (Elt F)) :: (ops (F := F)).drop 189 := rfl

theorem fin_main_v103 :
    after (ops (F := F)) V (Proc.devRef .tc main_v103) = val_main_v103 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_binary hW 188 hk_188 V (nm main_v103 189 (by decide)) (nm main_v101 188 (by decide)) (nm main_v102 188 (by decide)), fin_main_v101 V, fin_main_v102 V]
  rfl

theorem hk_189 : (ops (F := F)).drop 189 = unary main_arg6 main_v104 (broadcastInDim S1x1000 ![1] bcast_S1000_S1x1000_1 : (⟨S1000, .f32⟩ : BufTy).Contents (Elt F) → (⟨S1x1000, .f32⟩ : BufTy).Contents (Elt F)) :: (ops (F := F)).drop 190 := rfl

theorem fin_main_v104 :
    after (ops (F := F)) V (Proc.devRef .tc main_v104) = val_main_v104 (F := F) (V (Proc.devRef .tc main_arg6)) := by
  rw [after_unary hW 189 hk_189 V (nm main_v104 190 (by decide)) (nm main_arg6 189 (by decide)), fin_main_arg6 V]
  rfl

theorem hk_190 : (ops (F := F)).drop 190 = unary main_v104 main_v105 (broadcastInDim S8x1000 ![0, 1] bcast_S1x1000_S8x1000_0_1 : (⟨S1x1000, .f32⟩ : BufTy).Contents (Elt F) → (⟨S8x1000, .f32⟩ : BufTy).Contents (Elt F)) :: (ops (F := F)).drop 191 := rfl

theorem fin_main_v105 :
    after (ops (F := F)) V (Proc.devRef .tc main_v105) = val_main_v105 (F := F) (V (Proc.devRef .tc main_arg6)) := by
  rw [after_unary hW 190 hk_190 V (nm main_v105 191 (by decide)) (nm main_v104 190 (by decide)), fin_main_v104 V]
  rfl

theorem hk_191 : (ops (F := F)).drop 191 = binary main_v103 main_v105 main_v106 (addf : (⟨S8x1000, .f32⟩ : BufTy).Contents (Elt F) → (⟨S8x1000, .f32⟩ : BufTy).Contents (Elt F) → (⟨S8x1000, .f32⟩ : BufTy).Contents (Elt F)) :: (ops (F := F)).drop 192 := rfl

theorem fin_main_v106 :
    after (ops (F := F)) V (Proc.devRef .tc main_v106) = val_main_v106 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_binary hW 191 hk_191 V (nm main_v106 192 (by decide)) (nm main_v103 191 (by decide)) (nm main_v105 191 (by decide)), fin_main_v103 V, fin_main_v105 V]
  rfl

end

/-- The reference's run: every weakly fair execution terminates; the result buffer holds `val_main_v106` of the
    arguments' launch contents, and every argument holds its launch contents. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v106) = val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
    :=
  (θ_run defs _ _).mono (fun _ h c => ⟨(h c main_v106).trans (fin_main_v106 (F := Ideal) (launchContents m c)),
      (h c main_arg0).trans (fin_main_arg0 (F := Ideal) (launchContents m c)),
      (h c main_arg1).trans (fin_main_arg1 (F := Ideal) (launchContents m c)),
      (h c main_arg2).trans (fin_main_arg2 (F := Ideal) (launchContents m c)),
      (h c main_arg3).trans (fin_main_arg3 (F := Ideal) (launchContents m c)),
      (h c main_arg4).trans (fin_main_arg4 (F := Ideal) (launchContents m c)),
      (h c main_arg5).trans (fin_main_arg5 (F := Ideal) (launchContents m c)),
      (h c main_arg6).trans (fin_main_arg6 (F := Ideal) (launchContents m c))⟩)
    (run_seq scopedRefs_eq scopedSems_eq defs main (fun _ => ops) main_eq (fun _ => ops_sub) m ρ (fun _ => ops_fresh))

end Cert.ReferenceIdeal.RefVal

end
-- ==== Proof.KTail.lean ====
/-
  The end of the kernel program: pooling and the classifier.

  After the last region the program reshapes the down projection [3072, 2048] to [8, 3, 128, 2048], averages over the
  last two axes (a sum from zero divided by 262144), multiplies the [8, 3] means by the transposed classifier matrix
  and adds the bias. These operations are gathered in ONE function `tail` of the rank-4 array, the classifier matrix
  and the bias; the program's result is `tail` of the reshaped output of the last region.
-/
import proofs.«122326_j3453153706638_2_alg».proof.Proof.Gen.KernelIdeal.Frame
import Idealize.ShloMosaic.Lib.StableHlo.Run
import Idealize.ShloMosaic.PureOps.Ideal

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

/-- Mean over the last two axes, then the classifier: `mean · Wᵀ + b`. -/
def tail (a : FVec Ideal S8x3x128x2048 .f32) (clsW : FVec Ideal S1000x3 .f32) (clsb : FVec Ideal S1000 .f32) :
    FVec Ideal S8x1000 .f32 :=
  addf
    (Host.dotGeneral dot_S8x3_S3x1000_S8x1000_1_0_0_1_n_n none
      (Host.divf
        (Host.reduceAdd a (constant (F := Ideal) S_ .f32 0x00000000#32) reducesTo_S8x3x128x2048_S8x3_d2_3 h_S_)
        (broadcastInDim S8x3 ![] bcast_S_S8x3 (constant (F := Ideal) S_ .f32 0x48800000#32)))
      (transpose S3x1000 [1, 0] clsW transposes_S1000x3_S3x1000_1_0))
    (broadcastInDim S8x1000 ![0, 1] bcast_S1x1000_S8x1000_0_1 (broadcastInDim S1x1000 ![1] bcast_S1000_S1x1000_1 clsb))

variable (m : (ℓ : Loc nD τ sig) → Buf (Elt Ideal) ℓ) (ρ : Dev nD → PrngReg)

set_option maxHeartbeats 2000000 in
/-- The last stretch does not write the classifier matrix: after the last region it is as launched. -/
theorem exit_clsW (c : Dev nD) : W17 (F := Ideal) m ρ c (Proc.devRef .tc main_arg5) = m ((c : Thread nD τ).loc main_arg5) := by
  rw [← W18_main_arg5 m ρ c]
  dsimp only [W18]
  simp only [hostOps4]
  after_results_simp

set_option maxHeartbeats 2000000 in
/-- Nor the bias. -/
theorem exit_clsb (c : Dev nD) : W17 (F := Ideal) m ρ c (Proc.devRef .tc main_arg6) = m ((c : Thread nD τ).loc main_arg6) := by
  rw [← W18_main_arg6 m ρ c]
  dsimp only [W18]
  simp only [hostOps4]
  after_results_simp

set_option maxHeartbeats 2000000 in
/-- The program's result is `tail` of the last region's output, reshaped, the classifier's arrays as launched. -/
theorem result_eq (c : Dev nD) :
    W18 (F := Ideal) m ρ c (Proc.devRef .tc main_v50)
      = tail (shapeCast S8x3x128x2048 (W17 (F := Ideal) m ρ c (Proc.devRef .tc main_v41)) shapeCasts_S3072x2048_S8x3x128x2048)
          (m ((c : Thread nD τ).loc main_arg5)) (m ((c : Thread nD τ).loc main_arg6)) := by
  rw [← exit_clsW m ρ c, ← exit_clsb m ρ c]
  dsimp only [W18]
  simp only [hostOps4]
  after_results_simp
  rfl

end Cert.KernelIdeal.Val

end
-- ==== Proof.Spec.lean ====
/-
  What both programs compute, stage by stage, on arrays of extended reals.

  A token is a row of 2048 numbers; there are 8·3·128 = 3072 of them, and token (b, c, h) is row (b·3 + c)·128 + h.
  Each weight matrix is replaced by its ternary quantization (one scale for the whole matrix: one over the mean
  magnitude, the divisor never below a small threshold), each row of activations by its eight-bit quantization (one
  scale per row: 127 over the row's largest magnitude, the divisor never below the same threshold). The gate and up
  projections of the quantized tokens are combined as g · logistic g · u, each row is divided by its root mean square
  and multiplied by a weight vector, quantized again, and projected down.

  The two programs differ in one place only: how a quantized value q of a number a re-enters the computation. One
  uses q; the other uses a + (q - a). The parameter `st` is that choice; on real numbers the two agree.
-/
import Idealize.ShloMosaic.PureOps.Ideal
import Idealize.ShloMosaic.Lib.ValueIdx

noncomputable section

namespace Cert.Spec

open Idealize.ShloMosaic Idealize.ShloMosaic.ValueIdx

/-- A matrix, a vector and a rank-4 array of extended reals over the library's index types. -/
abbrev A2 (n0 n1 : Nat) := (⟨2, ![n0, n1]⟩ : Shape).Idx → EReal
abbrev A1 (n : Nat) := (⟨1, ![n]⟩ : Shape).Idx → EReal
abbrev A4 (n0 n1 n2 n3 : Nat) := (⟨4, ![n0, n1, n2, n3]⟩ : Shape).Idx → EReal

/-- A matrix from its entries by row and column. -/
def arr2 {a b : Nat} (f : Fin a → Fin b → EReal) : A2 a b :=
  fun i => f ⟨(i 0).val, idx2_lt0 i⟩ ⟨(i 1).val, idx2_lt1 i⟩

theorem arr2_ix2 {a b : Nat} (f : Fin a → Fin b → EReal) (t : Fin a) (d : Fin b) : arr2 f (ix2 t d) = f t d := rfl

/-- The quantized value used as it is. -/
def direct (_a q : EReal) : EReal := q
/-- The quantized value reached from the unquantized one by adding their difference. -/
def through (a q : EReal) : EReal := a + (q - a)

/-- Magnitude. -/
def absE (x : EReal) : EReal := max x (-x)
/-- Rounding to the nearest integer, ties to even; the infinities stay. -/
def rne (x : EReal) : EReal := Ideal.liftRound Ideal.roundHalfEven x

/-- The threshold below which no scale's divisor falls (the single-precision number nearest 1e-5). -/
def eps5 : EReal := Ideal.ofBits .f32 0x3727C5AC#32
/-- The number added under the root (the single-precision number nearest 1e-6). -/
def eps6 : EReal := Ideal.ofBits .f32 0x358637BD#32
/-- 127, 1, 8192 and 2^24 as the programs spell them. -/
def w127 : EReal := Ideal.ofBits .f32 0x42FE0000#32
def w1 : EReal := Ideal.ofBits .f32 0x3F800000#32
def w8192 : EReal := Ideal.ofBits .f32 0x46000000#32
def w2p24 : EReal := Ideal.ofBits .f32 0x4B800000#32

/-- `v` at scale `s`: scaled, rounded, clipped to the integers from `lo` to `hi`, and divided back. -/
def requant (lo hi : ℝ) (s v : EReal) : EReal :=
  Ideal.div (min (hi : EReal) (max (lo : EReal) (rne (v * s)))) s

/-- A row's scale: 127 over its largest magnitude, the divisor never below the threshold. -/
def actScale {n : Nat} (row : Fin n → EReal) : EReal :=
  Ideal.div w127 (max (Finset.univ.sup fun j => absE (row j)) eps5)

/-- A row's entry, quantized to the integers from -128 to 127 at the row's scale. -/
def actQuant (st : EReal → EReal → EReal) {n : Nat} (row : Fin n → EReal) (j : Fin n) : EReal :=
  st (row j) (requant (-128) 127 (actScale row) (row j))

/-- A matrix quantized row by row. -/
def rowQuant (st : EReal → EReal → EReal) {T n : Nat} (a : A2 T n) (t : Fin T) (j : Fin n) : EReal :=
  actQuant st (fun j' => a (ix2 t j')) j

/-- A matrix's scale: one over its mean magnitude (the programs divide the sum by 2^24, the number of entries of each
    of the three matrices), the divisor never below the threshold. -/
def wScale {n0 n1 : Nat} (w : A2 n0 n1) : EReal :=
  Ideal.div w1 (max (Ideal.div (∑ i, absE (w i)) w2p24) eps5)

/-- A matrix's entry, quantized to -1, 0, 1 at the matrix's scale. -/
def wQuant (st : EReal → EReal → EReal) {n0 n1 : Nat} (w : A2 n0 n1) (i : Fin n0) (j : Fin n1) : EReal :=
  st (w (ix2 i j)) (requant (-1) 1 (wScale w) (w (ix2 i j)))

/-- Rows of `a` against rows of `w`: the product contracting the last axis of both. -/
def dotT {T K N : Nat} (a : A2 T K) (w : A2 N K) (t : Fin T) (n : Fin N) : EReal :=
  ∑ k : Fin K, a (ix2 t k) * w (ix2 n k)

/-- The gated combination g · logistic g · u of two such products. -/
def swiglu {T K N : Nat} (a : A2 T K) (wg wu : A2 N K) (t : Fin T) (f : Fin N) : EReal :=
  dotT a wg t f * Ideal.logistic (dotT a wg t f) * dotT a wu t f

/-- One over the root of a row's mean square (the sum divided by 8192, the length of the rows it is used on) plus the
    small number. -/
def rmsInv {T N : Nat} (h : A2 T N) (t : Fin T) : EReal :=
  Ideal.rsqrt (Ideal.div (∑ f : Fin N, h (ix2 t f) * h (ix2 t f)) w8192 + eps6)

/-- A row divided by its root mean square and multiplied entry by entry by a weight vector. -/
def normed {T N : Nat} (h : A2 T N) (lnw : Fin N → EReal) (t : Fin T) (f : Fin N) : EReal :=
  h (ix2 t f) * rmsInv h t * lnw f

/-- The whole computation up to the down projection: what the pooling and the classifier are applied to. -/
def pipeline (st : EReal → EReal → EReal) (x : A2 3072 2048) (Wg Wu : A2 8192 2048) (Wd : A2 2048 8192)
    (lnw : Fin 8192 → EReal) (t : Fin 3072) (d : Fin 2048) : EReal :=
  dotT (arr2 (rowQuant st (arr2 (normed (arr2 (swiglu (arr2 (rowQuant st x)) (arr2 (wQuant st Wg)) (arr2 (wQuant st Wu))))
    lnw)))) (arr2 (wQuant st Wd)) t d

/-- Token (b, c, h) is row (b·3 + c)·128 + h. -/
def tok (b : Fin 8) (c : Fin 3) (h : Fin 128) : Fin 3072 :=
  ⟨(b.val * 3 + c.val) * 128 + h.val, by have := b.isLt; have := c.isLt; have := h.isLt; omega⟩

/-- The rank-4 input with its three leading axes laid out as one axis of tokens. -/
def flat (x4 : A4 8 3 128 2048) : A2 3072 2048 := fun i =>
  x4 (ix4 ⟨(i 0).val / 384, by have := idx2_lt0 i; omega⟩ ⟨(i 0).val / 128 % 3, Nat.mod_lt _ (by norm_num)⟩
    ⟨(i 0).val % 128, Nat.mod_lt _ (by norm_num)⟩ ⟨(i 1).val, idx2_lt1 i⟩)

theorem flat_tok (x4 : A4 8 3 128 2048) (b : Fin 8) (c : Fin 3) (h : Fin 128) (d : Fin 2048) :
    flat x4 (ix2 (tok b c h) d) = x4 (ix4 b c h d) := by
  have hb := b.isLt; have hc := c.isLt; have hh := h.isLt
  show x4 (ix4 ⟨((b.val * 3 + c.val) * 128 + h.val) / 384, _⟩ ⟨((b.val * 3 + c.val) * 128 + h.val) / 128 % 3, _⟩
    ⟨((b.val * 3 + c.val) * 128 + h.val) % 128, _⟩ ⟨d.val, _⟩) = _
  congr 2 <;> first | rfl | (apply Fin.ext; dsimp only; omega)

end Cert.Spec

end
-- ==== Proof.Consts.lean ====
/-
  The floating-point words the two programs spell, as the extended reals they denote.

  A single-precision word is a sign bit, eight exponent bits E and twenty-three fraction bits T; off the all-ones
  exponent it denotes ±(2^23 + T) · 2^(E - 150) (or ±T · 2^(-149) at E = 0). Each word below is unfolded once, here,
  and every other module reads the value from this one. The clip bounds of one program arrive as 32-bit integers
  converted to reals; their values are recorded here as well.
-/
import Mathlib
import Idealize.ShloMosaic.PureOps.Ideal
import proofs.«122326_j3453153706638_2_alg».proof.Proof.Spec

noncomputable section

namespace Cert.Spec

open Idealize.ShloMosaic

/-- An extended real that is an ordinary real number. -/
def IsReal (x : EReal) : Prop := ∃ r : ℝ, x = (r : EReal)

/-- The word of -128.0: sign 1, E = 134, T = 0, so -(2^23) · 2^(-16) = -128. -/
theorem ofBits_neg128 : Ideal.ofBits .f32 0xC3000000#32 = ((-128 : ℝ) : EReal) := by
  simp [Ideal.ofBits, Ideal.ieee, -EReal.coe_mul]; norm_num

/-- The word of 127.0: E = 133, T = 0x7E0000, so (2^23 + T) · 2^(-17) = 127. -/
theorem ofBits_127 : Ideal.ofBits .f32 0x42FE0000#32 = ((127 : ℝ) : EReal) := by
  simp [Ideal.ofBits, Ideal.ieee, -EReal.coe_mul]; norm_num

/-- The word of -1.0: sign 1, E = 127, T = 0. -/
theorem ofBits_neg1 : Ideal.ofBits .f32 0xBF800000#32 = ((-1 : ℝ) : EReal) := by
  simp [Ideal.ofBits, Ideal.ieee, -EReal.coe_mul]; norm_num

/-- The word of 1.0: E = 127, T = 0. -/
theorem ofBits_1 : Ideal.ofBits .f32 0x3F800000#32 = ((1 : ℝ) : EReal) := by
  simp [Ideal.ofBits, Ideal.ieee, -EReal.coe_mul]; norm_num

theorem w1_eq : w1 = 1 := by
  rw [w1, ofBits_1]; rfl

theorem w127_eq : w127 = ((127 : ℝ) : EReal) := ofBits_127

/-- The word of 8192.0: E = 140, T = 0, so 2^23 · 2^(-10) = 2^13. -/
theorem w8192_eq : w8192 = ((8192 : ℝ) : EReal) := by
  simp [w8192, Ideal.ofBits, Ideal.ieee, -EReal.coe_mul]; norm_num

/-- The word of 2^24: E = 151, T = 0, so 2^23 · 2^1. -/
theorem w2p24_eq : w2p24 = ((16777216 : ℝ) : EReal) := by
  simp [w2p24, Ideal.ofBits, Ideal.ieee, -EReal.coe_mul]; norm_num

/-- The threshold is a positive real: E = 110, a normal number of positive sign. -/
theorem eps5_pos : ∃ r : ℝ, 0 < r ∧ eps5 = (r : EReal) := by
  refine ⟨_, ?_, by simp [eps5, Ideal.ofBits, Ideal.ieee, -EReal.coe_mul]; rfl⟩
  positivity

/-- The number added under the root is a positive real: E = 107, a normal number of positive sign. -/
theorem eps6_pos : ∃ r : ℝ, 0 < r ∧ eps6 = (r : EReal) := by
  refine ⟨_, ?_, by simp [eps6, Ideal.ofBits, Ideal.ieee, -EReal.coe_mul]; rfl⟩
  positivity

/-- The word with sign 1, all-ones exponent and zero fraction is -∞. -/
theorem ofBits_ninf : Ideal.ofBits .f32 0xFF800000#32 = ⊥ := by
  simp [Ideal.ofBits, Ideal.ieee]

/-- 2^32 - 128 read as a signed 32-bit integer is -128. -/
theorem toInt_neg128 : (((4294967168#32 : BitVec 32).toInt : ℝ) : EReal) = ((-128 : ℝ) : EReal) := by
  have h : (4294967168#32 : BitVec 32).toInt = -128 := by decide
  rw [h]; norm_num

theorem toInt_127 : (((127#32 : BitVec 32).toInt : ℝ) : EReal) = ((127 : ℝ) : EReal) := by
  have h : (127#32 : BitVec 32).toInt = 127 := by decide
  rw [h]; norm_num

/-- 2^32 - 1 read as a signed 32-bit integer is -1. -/
theorem toInt_neg1 : (((4294967295#32 : BitVec 32).toInt : ℝ) : EReal) = ((-1 : ℝ) : EReal) := by
  have h : (4294967295#32 : BitVec 32).toInt = -1 := by decide
  rw [h]; norm_num

theorem toInt_1 : (((1#32 : BitVec 32).toInt : ℝ) : EReal) = ((1 : ℝ) : EReal) := by
  have h : (1#32 : BitVec 32).toInt = 1 := by decide
  rw [h]; norm_num

end Cert.Spec

end
-- ==== Proof.LibRowReduce.lean ====
/-
  Reductions of a matrix of extended reals along its rows.  For `x` of shape [A, B], a reduction over axis 1 read at
  row `a` runs over the row's entries `x (a, b)`, `b < B`: a maximum started from minus infinity is the supremum of
  the row, a sum started from zero is the row's sum; the host's reductions start from a scalar initial value instead,
  and give the maximum of that value and the row's supremum, and that value plus the row's sum.  The order in which
  the entries are folded does not matter, since `max` and `+` on the extended reals commute and associate.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.LibRowReduce

open Idealize.ShloMosaic Idealize.ShloMosaic.ValueIdx

/-- The index of the matrix over row `a` of the reduced vector, with column `b` inserted on the reduced axis,
    is `(a, b)`. -/
theorem lift_ix1 {A B : Nat} (h : (⟨2, ![A, B]⟩ : Shape).Reduces [1] ⟨1, ![A]⟩) (a : Fin A) (b : Fin B) :
    h.lift (ix1 a) b = ix2 a b := by
  funext c
  match c with
  | ⟨0, _⟩ => rfl
  | ⟨1, _⟩ => rfl

/-- A fold of `max` from `c` over finitely many extended reals is the maximum of `c` and their supremum. -/
theorem fold_max_eq_max_sup {ι : Type*} (s : Finset ι) (f : ι → EReal) (c : EReal) :
    s.fold max c f = max c (s.sup f) := by
  classical
  induction s using Finset.induction_on with
  | empty => rw [Finset.fold_empty, Finset.sup_empty, max_bot_right]
  | insert i s hi ih => rw [Finset.fold_insert hi, ih, Finset.sup_insert]; exact max_left_comm _ _ _

/-- The single-precision word of minus infinity denotes the bottom of the extended reals. -/
theorem ofBits_neg_inf_f32 : Ideal.ofBits .f32 0xFF800000#32 = ⊥ := by
  simp [Ideal.ofBits, Ideal.ieee]

/-- A host's reduction fact into a vector is also a kernel's (the vector has an axis). -/
theorem reduces_of_reducesTo {A B : Nat} (h' : (⟨2, ![A, B]⟩ : Shape).ReducesTo [1] ⟨1, ![A]⟩) :
    (⟨2, ![A, B]⟩ : Shape).Reduces [1] ⟨1, ![A]⟩ := by
  obtain ⟨h1, h2⟩ := h'
  exact ⟨h1, Nat.one_pos, h2⟩

/-- (1) The kernel's row maximum: a `maximumf` reduction along axis 1 from minus infinity, read at row `a`, is the
    supremum of that row. -/
theorem multiReduction_maximumf_row {A B : Nat} (x : FVec Ideal ⟨2, ![A, B]⟩ .f32)
    (h : (⟨2, ![A, B]⟩ : Shape).Reduces [1] ⟨1, ![A]⟩) (hφ : FKind.Formats .f32)
    (hacc : (0xFF800000#32 : BitVec 32) = 0xFF800000#32) (a : Fin A) :
    multiReduction .maximumf [1] ⟨1, ![A]⟩ x 0xFF800000#32 h hφ hacc (ix1 a)
      = Finset.univ.sup fun b : Fin B => x (ix2 a b) := by
  refine (Ideal.multiReduction_maximumf_single x _ h hφ hacc (ix1 a)).trans ?_
  refine (fold_max_eq_max_sup _ _ _).trans ?_
  rw [show FloatOps.ofBits (F := Ideal) .f32 0xFF800000#32 = (⊥ : EReal) from ofBits_neg_inf_f32, max_bot_left]
  exact congrArg (Finset.univ.sup) (funext fun b : Fin B => congrArg x (lift_ix1 h a b))

/-- (2) The kernel's row sum: an `add` reduction along axis 1, read at row `a`, is the sum of that row. -/
theorem multiReduction_add_row {A B : Nat} (x : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ x 0x00000000#32 h hφ hacc (ix1 a) = ∑ b : Fin B, x (ix2 a b) := by
  refine (Ideal.multiReduction_add_single x _ h hφ hacc (ix1 a)).trans ?_
  exact Finset.sum_congr rfl fun b _ => congrArg x (lift_ix1 h a b)

/-- (3) The host's row maximum: a one-operand reduction by `maximumf` along axis 1 from the scalar `v`, read at row
    `a`, is the maximum of `v` and the supremum of that row. -/
theorem hostReduce_maximumf_row {A B : Nat} (x : (⟨2, ![A, B]⟩ : Shape).Idx → EReal)
    (v : (⟨0, ![]⟩ : Shape).Idx → EReal) (h' : (⟨2, ![A, B]⟩ : Shape).ReducesTo [1] ⟨1, ![A]⟩)
    (hu : 0 < (⟨0, ![]⟩ : Shape).numel) (a : Fin A) :
    Host.reduce (FloatOps.maximumf (F := Ideal) (φ := .f32)) x v h' hu (ix1 a)
      = max (v ix0) (Finset.univ.sup fun b : Fin B => x (ix2 a b)) := by
  have h := reduces_of_reducesTo h'
  refine (Host.reduce_eq_fold_single (FloatOps.maximumf (F := Ideal) (φ := .f32)) x v h' h hu (ix1 a)).trans ?_
  refine (fold_max_eq_max_sup _ _ _).trans ?_
  rw [eq_ix0 (Shape.Idx.first hu)]
  exact congrArg (fun f => max (v ix0) (Finset.univ.sup f)) (funext fun b : Fin B => congrArg x (lift_ix1 h a b))

/-- (4) The host's row sum: a one-operand reduction by addition along axis 1 from the scalar `v`, read at row `a`,
    is `v` plus the sum of that row. -/
theorem hostReduceAdd_row {A B : Nat} (x : FVec Ideal ⟨2, ![A, B]⟩ .f32)
    (v : (⟨0, ![]⟩ : Shape).Idx → EReal) (h' : (⟨2, ![A, B]⟩ : Shape).ReducesTo [1] ⟨1, ![A]⟩)
    (hu : 0 < (⟨0, ![]⟩ : Shape).numel) (a : Fin A) :
    Host.reduceAdd (F := Ideal) (φ := .f32) x v h' hu (ix1 a) = v ix0 + ∑ b : Fin B, x (ix2 a b) := by
  have h := reduces_of_reducesTo h'
  refine (Ideal.hostReduceAdd_single h' h x (v (Shape.Idx.first hu)) (ix1 a)).trans ?_
  rw [eq_ix0 (Shape.Idx.first hu)]
  exact congrArg (fun r => v ix0 + r) (Finset.sum_congr rfl fun b _ => congrArg x (lift_ix1 h a b))

end Cert.LibRowReduce

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.Region0.lean ====
/-
  The first stage: the token matrix quantized row by row.

  The kernel works on tiles of 512 consecutive rows, each tile holding its rows whole (all 2048 columns).  For a row
  it takes the largest magnitude of the row's entries, divides 127 by that (the divisor never below a small
  threshold) to get the row's scale, multiplies each entry by the scale, rounds to the nearest integer (ties to
  even), clips to the integers from -128 to 127 and divides by the scale again.  Since an entry's result depends on
  its own row only, and a tile holds whole rows, the tile of the result is the tile of the row-by-row quantization
  of the whole matrix: row p of tile t is row 512·t + p of the matrix.  The six tiles cover the 3072 rows (row r lies
  in tile r / 512), so the output array ends holding the row-by-row quantization of the input array.
-/
import proofs.«122326_j3453153706638_2_alg».proof.Proof.Spec
import proofs.«122326_j3453153706638_2_alg».proof.Proof.Consts
import proofs.«122326_j3453153706638_2_alg».proof.Proof.LibRowReduce
import proofs.«122326_j3453153706638_2_alg».proof.Proof.LibKeepdims
import proofs.«122326_j3453153706638_2_alg».proof.Proof.Gen.KernelIdeal.Frame

set_option maxRecDepth 16384

noncomputable section

namespace Cert.KernelIdeal.Val

open Idealize.ShloMosaic.TcCoe
open Cert.KernelIdeal Cert.KernelIdeal.Gen Cert.Spec Idealize.ShloMosaic Idealize.ShloMosaic.ValueIdx Idealize.SL.Sem

/-! ## One tile: the body's arithmetic at an entry -/

/-- The largest magnitude of row `p` of a tile, as the body forms it: magnitudes, the maximum along the row started
    from minus infinity, kept as a one-column matrix. -/
theorem rowMax_apply (x0 : Vec Ideal S512x2048 .f32) (p : Fin 512) (u : Fin 1) :
    shapeCast S512x1
        (multiReduction (F := Ideal) .maximumf [1] S512 (absf (shapeCast S512x2048 x0 shapeCasts_S512x2048_S512x2048))
          0xFF800000#32 reduces_S512x2048_S512 (.inl rfl) rfl)
        shapeCasts_S512_S512x1 (ix2 p u)
      = Finset.univ.sup fun b : Fin 2048 => absE (x0 (ix2 p b)) := by
  refine (Keepdims.shapeCast_a_a1_apply _ shapeCasts_S512_S512x1 p u).trans ?_
  refine (LibRowReduce.multiReduction_maximumf_row _ reduces_S512x2048_S512 (.inl rfl) rfl p).trans ?_
  rw [shapeCast_self]
  exact congrArg (Finset.univ.sup) (funext fun b : Fin 2048 => rfl)

/-- The row scale the body forms, read at row `p` of the one-column matrix of scales: 127 over the larger of the
    row's largest magnitude and the threshold. -/
theorem scale_apply (x0 : Vec Ideal S512x2048 .f32) (p : Fin 512) (u : Fin 1) :
    divf (broadcast S512x1 (Scalar.ofBits (F := Ideal) .f32 0x42FE0000#32))
      (maximumf
        (shapeCast S512x1
          (multiReduction (F := Ideal) .maximumf [1] S512 (absf (shapeCast S512x2048 x0 shapeCasts_S512x2048_S512x2048))
            0xFF800000#32 reduces_S512x2048_S512 (.inl rfl) rfl)
          shapeCasts_S512_S512x1)
        (broadcast S512x1 (Scalar.ofBits (F := Ideal) .f32 0x3727C5AC#32))) (ix2 p u)
      = actScale (fun q' : Fin 2048 => x0 (ix2 p q')) := by
  unfold actScale w127 eps5
  refine (divf_apply _ _ _).trans ?_
  rw [maximumf_apply, rowMax_apply, broadcast_apply, broadcast_apply]
  simp only [Ideal.ofBits_def]

/-- Rounding a tile to the nearest integers, ties to even, at an entry. -/
theorem roundeven_apply (a : FVec Ideal S512x2048 .f32) (i : S512x2048.Idx) :
    roundeven a i = Ideal.liftRound Ideal.roundHalfEven (a i) := rfl

/-- The body's result at row `p`, column `q` of a tile is that entry quantized at its row's scale. -/
theorem pay_apply (x0 : Vec Ideal S512x2048 .f32) (p : Fin 512) (q : Fin 2048) :
    k0_pay1 x0 (ix2 p q) = actQuant direct (fun q' : Fin 2048 => x0 (ix2 p q')) q := by
  unfold k0_pay1 actQuant direct requant rne
  rw [truncf_apply, divf_apply, minimumf_apply, maximumf_apply, broadcast_apply, broadcast_apply, roundeven_apply,
    mulf_apply]
  rw [Keepdims.broadcastTo_a1_ab_apply _ broadcasts_S512x1_S512x2048 p q 0, scale_apply x0 p 0, shapeCast_self]
  simp only [Ideal.ofBits_def]
  rw [ofBits_127, ofBits_neg128]

/-! ## A tile against the matrix -/

/-- A tile whose rows are rows `512·k + p` of a matrix: the body's result at an entry of the tile is the matrix's
    row-by-row quantization at the corresponding entry.  The row function of the tile's row and of the matrix's row
    are the same function of the column, because the tile holds the row whole. -/
theorem tile_apply (A : A2 3072 2048) (x0 : Vec Ideal S512x2048 .f32) (k : Nat)
    (hx : ∀ (j : S512x2048.Idx) (i : S3072x2048.Idx), (i 0).val = k * 512 + (j 0).val → (i 1).val = (j 1).val →
      x0 j = A i)
    (j : S512x2048.Idx) (i : S3072x2048.Idx) (h0 : (i 0).val = k * 512 + (j 0).val) (h1 : (i 1).val = (j 1).val) :
    k0_pay1 x0 j = arr2 (rowQuant direct A) i := by
  rw [eq_ix2 j]
  refine (pay_apply x0 (j 0) (j 1)).trans ?_
  show actQuant direct (fun q' : Fin 2048 => x0 (ix2 (j 0) q')) (j 1)
    = actQuant direct (fun q' : Fin 2048 => A (ix2 ⟨(i 0).val, idx2_lt0 i⟩ q')) ⟨(i 1).val, idx2_lt1 i⟩
  have hrow : (fun q' : Fin 2048 => x0 (ix2 (j 0) q')) = fun q' : Fin 2048 => A (ix2 ⟨(i 0).val, idx2_lt0 i⟩ q') :=
    funext fun q' => hx (ix2 (j 0) q') (ix2 ⟨(i 0).val, idx2_lt0 i⟩ q') h0 rfl
  have hcol : j 1 = ⟨(i 1).val, idx2_lt1 i⟩ := Fin.ext h1.symm
  rw [hrow, hcol]
  rfl

/-! ## The tiles over the grid -/

theorem hz0 : (![0, 0] : Fin 2 → Nat) = fun _ => 0 := funext fun a => by fin_cases a <;> rfl

/-- The printed index maps, decided over the grid: at point `t` both the input's and the output's tile is tile `t`
    of rows, at column block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

variable (V : (c : Dev nD) → (b : Ref sig .tc) → Buf (Elt Ideal) ((c : Thread nD τ).loc b))

/-- The input tile at point `t` holds rows `512·t + p` of the token matrix. -/
theorem iblk0_apply (c : Dev nD) (t : Fin cfg0.N) (j : S512x2048.Idx) (i : S3072x2048.Idx)
    (h0 : (i 0).val = t.val * 512 + (j 0).val) (h1 : (i 1).val = (j 1).val) :
    (iblk0 (F := Ideal) V c 0 t : Vec Ideal S512x2048 .f32) j = (V c main_v0 : S3072x2048.Idx → EReal) i := by
  obtain ⟨e0, e1, -, -⟩ := idx_facts0 t
  unfold iblk0
  rw [View.read_apply]
  show V c main_v0 _ = V c main_v0 _
  congr 1
  funext a
  apply Fin.ext
  match a with
  | ⟨0, _⟩ => show win0_0.index t (0 : Fin 2) * 512 + 1 * (j 0).val = (i 0).val; rw [e0, h0]; omega
  | ⟨1, _⟩ => show win0_0.index t (1 : Fin 2) * 2048 + 1 * (j 1).val = (i 1).val; rw [e1, h1]; omega

/-- What point `t` writes back is tile `t` of the row-by-row quantization of the token matrix. -/
theorem flushed0_eq (c : Dev nD) (t : Fin cfg0.N) :
    (dat0 (F := Ideal) V c).flushed 1 t
      = ((cfg0.win 1).blk t).view.read (Elt Ideal) (arr2 (rowQuant direct (V c main_v0))) := by
  show (cfg0.win 1).cut (grid0.coords t) ((dat0 (F := Ideal) V c).after 1 t) = _
  rw [after0_1]
  unfold out0_1
  rw [View.canon_unit_zero hz0]
  simp only [View.ld_unit_zero (S := S512x2048) hz0]
  obtain ⟨-, -, e2, e3⟩ := idx_facts0 t
  funext j
  refine tile_apply (V c main_v0) (iblk0 (F := Ideal) V c 0 t) t.val (fun j' i' h0 h1 => iblk0_apply V c t j' i' h0 h1)
    j (((cfg0.win 1).blk t).view.emb j) ?_ ?_
  · show win0_1.index t (0 : Fin 2) * 512 + 1 * (j 0).val = t.val * 512 + (j 0).val
    rw [e2]; omega
  · show win0_1.index t (1 : Fin 2) * 2048 + 1 * (j 1).val = (j 1).val
    rw [e3]; omega

/-- An index of the output array is in point `t`'s tile iff each coordinate is in the tile's range on its axis. -/
theorem mem_blk0 (t : Fin cfg0.N) (i : S3072x2048.Idx) :
    i ∈ ((cfg0.win 1).blk t).view.set ↔ ∀ a : Fin 2, win0_1.index t a * S512x2048.size a ≤ (i a).val
      ∧ (i a).val < win0_1.index t a * S512x2048.size a + S512x2048.size a := by
  show i ∈ ((View.whole main_v38).slice (win0_1.rect t)).set ↔ _
  rw [View.set_slice_whole, Rect.mem_set_unit]
  exact Iff.rfl

/-- Every entry of the output array lies in some point's tile: row `r` in tile `r / 512`. -/
theorem cover0 (i : S3072x2048.Idx) :
    ∃ t : Fin cfg0.N, (cfg0.win 1).flush t = true ∧ i ∈ ((cfg0.win 1).blk t).view.set := by
  have hi0 : (i 0).val < 3072 := (i 0).isLt
  have hi1 : (i 1).val < 2048 := (i 1).isLt
  have hN : cfg0.N = 6 := N_0
  let t : Fin cfg0.N := ⟨(i 0).val / 512, by rw [hN]; omega⟩
  have ht : t.val = (i 0).val / 512 := rfl
  obtain ⟨-, -, e2, e3⟩ := idx_facts0 t
  refine ⟨t, flush0_1 t, ?_⟩
  rw [mem_blk0]
  intro a
  match a with
  | ⟨0, _⟩ =>
    show win0_1.index t (0 : Fin 2) * 512 ≤ (i 0).val ∧ (i 0).val < win0_1.index t (0 : Fin 2) * 512 + 512
    rw [e2, ht]; omega
  | ⟨1, _⟩ =>
    show win0_1.index t (1 : Fin 2) * 2048 ≤ (i 1).val ∧ (i 1).val < win0_1.index t (1 : Fin 2) * 2048 + 2048
    rw [e3]; omega

/-- Region 0: the output array ends holding the token matrix quantized row by row. -/
theorem region0_final (c : Dev nD) :
    (dat0 (F := Ideal) V c).arrAt 1 cfg0.N = arr2 (rowQuant direct (V c main_v0)) :=
  (dat0 (F := Ideal) V c).arrAt_eq_of_cover 1 (arr2 (rowQuant direct (V c main_v0)))
    (fun t _ => flushed0_eq V c t) (cover0 )

end Cert.KernelIdeal.Val

end
-- ==== Proof.LibMatmulNT.lean ====
/-
  The matrix product that contracts the LAST axis of both operands ("md,nd->mn": rows of the left operand against rows
  of the right one, no transpose materialized), into a zero accumulator, read at an index on the extended reals:
  entry (i, j) is Σ_k l(i, k) · r(j, k). Stated for any extents M, K, N.
-/
import Idealize.ShloMosaic.PureOps.Ideal.Laws
import Idealize.ShloMosaic.Lib.ValueIdx
import Idealize.ShloMosaic.Lib.Pipeline.Value

noncomputable section

open scoped BigOperators

namespace Cert.MatOpsNT

open Idealize.ShloMosaic Idealize.ShloMosaic.ValueIdx

variable {M K N : Nat}

/-- The contraction index set of the product "md,nd->mn" is `Fin K`. -/
abbrev ntContr (M K N : Nat) : (DotDims.transposedRhs M K N).contr.Idx ≃ Fin K :=
  contrEquiv1 (DotDims.transposedRhs M K N) K rfl rfl

/-- The left operand's index at output `(i, j)` and contraction coordinate `k` is `(i, k)`. -/
theorem nt_lhsIdx (i : Fin M) (j : Fin N) (k : Fin K) :
    (DotDims.transposedRhs M K N).lhsIdx (ix2 i j) ((ntContr M K N).symm k) = ix2 i k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 i j) _).trans hk

/-- The right operand's index at output `(i, j)` and contraction coordinate `k` is `(j, k)`. -/
theorem nt_rhsIdx (i : Fin M) (j : Fin N) (k : Fin K) :
    (DotDims.transposedRhs M K N).rhsIdx (ix2 i j) ((ntContr M K N).symm k) = ix2 j k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 i j) _).trans hk

/-- The product "md,nd->mn" into the zero accumulator at `(i, j)` is the sum over `k` of `l(i, k) · r(j, k)`. -/
theorem matmul_nt_zero_apply {φ₁ φ₂ : FTy} (prec : Option ContractPrecision) (l : FVec Ideal ⟨2, ![M, K]⟩ φ₁)
    (r : FVec Ideal ⟨2, ![N, K]⟩ φ₂) (i : Fin M) (j : Fin N) :
    matmul (F := Ideal) (DotDims.transposedRhs M K N) prec l r (constant ⟨2, ![M, N]⟩ .f32 0x00000000#32) (ix2 i j)
      = ∑ k : Fin K, l (ix2 i k) * r (ix2 j k) := by
  simp only [matmul]
  rw [Ideal.matmul_constant_zero_apply]
  rw [← Equiv.sum_comp (ntContr M K N).symm]
  refine Finset.sum_congr rfl fun k _ => ?_
  rw [nt_lhsIdx, nt_rhsIdx]

end Cert.MatOpsNT

end
-- ==== Proof.Region1.lean ====
/-
  The gated combination of the gate and up projections, read off the second pipelined region of the kernel program.

  The region walks a 3 × 16 grid. At grid point (I, J) it loads rows 1024·I … 1024·I + 1023 of the token matrix
  (3072 × 2048, all 2048 columns) and rows 512·J … 512·J + 511 of the gate matrix and of the up matrix (each
  8192 × 2048, all columns). It multiplies the token block by the transpose of the gate block (call the result g)
  and by the transpose of the up block (call it u), both into zero accumulators, and writes g · logistic g · u to
  block (I, J) of the 3072 × 8192 output. Entry (p, q) of g is Σ_k tokens(1024·I + p, k) · gate(512·J + q, k), and
  likewise for u, so entry (p, q) of the block is entry (1024·I + p, 512·J + q) of the gated combination of the two
  whole products; the 48 blocks tile the output, so the whole output array is that combination.
-/
import proofs.«122326_j3453153706638_2_alg».proof.Proof.Spec
import proofs.«122326_j3453153706638_2_alg».proof.Proof.Gen.KernelIdeal.Frame
import proofs.«122326_j3453153706638_2_alg».proof.Proof.LibMatmulNT
import Idealize.ShloMosaic.Lib.Pipeline.Value

noncomputable section

open scoped BigOperators

namespace Cert.KernelIdeal.Val

open Cert.KernelIdeal Cert.KernelIdeal.Gen Cert.Spec Idealize.ShloMosaic Idealize.ShloMosaic.TcCoe Idealize.ShloMosaic.ValueIdx Idealize.SL.Sem

variable (V : (c : Dev nD) → (b : Ref sig .tc) → Buf (Elt Ideal) ((c : Thread nD τ).loc b))

/-- A block that starts at the origin of its staging buffer. -/
theorem origin1 : (![0, 0] : Fin 2 → Nat) = fun _ => 0 := funext fun a => by fin_cases a <;> rfl

/-- The region's two products contract the last axis of both operands. -/
theorem dot1_eq : dot_S1024x2048_S512x2048_S1024x512_1_1_0_0_n_n = DotDims.transposedRhs 1024 2048 512 := rfl

/-- The body's result at (p, q): with g and u row p of the token block against row q of the gate block and of the
    up block, g · logistic g · u. -/
theorem pay1_apply (x0 : Vec Ideal S1024x2048 .bf16) (x1 x2 : Vec Ideal S512x2048 .bf16) (p : Fin 1024) (q : Fin 512) :
    k1_pay1 x0 x1 x2 (ix2 p q)
      = (∑ k : Fin 2048, x0 (ix2 p k) * x1 (ix2 q k)) * Ideal.logistic (∑ k : Fin 2048, x0 (ix2 p k) * x1 (ix2 q k))
        * (∑ k : Fin 2048, x0 (ix2 p k) * x2 (ix2 q k)) := by
  unfold k1_pay1
  simp only [shapeCast_self]
  rw [dot1_eq]
  have hg := Cert.MatOpsNT.matmul_nt_zero_apply (φ₁ := .bf16) (φ₂ := .bf16) none x0 x1 p q
  have hu := Cert.MatOpsNT.matmul_nt_zero_apply (φ₁ := .bf16) (φ₂ := .bf16) none x0 x2 p q
  show matmul (F := Ideal) (DotDims.transposedRhs 1024 2048 512) none x0 x1 (constant S1024x512 .f32 0x00000000#32) (ix2 p q)
      * Ideal.logistic (matmul (F := Ideal) (DotDims.transposedRhs 1024 2048 512) none x0 x1 (constant S1024x512 .f32 0x00000000#32) (ix2 p q))
      * matmul (F := Ideal) (DotDims.transposedRhs 1024 2048 512) none x0 x2 (constant S1024x512 .f32 0x00000000#32) (ix2 p q) = _
  rw [hg, hu]

/-- Row p of the token block against row q of the gate and up blocks, combined, is row r of the token matrix against
    row s of the gate and up matrices, combined, when the blocks' rows are those rows of the matrices. -/
theorem swiglu_block1 (A : A2 3072 2048) (Wg Wu : A2 8192 2048) (x0 : Vec Ideal S1024x2048 .bf16)
    (x1 x2 : Vec Ideal S512x2048 .bf16) (r : Fin 3072) (s : Fin 8192) (p : Fin 1024) (q : Fin 512)
    (h0 : ∀ k : Fin 2048, x0 (ix2 p k) = A (ix2 r k)) (h1 : ∀ k : Fin 2048, x1 (ix2 q k) = Wg (ix2 s k))
    (h2 : ∀ k : Fin 2048, x2 (ix2 q k) = Wu (ix2 s k)) :
    k1_pay1 x0 x1 x2 (ix2 p q) = swiglu A Wg Wu r s := by
  rw [pay1_apply]
  unfold swiglu dotT
  have eg : (∑ k : Fin 2048, x0 (ix2 p k) * x1 (ix2 q k)) = ∑ k : Fin 2048, A (ix2 r k) * Wg (ix2 s k) :=
    Finset.sum_congr rfl fun k _ => by rw [h0 k, h1 k]
  have eu : (∑ k : Fin 2048, x0 (ix2 p k) * x2 (ix2 q k)) = ∑ k : Fin 2048, A (ix2 r k) * Wu (ix2 s k) :=
    Finset.sum_congr rfl fun k _ => by rw [h0 k, h2 k]
  rw [eg, eu]

/-- The printed index maps, decided over the grid: the token block's row index is the output block's row index, the
    gate and up blocks' row index is the output block's column index, the three input blocks span all columns, and the
    output's block indices stay in their ranges. -/
theorem idx_facts1 : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = win1_3.index t (1 : Fin 2)
    ∧ win1_2.index t (1 : Fin 2) = 0
    ∧ win1_3.index t (0 : Fin 2) ≤ 2 ∧ win1_3.index t (1 : Fin 2) ≤ 15 :=
  (by decide +kernel : ∀ t : Fin grid1.N, _)

/-- Every block of the output is some grid point's. -/
theorem idx_onto1 : ∀ (q0 : Fin 3) (q1 : Fin 16), ∃ t : Fin cfg1.N, win1_3.index t = ![q0.val, q1.val] :=
  (by decide +kernel : ∀ (q0 : Fin 3) (q1 : Fin 16), ∃ t : Fin grid1.N, win1_3.index t = ![q0.val, q1.val])

/-- What grid point `t` writes back is block `t` of the gated combination of the two whole products. -/
theorem flushed1_eq (c : Dev nD) (t : Fin cfg1.N) :
    (dat1 (F := Ideal) V c).flushed 3 t
      = ((cfg1.win 3).blk t).view.read (Elt Ideal) (arr2 (swiglu (V c main_v38) (V c main_v12) (V c main_v24))) := by
  show (cfg1.win 3).cut (grid1.coords t) ((dat1 V c).after 3 t) = _
  rw [after1_3]
  unfold out1_3
  rw [View.canon_unit_zero origin1]
  simp only [View.ld_unit_zero (S := S1024x2048) origin1, View.ld_unit_zero (S := S512x2048) origin1]
  obtain ⟨e0, e1, e2, e3, e4, e5, e6, e7⟩ := idx_facts1 t
  funext j
  show k1_pay1 (iblk1 V c 0 t) (iblk1 V c 1 t) (iblk1 V c 2 t) j
    = arr2 (swiglu (V c main_v38) (V c main_v12) (V c main_v24)) (((cfg1.win 3).blk t).view.emb j)
  refine (congrArg (k1_pay1 (iblk1 V c 0 t) (iblk1 V c 1 t) (iblk1 V c 2 t)) (eq_ix2 j)).trans ?_
  refine swiglu_block1 (V c main_v38) (V c main_v12) (V c main_v24) (iblk1 V c 0 t) (iblk1 V c 1 t) (iblk1 V c 2 t)
    _ _ (j 0) (j 1) (fun k => ?_) (fun k => ?_) (fun k => ?_)
  · show V c main_v38 (((cfg1.win 0).blk t).view.emb (ix2 (j 0) k)) = _
    refine congrArg (V c main_v38) ?_
    funext a; apply Fin.ext
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 2048 + 1 * k.val = k.val; omega
  · show V c main_v12 (((cfg1.win 1).blk t).view.emb (ix2 (j 1) k)) = _
    refine congrArg (V c main_v12) ?_
    funext a; apply Fin.ext
    match a with
    | ⟨0, _⟩ => show win1_1.index t (0 : Fin 2) * 512 + 1 * (j 1).val = win1_3.index t (1 : Fin 2) * 512 + 1 * (j 1).val; omega
    | ⟨1, _⟩ => show win1_1.index t (1 : Fin 2) * 2048 + 1 * k.val = k.val; omega
  · show V c main_v24 (((cfg1.win 2).blk t).view.emb (ix2 (j 1) k)) = _
    refine congrArg (V c main_v24) ?_
    funext a; apply Fin.ext
    match a with
    | ⟨0, _⟩ => show win1_2.index t (0 : Fin 2) * 512 + 1 * (j 1).val = win1_3.index t (1 : Fin 2) * 512 + 1 * (j 1).val; omega
    | ⟨1, _⟩ => show win1_2.index t (1 : Fin 2) * 2048 + 1 * k.val = k.val; omega

/-- An index of the output array is in grid point `t`'s block iff each coordinate is in the block's range on its axis. -/
theorem mem_blk1 (t : Fin cfg1.N) (i : S3072x8192.Idx) :
    i ∈ ((cfg1.win 3).blk t).view.set ↔ ∀ a : Fin 2, win1_3.index t a * S1024x512.size a ≤ (i a).val
      ∧ (i a).val < win1_3.index t a * S1024x512.size a + S1024x512.size a := by
  show i ∈ ((View.whole main_v39).slice (win1_3.rect t)).set ↔ _
  rw [View.set_slice_whole, Rect.mem_set_unit]
  exact Iff.rfl

/-- The 48 blocks tile the output: entry (r, s) lies in the block with indices (r / 1024, s / 512). -/
theorem cover1 (i : S3072x8192.Idx) :
    ∃ t : Fin cfg1.N, (cfg1.win 3).flush t = true ∧ i ∈ ((cfg1.win 3).blk t).view.set := by
  have hi0 : (i 0).val < 3072 := (i 0).isLt
  have hi1 : (i 1).val < 8192 := (i 1).isLt
  obtain ⟨t, ht⟩ := idx_onto1 ⟨(i 0).val / 1024, by omega⟩ ⟨(i 1).val / 512, by omega⟩
  have q0 : win1_3.index t (0 : Fin 2) = (i 0).val / 1024 := congrFun ht 0
  have q1 : win1_3.index t (1 : Fin 2) = (i 1).val / 512 := congrFun ht 1
  refine ⟨t, flush1_3 t, ?_⟩
  rw [mem_blk1]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 512 ≤ (i 1).val ∧ (i 1).val < win1_3.index t (1 : Fin 2) * 512 + 512
    omega

/-- Region 1: the gated combination of the two projections. After the region the output array is
    g · logistic g · u of the two whole products. -/
theorem region1_final (c : Dev nD) :
    (dat1 (F := Ideal) V c).arrAt 3 cfg1.N = arr2 (swiglu (V c main_v38) (V c main_v12) (V c main_v24)) :=
  (dat1 (F := Ideal) V c).arrAt_eq_of_cover 3 (arr2 (swiglu (V c main_v38) (V c main_v12) (V c main_v24)))
    (fun t _ => flushed1_eq V c t) cover1

end Cert.KernelIdeal.Val

end
-- ==== Proof.Region2.lean ====
/-
  The third stage: each row of the hidden matrix is divided by its root mean square, multiplied entry by entry by a
  weight row, and quantized to eight bits at the row's own scale.

  The stage works on tiles of 128 whole rows.  Inside a tile, row p is treated alone: the sum of its squares over
  its 8192 entries, divided by 8192, plus a small number, under a reciprocal square root, gives the row's factor;
  each entry times that factor times the weight of its column is the normalized row; the largest magnitude of the
  normalized row (never below a threshold) divides 127 to give the row's scale; each normalized entry is scaled,
  rounded to the nearest integer with ties to even, clipped to the integers from -128 to 127, and divided by the
  scale again.  Tile t holds rows 128 t … 128 t + 127, the 24 tiles cover the 3072 rows, and every tile sees the one
  weight row whole; so the array written is the row-by-row quantization of the normalized matrix.
-/
import proofs.«122326_j3453153706638_2_alg».proof.Proof.Spec
import proofs.«122326_j3453153706638_2_alg».proof.Proof.Consts
import proofs.«122326_j3453153706638_2_alg».proof.Proof.LibRowReduce
import proofs.«122326_j3453153706638_2_alg».proof.Proof.LibKeepdims
import proofs.«122326_j3453153706638_2_alg».proof.Proof.Gen.KernelIdeal.Frame
import Idealize.ShloMosaic.Lib.ValueLayout

noncomputable section

namespace Cert.KernelIdeal.Val

open Cert.KernelIdeal Cert.KernelIdeal.Gen Cert.Spec Idealize.ShloMosaic Idealize.ShloMosaic.ValueIdx Idealize.SL.Sem
open Idealize.ShloMosaic.TcCoe

namespace HiddenQuant

/-! ## The tile's arithmetic at an entry -/

/-- A column of 128 numbers copied along the rows of a [128, 8192] tile reads, at (p, q), the column's entry p. -/
theorem colBroadcast_apply (v : FVec Ideal S128x1 .f32) (p : Fin 128) (q : Fin 8192) :
    broadcastTo S128x8192 v broadcasts_S128x1_S128x8192 (ix2 p q) = v (ix2 p (0 : Fin 1)) :=
  Keepdims.broadcastTo_a1_ab_apply v broadcasts_S128x1_S128x8192 p q 0

/-- The one weight row copied down the 128 rows of a tile reads, at (p, q), the row's entry q. -/
theorem rowBroadcast_apply (v : FVec Ideal S1x8192 .f32) (p : Fin 128) (q : Fin 8192) :
    broadcastTo S128x8192 v broadcasts_S1x8192_S128x8192 (ix2 p q) = v (ix2 (0 : Fin 1) q) :=
  broadcastTo_1b_ab_apply v broadcasts_S1x8192_S128x8192 p q

/-- The sums of the rows' squares, kept as a column: entry p is the sum over row p. -/
theorem rowSumSq_apply (h : FVec Ideal S128x8192 .f32) (p : Fin 128) (u : Fin 1) :
    shapeCast S128x1 (multiReduction (F := Ideal) .add [1] S128 (mulf h h) 0x00000000#32 reduces_S128x8192_S128 (.inl rfl) rfl)
        shapeCasts_S128_S128x1 (ix2 p u)
      = ∑ f : Fin 8192, h (ix2 p f) * h (ix2 p f) :=
  (Keepdims.shapeCast_a_a1_apply _ shapeCasts_S128_S128x1 p u).trans
    (Cert.LibRowReduce.multiReduction_add_row (mulf h h) reduces_S128x8192_S128 (.inl rfl) rfl p)

/-- The rows' largest magnitudes, kept as a column: entry p is the supremum over row p. -/
theorem rowAbsMax_apply (g : FVec Ideal S128x8192 .f32) (p : Fin 128) (u : Fin 1) :
    shapeCast S128x1 (multiReduction (F := Ideal) .maximumf [1] S128 (absf g) 0xFF800000#32 reduces_S128x8192_S128 (.inl rfl) rfl)
        shapeCasts_S128_S128x1 (ix2 p u)
      = Finset.univ.sup fun j : Fin 8192 => absE (g (ix2 p j)) :=
  (Keepdims.shapeCast_a_a1_apply _ shapeCasts_S128_S128x1 p u).trans
    (Cert.LibRowReduce.multiReduction_maximumf_row (absf g) reduces_S128x8192_S128 (.inl rfl) rfl p)

theorem absf_apply' (a : FVec Ideal S128x8192 .f32) (i : S128x8192.Idx) : absf a i = absE (a i) := rfl
theorem rsqrt_apply' (a : FVec Ideal S128x1 .f32) (i : S128x1.Idx) : rsqrt a i = Ideal.rsqrt (a i) := rfl
theorem roundeven_apply' (a : FVec Ideal S128x8192 .f32) (i : S128x8192.Idx) : roundeven a i = rne (a i) := rfl

/-! The tile's arithmetic in two halves: the normalized tile, and the quantization of a tile. -/

/-- The factors of the rows, as a column: one over the root of (the row's sum of squares over 8192, plus the small number). -/
def factorCol (h : FVec Ideal S128x8192 .f32) : FVec Ideal S128x1 .f32 :=
  rsqrt (addf (divf (shapeCast S128x1 (multiReduction (F := Ideal) .add [1] S128 (mulf h h) 0x00000000#32 reduces_S128x8192_S128 (.inl rfl) rfl) shapeCasts_S128_S128x1)
    (broadcast S128x1 (Scalar.ofBits .f32 0x46000000#32))) (broadcast S128x1 (Scalar.ofBits .f32 0x358637BD#32)))

/-- The normalized tile: each entry times its row's factor times its column's weight. -/
def normTile (x0 : Vec Ideal S128x8192 .bf16) (x1 : Vec Ideal S1x8192 .f32) : FVec Ideal S128x8192 .f32 :=
  mulf (mulf (extf .f32 (shapeCast S128x8192 x0 shapeCasts_S128x8192_S128x8192) bitsLt_bf16_f32)
      (broadcastTo S128x8192 (factorCol (extf .f32 (shapeCast S128x8192 x0 shapeCasts_S128x8192_S128x8192) bitsLt_bf16_f32)) broadcasts_S128x1_S128x8192))
    (broadcastTo S128x8192 (shapeCast S1x8192 x1 shapeCasts_S1x8192_S1x8192) broadcasts_S1x8192_S128x8192)

/-- The scales of the rows, as a column: 127 over the row's largest magnitude, the divisor never below the threshold. -/
def scaleCol (g : FVec Ideal S128x8192 .f32) : FVec Ideal S128x1 .f32 :=
  divf (broadcast S128x1 (Scalar.ofBits .f32 0x42FE0000#32))
    (maximumf (shapeCast S128x1 (multiReduction (F := Ideal) .maximumf [1] S128 (absf g) 0xFF800000#32 reduces_S128x8192_S128 (.inl rfl) rfl) shapeCasts_S128_S128x1)
      (broadcast S128x1 (Scalar.ofBits .f32 0x3727C5AC#32)))

/-- A tile quantized row by row: scaled, rounded, clipped, divided back. -/
def quantTile (g : FVec Ideal S128x8192 .f32) : FVec Ideal S128x8192 .bf16 :=
  truncf .bf16 (divf
    (minimumf (broadcast S128x8192 (Scalar.ofBits .f32 0x42FE0000#32))
      (maximumf (broadcast S128x8192 (Scalar.ofBits .f32 0xC3000000#32))
        (roundeven (mulf g (broadcastTo S128x8192 (scaleCol g) broadcasts_S128x1_S128x8192)))))
    (broadcastTo S128x8192 (scaleCol g) broadcasts_S128x1_S128x8192)) bitsLt_bf16_f32

/-- The tile the body stores is the quantization of the normalized tile. -/
theorem pay_eq (x0 : Vec Ideal S128x8192 .bf16) (x1 : Vec Ideal S1x8192 .f32) :
    k2_pay1 x0 x1 = quantTile (normTile x0 x1) := rfl

/-- Row p's factor. -/
theorem factorCol_apply (h : FVec Ideal S128x8192 .f32) (p : Fin 128) :
    factorCol h (ix2 p (0 : Fin 1)) = Ideal.rsqrt (Ideal.div (∑ f : Fin 8192, h (ix2 p f) * h (ix2 p f)) w8192 + eps6) := by
  unfold factorCol w8192 eps6
  rw [rsqrt_apply', addf_apply, divf_apply, rowSumSq_apply, broadcast_apply, broadcast_apply]
  simp only [Ideal.ofBits_def]

/-- The normalized row p of a tile, entry by entry: the entry times the row's factor times its column's weight. -/
def tileRow (x0 : Vec Ideal S128x8192 .bf16) (x1 : Vec Ideal S1x8192 .f32) (p : Fin 128) (q' : Fin 8192) : EReal :=
  x0 (ix2 p q') * Ideal.rsqrt (Ideal.div (∑ f : Fin 8192, x0 (ix2 p f) * x0 (ix2 p f)) w8192 + eps6) * x1 (ix2 (0 : Fin 1) q')

/-- The normalized tile at an entry. -/
theorem normTile_apply (x0 : Vec Ideal S128x8192 .bf16) (x1 : Vec Ideal S1x8192 .f32) (p : Fin 128) (q : Fin 8192) :
    normTile x0 x1 (ix2 p q) = tileRow x0 x1 p q := by
  unfold normTile tileRow
  rw [shapeCast_self, shapeCast_self, mulf_apply, mulf_apply, extf_apply, colBroadcast_apply, rowBroadcast_apply,
    factorCol_apply]
  rfl

/-- Row p's scale. -/
theorem scaleCol_apply (g : FVec Ideal S128x8192 .f32) (p : Fin 128) :
    scaleCol g (ix2 p (0 : Fin 1)) = actScale (fun j : Fin 8192 => g (ix2 p j)) := by
  unfold scaleCol actScale w127 eps5
  rw [divf_apply, maximumf_apply, rowAbsMax_apply, broadcast_apply, broadcast_apply]
  simp only [Ideal.ofBits_def]

/-- A quantized tile at an entry: row p's entry quantized at row p's scale. -/
theorem quantTile_apply (g : FVec Ideal S128x8192 .f32) (p : Fin 128) (q : Fin 8192) :
    quantTile g (ix2 p q) = actQuant direct (fun j : Fin 8192 => g (ix2 p j)) q := by
  unfold quantTile actQuant direct requant
  rw [truncf_apply, divf_apply, minimumf_apply, maximumf_apply, broadcast_apply, broadcast_apply, roundeven_apply',
    mulf_apply, colBroadcast_apply, scaleCol_apply]
  simp only [Ideal.ofBits_def]
  rw [ofBits_127, ofBits_neg128]

/-- THE TILE AT AN ENTRY: row p's normalized entries, quantized at the row's own scale. -/
theorem tile_apply (x0 : Vec Ideal S128x8192 .bf16) (x1 : Vec Ideal S1x8192 .f32) (p : Fin 128) (q : Fin 8192) :
    k2_pay1 x0 x1 (ix2 p q) = actQuant direct (tileRow x0 x1 p) q := by
  rw [pay_eq, quantTile_apply]
  exact congrArg (fun row => actQuant direct row q) (funext fun j => normTile_apply x0 x1 p j)

/-! ## Tiles against the arrays -/

variable (V : (c : Dev nD) → (b : Ref sig .tc) → Buf (Elt Ideal) ((c : Thread nD τ).loc b))

theorem zeroOffsets : (![0, 0] : Fin 2 → Nat) = fun _ => 0 := funext fun a => by fin_cases a <;> rfl

/-- The index maps over the grid: the hidden matrix's and the output's tile t is block row t, the weight
    row's block is always the whole row. -/
theorem tileIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the hidden matrix's tile t is row 128 t + p of the matrix. -/
theorem hiddenTile_apply (c : Dev nD) (t : Fin cfg2.N) (p : Fin 128) (q : Fin 8192) (r : Fin 3072)
    (hr : r.val = t.val * 128 + p.val) :
    (iblk2 V c 0 t : Vec Ideal S128x8192 .bf16) (ix2 p q) = (V c main_v39 : S3072x8192.Idx → EReal) (ix2 r q) := by
  obtain ⟨e0, e1, -⟩ := tileIndex t
  unfold iblk2
  rw [View.read_apply]
  show V c main_v39 _ = V c main_v39 _
  congr 1
  funext a
  apply Fin.ext
  match a with
  | ⟨0, _⟩ => show win2_0.index t (0 : Fin 2) * 128 + 1 * p.val = r.val; omega
  | ⟨1, _⟩ => show win2_0.index t (1 : Fin 2) * 8192 + 1 * q.val = q.val; omega

/-- The weight row's block is the weight row at every tile. -/
theorem weightTile_apply (c : Dev nD) (t : Fin cfg2.N) (q : Fin 8192) :
    (iblk2 V c 1 t : Vec Ideal S1x8192 .f32) (ix2 (0 : Fin 1) q) = (V c main_v37 : S1x8192.Idx → EReal) (ix2 (0 : Fin 1) q) := by
  obtain ⟨-, -, e0, e1, -⟩ := tileIndex t
  unfold iblk2
  rw [View.read_apply]
  show V c main_v37 _ = V c main_v37 _
  congr 1
  funext a
  apply Fin.ext
  match a with
  | ⟨0, _⟩ => show win2_1.index t (0 : Fin 2) * 1 + 1 * 0 = 0; omega
  | ⟨1, _⟩ => show win2_1.index t (1 : Fin 2) * 8192 + 1 * q.val = q.val; omega

/-- What the stage leaves in the whole output array. -/
def normQuant (c : Dev nD) : S3072x8192.Idx → EReal :=
  arr2 (rowQuant direct (arr2 (normed (V c main_v39) (fun f => V c main_v37 (ix2 (0 : Fin 1) f)))))

/-- Row p of tile t, normalized, is row 128 t + p of the normalized matrix. -/
theorem tileRow_eq (c : Dev nD) (t : Fin cfg2.N) (p : Fin 128) (r : Fin 3072) (hr : r.val = t.val * 128 + p.val) :
    tileRow (iblk2 V c 0 t) (iblk2 V c 1 t) p
      = fun j' => arr2 (normed (V c main_v39) (fun f => V c main_v37 (ix2 (0 : Fin 1) f))) (ix2 r j') := by
  funext q'
  rw [arr2_ix2]
  unfold tileRow normed rmsInv
  rw [hiddenTile_apply V c t p q' r hr, weightTile_apply V c t q']
  simp only [hiddenTile_apply V c t p _ r hr]

/-- WHAT TILE t WRITES BACK is block t of the row-by-row quantization of the normalized matrix. -/
theorem flushed_eq (c : Dev nD) (t : Fin cfg2.N) :
    (dat2 (F := Ideal) V c).flushed 2 t = ((cfg2.win 2).blk t).view.read (Elt Ideal) (normQuant V c) := by
  show (cfg2.win 2).cut (grid2.coords t) ((dat2 V c).after 2 t) = _
  rw [after2_2]
  unfold out2_2
  rw [View.canon_unit_zero zeroOffsets]
  simp only [View.ld_unit_zero (S := S128x8192) zeroOffsets, View.ld_unit_zero (S := S1x8192) zeroOffsets]
  obtain ⟨-, -, -, -, e0, e1⟩ := tileIndex t
  have hN : cfg2.N = 24 := N_2
  funext j
  have hj0 : (j 0).val < 128 := (j 0).isLt
  have hj1 : (j 1).val < 8192 := (j 1).isLt
  have ht : t.val < 24 := hN ▸ t.isLt
  have hjeq : (j : S128x8192.Idx) = ix2 (⟨(j 0).val, hj0⟩ : Fin 128) (⟨(j 1).val, hj1⟩ : Fin 8192) :=
    funext fun a => by match a with | ⟨0, _⟩ => rfl | ⟨1, _⟩ => rfl
  have hemb : (((cfg2.win 2).blk t).view.emb j : S3072x8192.Idx)
      = ix2 (⟨t.val * 128 + (j 0).val, by omega⟩ : Fin 3072) (⟨(j 1).val, hj1⟩ : Fin 8192) := by
    funext a
    apply Fin.ext
    match a with
    | ⟨0, _⟩ => show win2_2.index t (0 : Fin 2) * 128 + 1 * (j 0).val = t.val * 128 + (j 0).val; omega
    | ⟨1, _⟩ => show win2_2.index t (1 : Fin 2) * 8192 + 1 * (j 1).val = (j 1).val; omega
  rw [View.read_apply, hemb]
  refine (congrArg (k2_pay1 (iblk2 V c 0 t) (iblk2 V c 1 t)) hjeq).trans ?_
  refine (tile_apply _ _ _ _).trans ?_
  rw [tileRow_eq V c t ⟨(j 0).val, hj0⟩ ⟨t.val * 128 + (j 0).val, by omega⟩ rfl]
  unfold normQuant
  rw [arr2_ix2]
  rfl

/-- An index of the array is in tile t's block iff each coordinate is in the block's range on its axis. -/
theorem mem_tile (t : Fin cfg2.N) (i : S3072x8192.Idx) :
    i ∈ ((cfg2.win 2).blk t).view.set ↔ ∀ a : Fin 2, win2_2.index t a * S128x8192.size a ≤ (i a).val ∧ (i a).val < win2_2.index t a * S128x8192.size a + S128x8192.size a := by
  show i ∈ ((View.whole main_v40).slice (win2_2.rect t)).set ↔ _
  rw [View.set_slice_whole, Rect.mem_set_unit]
  exact Iff.rfl

/-- Every row lies in the tile numbered by its quotient by 128. -/
theorem tiles_cover (i : S3072x8192.Idx) :
    ∃ t : Fin cfg2.N, (cfg2.win 2).flush t = true ∧ i ∈ ((cfg2.win 2).blk t).view.set := by
  have hN : cfg2.N = 24 := N_2
  have hi0 : (i 0).val < 3072 := (i 0).isLt
  have hi1 : (i 1).val < 8192 := (i 1).isLt
  refine ⟨⟨(i 0).val / 128, by rw [hN]; omega⟩, flush2_2 _, ?_⟩
  rw [mem_tile]
  obtain ⟨-, -, -, -, e0, e1⟩ := tileIndex ⟨(i 0).val / 128, by rw [hN]; omega⟩
  intro a
  match a with
  | ⟨0, _⟩ => show win2_2.index _ (0 : Fin 2) * 128 ≤ (i 0).val ∧ (i 0).val < win2_2.index _ (0 : Fin 2) * 128 + 128; rw [e0]; show (i 0).val / 128 * 128 ≤ _ ∧ _ < (i 0).val / 128 * 128 + 128; omega
  | ⟨1, _⟩ => show win2_2.index _ (1 : Fin 2) * 8192 ≤ (i 1).val ∧ (i 1).val < win2_2.index _ (1 : Fin 2) * 8192 + 8192; rw [e1]; omega

end HiddenQuant

variable (V : (c : Dev nD) → (b : Ref sig .tc) → Buf (Elt Ideal) ((c : Thread nD τ).loc b))

/-- Region 2: rows normalized, weighted and quantized. -/
theorem region2_final (c : Dev nD) :
    (dat2 (F := Ideal) V c).arrAt 2 cfg2.N
      = arr2 (rowQuant direct (arr2 (normed (V c main_v39) (fun f => V c main_v37 (ix2 0 f))))) :=
  (dat2 (F := Ideal) V c).arrAt_eq_of_cover 2 (HiddenQuant.normQuant V c) (fun t _ => HiddenQuant.flushed_eq V c t) HiddenQuant.tiles_cover

end Cert.KernelIdeal.Val

end
-- ==== Proof.Region3.lean ====
/-
  The down projection, read off the last pipelined region of the kernel program.

  The region walks a 6 × 8 grid. At grid point (I, J) it loads rows 512·I … 512·I + 511 of the left matrix
  (3072 × 8192, all 8192 columns) and rows 256·J … 256·J + 255 of the right matrix (2048 × 8192, all columns),
  multiplies the first block by the transpose of the second into a zero accumulator, and writes the 512 × 256 result
  to block (I, J) of the 3072 × 2048 output. Entry (p, q) of that block is Σ_k left(512·I + p, k) · right(256·J + q, k),
  which is entry (512·I + p, 256·J + q) of the product of the left matrix with the transposed right one; the 48
  blocks tile the output, so the whole output array is that product.
-/
import proofs.«122326_j3453153706638_2_alg».proof.Proof.Spec
import proofs.«122326_j3453153706638_2_alg».proof.Proof.Gen.KernelIdeal.Frame
import proofs.«122326_j3453153706638_2_alg».proof.Proof.LibMatmulNT
import Idealize.ShloMosaic.Lib.Pipeline.Value

noncomputable section

open scoped BigOperators

namespace Cert.KernelIdeal.Val

open Cert.KernelIdeal Cert.KernelIdeal.Gen Cert.Spec Idealize.ShloMosaic Idealize.ShloMosaic.TcCoe Idealize.ShloMosaic.ValueIdx Idealize.SL.Sem

variable (V : (c : Dev nD) → (b : Ref sig .tc) → Buf (Elt Ideal) ((c : Thread nD τ).loc b))

/-- A block that starts at the origin of its staging buffer. -/
theorem origin3 : (![0, 0] : Fin 2 → Nat) = fun _ => 0 := funext fun a => by fin_cases a <;> rfl

/-- The region's product contracts the last axis of both operands. -/
theorem dot3_eq : dot_S512x8192_S256x8192_S512x256_1_1_0_0_n_n = DotDims.transposedRhs 512 8192 256 := rfl

/-- The body's result at (p, q): row p of the left block against row q of the right block. -/
theorem pay3_apply (x0 : Vec Ideal S512x8192 .bf16) (x1 : Vec Ideal S256x8192 .bf16) (p : Fin 512) (q : Fin 256) :
    k3_pay1 x0 x1 (ix2 p q) = ∑ k : Fin 8192, x0 (ix2 p k) * x1 (ix2 q k) := by
  unfold k3_pay1
  simp only [shapeCast_self]
  rw [dot3_eq]
  exact Cert.MatOpsNT.matmul_nt_zero_apply none x0 x1 p q

/-- Row p of a block against row q of another is row r of the left matrix against row s of the right matrix, when
    the blocks' rows p and q are the matrices' rows r and s. -/
theorem dot_block3 (A : A2 3072 8192) (W : A2 2048 8192) (x0 : Vec Ideal S512x8192 .bf16) (x1 : Vec Ideal S256x8192 .bf16)
    (r : Fin 3072) (s : Fin 2048) (p : Fin 512) (q : Fin 256)
    (h0 : ∀ k : Fin 8192, x0 (ix2 p k) = A (ix2 r k)) (h1 : ∀ k : Fin 8192, x1 (ix2 q k) = W (ix2 s k)) :
    k3_pay1 x0 x1 (ix2 p q) = dotT A W r s := by
  rw [pay3_apply]
  unfold dotT
  exact Finset.sum_congr rfl fun k _ => by rw [h0 k, h1 k]

/-- The printed index maps, decided over the grid: the left block's row index is the output block's row index, the
    right block's row index is the output block's column index, both input blocks span all columns, and the output's
    block indices stay in their ranges. -/
theorem idx_facts3 : ∀ t : Fin cfg3.N, win3_0.index t (0 : Fin 2) = win3_2.index t (0 : Fin 2)
    ∧ win3_0.index t (1 : Fin 2) = 0
    ∧ win3_1.index t (0 : Fin 2) = win3_2.index t (1 : Fin 2)
    ∧ win3_1.index t (1 : Fin 2) = 0
    ∧ win3_2.index t (0 : Fin 2) ≤ 5 ∧ win3_2.index t (1 : Fin 2) ≤ 7 :=
  (by decide +kernel : ∀ t : Fin grid3.N, _)

/-- Every block of the output is some grid point's. -/
theorem idx_onto3 : ∀ (q0 : Fin 6) (q1 : Fin 8), ∃ t : Fin cfg3.N, win3_2.index t = ![q0.val, q1.val] :=
  (by decide +kernel : ∀ (q0 : Fin 6) (q1 : Fin 8), ∃ t : Fin grid3.N, win3_2.index t = ![q0.val, q1.val])

/-- What grid point `t` writes back is block `t` of the product of the left matrix with the transposed right one. -/
theorem flushed3_eq (c : Dev nD) (t : Fin cfg3.N) :
    (dat3 (F := Ideal) V c).flushed 2 t
      = ((cfg3.win 2).blk t).view.read (Elt Ideal) (arr2 (dotT (V c main_v40) (V c main_v36))) := by
  show (cfg3.win 2).cut (grid3.coords t) ((dat3 V c).after 2 t) = _
  rw [after3_2]
  unfold out3_2
  rw [View.canon_unit_zero origin3]
  simp only [View.ld_unit_zero (S := S512x8192) origin3, View.ld_unit_zero (S := S256x8192) origin3]
  obtain ⟨e0, e1, e2, e3, e4, e5⟩ := idx_facts3 t
  funext j
  show k3_pay1 (iblk3 V c 0 t) (iblk3 V c 1 t) j
    = arr2 (dotT (V c main_v40) (V c main_v36)) (((cfg3.win 2).blk t).view.emb j)
  refine (congrArg (k3_pay1 (iblk3 V c 0 t) (iblk3 V c 1 t)) (eq_ix2 j)).trans ?_
  refine dot_block3 (V c main_v40) (V c main_v36) (iblk3 V c 0 t) (iblk3 V c 1 t) _ _ (j 0) (j 1) (fun k => ?_) (fun k => ?_)
  · show V c main_v40 (((cfg3.win 0).blk t).view.emb (ix2 (j 0) k)) = _
    refine congrArg (V c main_v40) ?_
    funext a; apply Fin.ext
    match a with
    | ⟨0, _⟩ => show win3_0.index t (0 : Fin 2) * 512 + 1 * (j 0).val = win3_2.index t (0 : Fin 2) * 512 + 1 * (j 0).val; omega
    | ⟨1, _⟩ => show win3_0.index t (1 : Fin 2) * 8192 + 1 * k.val = k.val; omega
  · show V c main_v36 (((cfg3.win 1).blk t).view.emb (ix2 (j 1) k)) = _
    refine congrArg (V c main_v36) ?_
    funext a; apply Fin.ext
    match a with
    | ⟨0, _⟩ => show win3_1.index t (0 : Fin 2) * 256 + 1 * (j 1).val = win3_2.index t (1 : Fin 2) * 256 + 1 * (j 1).val; omega
    | ⟨1, _⟩ => show win3_1.index t (1 : Fin 2) * 8192 + 1 * k.val = k.val; omega

/-- An index of the output array is in grid point `t`'s block iff each coordinate is in the block's range on its axis. -/
theorem mem_blk3 (t : Fin cfg3.N) (i : S3072x2048.Idx) :
    i ∈ ((cfg3.win 2).blk t).view.set ↔ ∀ a : Fin 2, win3_2.index t a * S512x256.size a ≤ (i a).val
      ∧ (i a).val < win3_2.index t a * S512x256.size a + S512x256.size a := by
  show i ∈ ((View.whole main_v41).slice (win3_2.rect t)).set ↔ _
  rw [View.set_slice_whole, Rect.mem_set_unit]
  exact Iff.rfl

/-- The 48 blocks tile the output: entry (r, s) lies in the block with indices (r / 512, s / 256). -/
theorem cover3 (i : S3072x2048.Idx) :
    ∃ t : Fin cfg3.N, (cfg3.win 2).flush t = true ∧ i ∈ ((cfg3.win 2).blk t).view.set := by
  have hi0 : (i 0).val < 3072 := (i 0).isLt
  have hi1 : (i 1).val < 2048 := (i 1).isLt
  obtain ⟨t, ht⟩ := idx_onto3 ⟨(i 0).val / 512, by omega⟩ ⟨(i 1).val / 256, by omega⟩
  have q0 : win3_2.index t (0 : Fin 2) = (i 0).val / 512 := congrFun ht 0
  have q1 : win3_2.index t (1 : Fin 2) = (i 1).val / 256 := congrFun ht 1
  refine ⟨t, flush3_2 t, ?_⟩
  rw [mem_blk3]
  intro a
  match a with
  | ⟨0, _⟩ =>
    show win3_2.index t (0 : Fin 2) * 512 ≤ (i 0).val ∧ (i 0).val < win3_2.index t (0 : Fin 2) * 512 + 512
    omega
  | ⟨1, _⟩ =>
    show win3_2.index t (1 : Fin 2) * 256 ≤ (i 1).val ∧ (i 1).val < win3_2.index t (1 : Fin 2) * 256 + 256
    omega

/-- Region 3: the down projection. After the region the output array is the product of the left matrix with the
    transposed right one. -/
theorem region3_final (c : Dev nD) :
    (dat3 (F := Ideal) V c).arrAt 2 cfg3.N = arr2 (dotT (V c main_v40) (V c main_v36)) :=
  (dat3 (F := Ideal) V c).arrAt_eq_of_cover 2 (arr2 (dotT (V c main_v40) (V c main_v36)))
    (fun t _ => flushed3_eq V c t) cover3

end Cert.KernelIdeal.Val

end
-- ==== Proof.KHost.lean ====
/-
  What the host operations before the first region leave in the arrays the regions read.

  Thirteen stretches of host operations run before the first region. They leave: the tokens laid out as a matrix of
  3072 rows (a reshape of the rank-4 input: row (b·3 + c)·128 + h is token (b, c, h)); each of the three weight
  matrices replaced by its ternary quantization — scaled by one over its mean magnitude (the divisor never below the
  threshold), rounded, clipped to -1 … 1 and divided back —; and the weight vector as a matrix of one row.
-/
import proofs.«122326_j3453153706638_2_alg».proof.Proof.Spec
import proofs.«122326_j3453153706638_2_alg».proof.Proof.Consts
import proofs.«122326_j3453153706638_2_alg».proof.Proof.LibTypedRef
import proofs.«122326_j3453153706638_2_alg».proof.Proof.Gen.KernelIdeal.Frame
import Idealize.ShloMosaic.Lib.IdealHost
import Idealize.ShloMosaic.Lib.StableHlo.Run
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem Idealize.ShloMosaic.StableHlo

/-- The host's scale of a matrix: one over (the sum of magnitudes over 2^24, or the threshold if that is larger). -/
def hostScale {A B : Nat} (W : FVec Ideal ⟨2, ![A, B]⟩ .f32)
    (hred : (⟨2, ![A, B]⟩ : Shape).ReducesTo [0, 1] ⟨0, ![]⟩) (hS : 0 < (⟨0, ![]⟩ : Shape).numel) :
    FVec Ideal ⟨0, ![]⟩ .f32 :=
  Host.divf (constant (F := Ideal) ⟨0, ![]⟩ .f32 0x3F800000#32)
    (maximumf (Host.divf (Host.reduceAdd (Host.absf W) (constant (F := Ideal) ⟨0, ![]⟩ .f32 0x00000000#32) hred hS)
      (constant (F := Ideal) ⟨0, ![]⟩ .f32 0x4B800000#32)) (constant (F := Ideal) ⟨0, ![]⟩ .f32 0x3727C5AC#32))

/-- That scale is the specification's. -/
theorem hostScale_eq {A B : Nat} (W : FVec Ideal ⟨2, ![A, B]⟩ .f32)
    (hred : (⟨2, ![A, B]⟩ : Shape).ReducesTo [0, 1] ⟨0, ![]⟩) (hS : 0 < (⟨0, ![]⟩ : Shape).numel) :
    hostScale W hred hS ix0 = wScale W := by
  unfold hostScale wScale w1 w2p24 eps5
  rw [hostDivf_apply, maximumf_apply, hostDivf_apply, hostReduceAdd_apply,
    Ideal.hostReduceAdd_total hred (fun b => b.elim0)]
  simp only [constant_apply, Ideal.ofBits_zero_f32, zero_add]
  rfl

/-- The host's ternary quantization of a matrix, read at an entry, is the specification's. -/
theorem hostWQuant_apply {A B : Nat} (W : FVec Ideal ⟨2, ![A, B]⟩ .f32)
    (hred : (⟨2, ![A, B]⟩ : Shape).ReducesTo [0, 1] ⟨0, ![]⟩) (hS : 0 < (⟨0, ![]⟩ : Shape).numel)
    (hb : (⟨0, ![]⟩ : Shape).BroadcastsInDim ⟨2, ![A, B]⟩ ![]) (i : Fin A) (j : Fin B) :
    Host.divf
        (minimumf (broadcastInDim ⟨2, ![A, B]⟩ ![] hb (constant (F := Ideal) ⟨0, ![]⟩ .f32 0x3F800000#32))
          (maximumf (broadcastInDim ⟨2, ![A, B]⟩ ![] hb (constant (F := Ideal) ⟨0, ![]⟩ .f32 0xBF800000#32))
            (Host.roundeven (mulf W (broadcastInDim ⟨2, ![A, B]⟩ ![] hb (hostScale W hred hS))))))
        (broadcastInDim ⟨2, ![A, B]⟩ ![] hb (hostScale W hred hS)) (ix2 i j)
      = wQuant direct W i j := by
  rw [hostDivf_apply, minimumf_apply, maximumf_apply, broadcastInDim_scalar_apply, broadcastInDim_scalar_apply,
    broadcastInDim_scalar_apply, hostScale_eq, constant_apply, constant_apply, ofBits_1, ofBits_neg1]
  unfold wQuant direct requant rne
  show Ideal.div (min _ (max _ (FloatOps.hostUnary .roundeven (W (ix2 i j) * broadcastInDim _ ![] hb (hostScale W hred hS) (ix2 i j))))) _ = _
  rw [broadcastInDim_scalar_apply, hostScale_eq]
  rfl

/-! ## The arrays at the first region's entry -/

section Entry

variable (m : (ℓ : Loc nD τ sig) → Buf (Elt Ideal) ℓ) (ρ : Dev nD → PrngReg)

/-- Opens the fold of the thirteen stretches at one buffer. -/
local macro "read_entry" : tactic =>
  `(tactic| (dsimp only [W13, W12, W11, W10, W9, W8, W7, W6, W5, W4, W3, W2, W1, W0]
             simp only [hostOps0, hostOps0_1, hostOps0_2, hostOps0_3, hostOps0_4, hostOps0_5, hostOps0_6, hostOps0_7, hostOps0_8,
               hostOps0_9, hostOps0_10, hostOps0_11, hostOps0_12]
             after_results_simp))

set_option maxHeartbeats 4000000 in
/-- The gate matrix at the first region's entry is its ternary quantization. -/
theorem entry_gate (c : Dev nD) (f : Fin 8192) (d : Fin 2048) :
    (W13 (F := Ideal) m ρ c (Proc.devRef .tc main_v12) : A2 8192 2048) (ix2 f d)
      = wQuant direct (m ((c : Thread nD τ).loc main_arg1)) f d := by
  read_entry
  exact hostWQuant_apply (m ((c : Thread nD τ).loc main_arg1)) reducesTo_S8192x2048_S_d0_1 h_S_ bcast_S_S8192x2048 f d

set_option maxHeartbeats 4000000 in
/-- The up matrix at the first region's entry is its ternary quantization. -/
theorem entry_up (c : Dev nD) (f : Fin 8192) (d : Fin 2048) :
    (W13 (F := Ideal) m ρ c (Proc.devRef .tc main_v24) : A2 8192 2048) (ix2 f d)
      = wQuant direct (m ((c : Thread nD τ).loc main_arg2)) f d := by
  read_entry
  exact hostWQuant_apply (m ((c : Thread nD τ).loc main_arg2)) reducesTo_S8192x2048_S_d0_1 h_S_ bcast_S_S8192x2048 f d

set_option maxHeartbeats 4000000 in
/-- The down matrix at the first region's entry is its ternary quantization. -/
theorem entry_down (c : Dev nD) (d : Fin 2048) (f : Fin 8192) :
    (W13 (F := Ideal) m ρ c (Proc.devRef .tc main_v36) : A2 2048 8192) (ix2 d f)
      = wQuant direct (m ((c : Thread nD τ).loc main_arg3)) d f := by
  read_entry
  exact hostWQuant_apply (m ((c : Thread nD τ).loc main_arg3)) reducesTo_S2048x8192_S_d0_1 h_S_ bcast_S_S2048x8192 d f

set_option maxHeartbeats 4000000 in
/-- The token matrix at the first region's entry is the rank-4 input with its leading axes laid out as one. -/
theorem entry_tokens (c : Dev nD) :
    (W13 (F := Ideal) m ρ c (Proc.devRef .tc main_v0) : A2 3072 2048) = flat (m ((c : Thread nD τ).loc main_arg0)) := by
  read_entry
  funext i
  show shapeCast S3072x2048 (m ((c : Thread nD τ).loc main_arg0)) shapeCasts_S8x3x128x2048_S3072x2048 i = _
  unfold flat
  refine shapeCast_apply _ _ i _ ?_
  show ((⟨4, ![8, 3, 128, 2048]⟩ : Shape).rowMajor _).val = ((⟨2, ![3072, 2048]⟩ : Shape).rowMajor i).val
  rw [Shape.rowMajor_val_two, Shape.rowMajor_val_four]
  have h0 := idx2_lt0 i
  show (((i 0).val / 384 * 3 + (i 0).val / 128 % 3) * 128 + (i 0).val % 128) * 2048 + (i 1).val = (i 0).val * 2048 + (i 1).val
  omega

set_option maxHeartbeats 4000000 in
/-- The weight vector at the first region's entry, as a matrix of one row. -/
theorem entry_lnw (c : Dev nD) (f : Fin 8192) :
    (W13 (F := Ideal) m ρ c (Proc.devRef .tc main_v37) : A2 1 8192) (ix2 0 f) = m ((c : Thread nD τ).loc main_arg4) (ix1 f) := by
  read_entry
  show shapeCast S1x8192 (m ((c : Thread nD τ).loc main_arg4)) shapeCasts_S8192_S1x8192 (ix2 0 f) = _
  refine shapeCast_apply _ _ _ _ ?_
  show ((⟨1, ![8192]⟩ : Shape).rowMajor (ix1 f)).val = ((⟨2, ![1, 8192]⟩ : Shape).rowMajor (ix2 0 f)).val
  rw [Shape.rowMajor_val_two, Shape.rowMajor_val_one]
  show f.val = 0 * 8192 + f.val
  omega

end Entry

end Cert.KernelIdeal.Val

end
-- ==== Proof.KChainCore.lean ====
/-
  The kernel program's four regions and its entry, composed.

  At the first region's entry the token matrix is the rank-4 input laid out by tokens, the three weight matrices are
  their ternary quantizations and the weight vector is the input vector as a matrix of one row. Region 0 writes the
  row-by-row quantization of the tokens; region 1 reads that and the gate and up matrices (which region 0 leaves as
  they were) and writes the gated combination; region 2 reads that and the weight vector and writes the quantization
  of the normalized rows; region 3 reads that and the down matrix and writes their product. An array a region does
  not write is carried through it unchanged. Substituting each region's input by what the earlier regions left gives
  the nesting that the specification's whole computation is, with the quantized value used as it is.

  The composition is stated here over the four regions' closed forms and the five entry facts as hypotheses, so that
  it depends on nothing but the shape of the program; the module that has those facts instantiates it.
-/
import proofs.«122326_j3453153706638_2_alg».proof.Proof.Spec
import proofs.«122326_j3453153706638_2_alg».proof.Proof.Gen.KernelIdeal.Frame

noncomputable section

namespace Cert.KernelIdeal.Val

open Cert.KernelIdeal Cert.KernelIdeal.Gen Cert.Spec Idealize.ShloMosaic Idealize.ShloMosaic.TcCoe Idealize.ShloMosaic.ValueIdx Idealize.SL.Sem

/-- A matrix is the matrix of its entries by row and column. -/
theorem arr2_ext {a b : Nat} (X : A2 a b) (f : Fin a → Fin b → EReal) (h : ∀ t d, X (ix2 t d) = f t d) :
    X = arr2 f := by
  funext i
  exact (congrArg X (eq_ix2 i)).trans (h (i 0) (i 1))

section Chain

variable (m : (ℓ : Loc nD τ sig) → Buf (Elt Ideal) ℓ) (ρ : Dev nD → PrngReg)

/-- After region 0, its output array is the row-by-row quantization of what the token array held at entry. -/
theorem after_region0
    (r0 : ∀ (V : (c : Dev nD) → (b : Ref sig .tc) → Buf (Elt Ideal) ((c : Thread nD τ).loc b)) (c : Dev nD),
      (dat0 (F := Ideal) V c).arrAt 1 cfg0.N = arr2 (rowQuant direct (V c main_v0)))
    (c : Dev nD) (X : A2 3072 2048) (e0 : (V13 (F := Ideal) m ρ c main_v0 : A2 3072 2048) = X) :
    (V14 (F := Ideal) m ρ c main_v38 : A2 3072 2048) = arr2 (rowQuant direct X) := by
  have h1 := W14_arr (F := Ideal) m ρ c 1
  have h2 := r0 (V13 (F := Ideal) m ρ) c
  rw [e0] at h2
  exact h1.trans h2

/-- After region 1, its output array is the gated combination of what its three input arrays held at its entry. -/
theorem after_region1
    (r1 : ∀ (V : (c : Dev nD) → (b : Ref sig .tc) → Buf (Elt Ideal) ((c : Thread nD τ).loc b)) (c : Dev nD),
      (dat1 (F := Ideal) V c).arrAt 3 cfg1.N = arr2 (swiglu (V c main_v38) (V c main_v12) (V c main_v24)))
    (c : Dev nD) (Qx : A2 3072 2048) (Qg Qu : A2 8192 2048)
    (e38 : (V14 (F := Ideal) m ρ c main_v38 : A2 3072 2048) = Qx)
    (e12 : (V14 (F := Ideal) m ρ c main_v12 : A2 8192 2048) = Qg)
    (e24 : (V14 (F := Ideal) m ρ c main_v24 : A2 8192 2048) = Qu) :
    (V15 (F := Ideal) m ρ c main_v39 : A2 3072 8192) = arr2 (swiglu Qx Qg Qu) := by
  have h1 := W15_arr (F := Ideal) m ρ c 3
  have h2 := r1 (V14 (F := Ideal) m ρ) c
  rw [e38, e12, e24] at h2
  exact h1.trans h2

/-- After region 2, its output array is the quantization of the normalized rows of what its input array held at its
    entry, the weights read off the one-row matrix. -/
theorem after_region2
    (r2 : ∀ (V : (c : Dev nD) → (b : Ref sig .tc) → Buf (Elt Ideal) ((c : Thread nD τ).loc b)) (c : Dev nD),
      (dat2 (F := Ideal) V c).arrAt 2 cfg2.N
        = arr2 (rowQuant direct (arr2 (normed (V c main_v39) (fun f => V c main_v37 (ix2 0 f))))))
    (c : Dev nD) (H : A2 3072 8192) (l : Fin 8192 → EReal)
    (e39 : (V15 (F := Ideal) m ρ c main_v39 : A2 3072 8192) = H)
    (e37 : (fun f : Fin 8192 => (V15 (F := Ideal) m ρ c main_v37 : A2 1 8192) (ix2 0 f)) = l) :
    (V16 (F := Ideal) m ρ c main_v40 : A2 3072 8192) = arr2 (rowQuant direct (arr2 (normed H l))) := by
  have h1 := W16_arr (F := Ideal) m ρ c 2
  have h2 := r2 (V15 (F := Ideal) m ρ) c
  rw [e39, e37] at h2
  exact h1.trans h2

/-- After region 3, its output array is the product of what its two input arrays held at its entry. -/
theorem after_region3
    (r3 : ∀ (V : (c : Dev nD) → (b : Ref sig .tc) → Buf (Elt Ideal) ((c : Thread nD τ).loc b)) (c : Dev nD),
      (dat3 (F := Ideal) V c).arrAt 2 cfg3.N = arr2 (dotT (V c main_v40) (V c main_v36)))
    (c : Dev nD) (Nq : A2 3072 8192) (Qd : A2 2048 8192)
    (e40 : (V16 (F := Ideal) m ρ c main_v40 : A2 3072 8192) = Nq)
    (e36 : (V16 (F := Ideal) m ρ c main_v36 : A2 2048 8192) = Qd) :
    (W17 (F := Ideal) m ρ c (Proc.devRef .tc main_v41) : A2 3072 2048) = arr2 (dotT Nq Qd) := by
  have h1 := W17_arr (F := Ideal) m ρ c 2
  have h2 := r3 (V16 (F := Ideal) m ρ) c
  rw [e40, e36] at h2
  exact h1.trans h2

/-- The contents of the last region's output array, entry by entry, from the four regions' closed forms (each for any
    entry contents) and the five facts about the first region's entry. -/
theorem kernel_out_of
    (r0 : ∀ (V : (c : Dev nD) → (b : Ref sig .tc) → Buf (Elt Ideal) ((c : Thread nD τ).loc b)) (c : Dev nD),
      (dat0 (F := Ideal) V c).arrAt 1 cfg0.N = arr2 (rowQuant direct (V c main_v0)))
    (r1 : ∀ (V : (c : Dev nD) → (b : Ref sig .tc) → Buf (Elt Ideal) ((c : Thread nD τ).loc b)) (c : Dev nD),
      (dat1 (F := Ideal) V c).arrAt 3 cfg1.N = arr2 (swiglu (V c main_v38) (V c main_v12) (V c main_v24)))
    (r2 : ∀ (V : (c : Dev nD) → (b : Ref sig .tc) → Buf (Elt Ideal) ((c : Thread nD τ).loc b)) (c : Dev nD),
      (dat2 (F := Ideal) V c).arrAt 2 cfg2.N
        = arr2 (rowQuant direct (arr2 (normed (V c main_v39) (fun f => V c main_v37 (ix2 0 f))))))
    (r3 : ∀ (V : (c : Dev nD) → (b : Ref sig .tc) → Buf (Elt Ideal) ((c : Thread nD τ).loc b)) (c : Dev nD),
      (dat3 (F := Ideal) V c).arrAt 2 cfg3.N = arr2 (dotT (V c main_v40) (V c main_v36)))
    (c : Dev nD)
    (et : (W13 (F := Ideal) m ρ c (Proc.devRef .tc main_v0) : A2 3072 2048)
      = flat (m ((c : Thread nD τ).loc main_arg0)))
    (eg : ∀ (f : Fin 8192) (d : Fin 2048), (W13 (F := Ideal) m ρ c (Proc.devRef .tc main_v12) : A2 8192 2048) (ix2 f d)
      = wQuant direct (m ((c : Thread nD τ).loc main_arg1)) f d)
    (eu : ∀ (f : Fin 8192) (d : Fin 2048), (W13 (F := Ideal) m ρ c (Proc.devRef .tc main_v24) : A2 8192 2048) (ix2 f d)
      = wQuant direct (m ((c : Thread nD τ).loc main_arg2)) f d)
    (ed : ∀ (d : Fin 2048) (f : Fin 8192), (W13 (F := Ideal) m ρ c (Proc.devRef .tc main_v36) : A2 2048 8192) (ix2 d f)
      = wQuant direct (m ((c : Thread nD τ).loc main_arg3)) d f)
    (el : ∀ f : Fin 8192, (W13 (F := Ideal) m ρ c (Proc.devRef .tc main_v37) : A2 1 8192) (ix2 0 f)
      = m ((c : Thread nD τ).loc main_arg4) (ix1 f))
    (t : Fin 3072) (d : Fin 2048) :
    (W17 (F := Ideal) m ρ c (Proc.devRef .tc main_v41) : A2 3072 2048) (ix2 t d)
      = pipeline direct (flat (m ((c : Thread nD τ).loc main_arg0))) (m ((c : Thread nD τ).loc main_arg1))
          (m ((c : Thread nD τ).loc main_arg2)) (m ((c : Thread nD τ).loc main_arg3))
          (fun f => m ((c : Thread nD τ).loc main_arg4) (ix1 f)) t d := by
  -- the three weight matrices at the first region's entry, as whole arrays
  have sg : (V13 (F := Ideal) m ρ c main_v12 : A2 8192 2048)
      = arr2 (wQuant direct (m ((c : Thread nD τ).loc main_arg1))) := arr2_ext _ _ eg
  have su : (V13 (F := Ideal) m ρ c main_v24 : A2 8192 2048)
      = arr2 (wQuant direct (m ((c : Thread nD τ).loc main_arg2))) := arr2_ext _ _ eu
  have sd : (V13 (F := Ideal) m ρ c main_v36 : A2 2048 8192)
      = arr2 (wQuant direct (m ((c : Thread nD τ).loc main_arg3))) := arr2_ext _ _ ed
  -- region 0 writes the quantized tokens and carries the other arrays through
  have a38 := after_region0 m ρ r0 c _ et
  have a12 : (V14 (F := Ideal) m ρ c main_v12 : A2 8192 2048) = _ :=
    (W14_of_ne (F := Ideal) m ρ c main_v12 (by decide)).trans sg
  have a24 : (V14 (F := Ideal) m ρ c main_v24 : A2 8192 2048) = _ :=
    (W14_of_ne (F := Ideal) m ρ c main_v24 (by decide)).trans su
  have a36 : (V14 (F := Ideal) m ρ c main_v36 : A2 2048 8192) = _ :=
    (W14_of_ne (F := Ideal) m ρ c main_v36 (by decide)).trans sd
  have a37 : ∀ f : Fin 8192, (V14 (F := Ideal) m ρ c main_v37 : A2 1 8192) (ix2 0 f)
      = m ((c : Thread nD τ).loc main_arg4) (ix1 f) := fun f =>
    (congrFun (W14_of_ne (F := Ideal) m ρ c main_v37 (by decide)) (ix2 0 f)).trans (el f)
  -- region 1 writes the gated combination
  have b39 := after_region1 m ρ r1 c _ _ _ a38 a12 a24
  have b36 : (V15 (F := Ideal) m ρ c main_v36 : A2 2048 8192) = _ :=
    (W15_of_ne (F := Ideal) m ρ c main_v36 (by decide)).trans a36
  have b37 : (fun f : Fin 8192 => (V15 (F := Ideal) m ρ c main_v37 : A2 1 8192) (ix2 0 f))
      = fun f => m ((c : Thread nD τ).loc main_arg4) (ix1 f) := funext fun f =>
    (congrFun (W15_of_ne (F := Ideal) m ρ c main_v37 (by decide)) (ix2 0 f)).trans (a37 f)
  -- region 2 writes the quantization of the normalized rows
  have c40 := after_region2 m ρ r2 c _ _ b39 b37
  have c36 : (V16 (F := Ideal) m ρ c main_v36 : A2 2048 8192) = _ :=
    (W16_of_ne (F := Ideal) m ρ c main_v36 (by decide)).trans b36
  -- region 3 writes the product with the down matrix
  have out := after_region3 m ρ r3 c _ _ c40 c36
  exact (congrFun out (ix2 t d)).trans (arr2_ix2 _ t d)

end Chain

end Cert.KernelIdeal.Val

end
-- ==== Proof.KChain.lean ====
/-
  The kernel program's output, as the specification's whole computation.

  The four regions' closed forms and the five facts about the first region's entry, put into the composition: the
  array the last region leaves holds, at token t and column d, the whole computation of the specification applied to
  the inputs as launched, with each quantized value used as it is.
-/
import proofs.«122326_j3453153706638_2_alg».proof.Proof.Region0
import proofs.«122326_j3453153706638_2_alg».proof.Proof.Region1
import proofs.«122326_j3453153706638_2_alg».proof.Proof.Region2
import proofs.«122326_j3453153706638_2_alg».proof.Proof.Region3
import proofs.«122326_j3453153706638_2_alg».proof.Proof.KHost
import proofs.«122326_j3453153706638_2_alg».proof.Proof.KChainCore

noncomputable section

namespace Cert.KernelIdeal.Val

open Cert.KernelIdeal Cert.KernelIdeal.Gen Cert.Spec Idealize.ShloMosaic Idealize.ShloMosaic.TcCoe Idealize.ShloMosaic.ValueIdx Idealize.SL.Sem

variable (m : (ℓ : Loc nD τ sig) → Buf (Elt Ideal) ℓ) (ρ : Dev nD → PrngReg)

/-- After the four regions, the last one's output array holds the whole computation at every token and column. -/
theorem kernel_out (c : Dev nD) (t : Fin 3072) (d : Fin 2048) :
    (W17 (F := Ideal) m ρ c (Proc.devRef .tc main_v41) : A2 3072 2048) (ix2 t d)
      = pipeline direct (flat (m ((c : Thread nD τ).loc main_arg0))) (m ((c : Thread nD τ).loc main_arg1))
          (m ((c : Thread nD τ).loc main_arg2)) (m ((c : Thread nD τ).loc main_arg3))
          (fun f => m ((c : Thread nD τ).loc main_arg4) (ix1 f)) t d :=
  kernel_out_of m ρ region0_final region1_final region2_final region3_final c (entry_tokens m ρ c)
    (entry_gate m ρ c) (entry_up m ρ c) (entry_down m ρ c) (entry_lnw m ρ c) t d

end Cert.KernelIdeal.Val

end
-- ==== Proof.RefQuant.lean ====
/-
  The reference program's five quantization stages, each read at one index.

  The reference quantizes a number a at a scale s as a + (q - a), where q is a · s rounded to the nearest integer
  (ties to even), clipped between two integer bounds and divided by s again. For a row of activations the scale is
  127 over the larger of the row's largest magnitude and a small threshold, and the bounds are -128 and 127; for a
  weight matrix the scale is one over the larger of the matrix's mean magnitude and the same threshold, and the
  bounds are -1 and 1. The bounds reach the program as 32-bit integers converted to reals. Each of the five stages
  (the tokens, quantized twice, and the three weight matrices) is shown here to be the specification's quantization
  with the quantized value re-entering through the difference.
-/
import proofs.«122326_j3453153706638_2_alg».proof.Proof.Spec
import proofs.«122326_j3453153706638_2_alg».proof.Proof.Consts
import proofs.«122326_j3453153706638_2_alg».proof.Proof.LibRowReduce
import proofs.«122326_j3453153706638_2_alg».proof.Proof.RefReadPatched

noncomputable section

open scoped BigOperators

namespace Cert.ReferenceIdeal.RefVal

open Cert.ReferenceIdeal Cert.ReferenceIdeal.Gen Cert.ReferenceIdeal.ReadP Cert.Spec Idealize.ShloMosaic Idealize.ShloMosaic.ValueIdx

/-- A signed integer word converted to a real is that integer. -/
theorem sitofp_def {w : Nat} (b : BitVec w) : FloatOps.sitofp (F := Ideal) .f32 b = ((b.toInt : ℝ) : EReal) := rfl

/-- Magnitude as the programs compute it is the specification's. -/
theorem absf_def (x : EReal) : FloatOps.absf (F := Ideal) (φ := .f32) x = absE x := rfl

/-! ### The weight matrices -/

/-- The scale of the gate matrix: one over the larger of the threshold and the mean magnitude. -/
theorem ref_wg_scale (x1 : A2 8192 2048) (j : S_.Idx) : val_main_v18 (F := Ideal) x1 j = wScale x1 := by
  rw [val_main_v18_apply, val_main_v17_apply, val_main_v16_apply, val_main_v15_apply]
  simp only [val_main_cst_6_apply, val_main_call3_v0_apply, val_main_cst_5_apply, val_main_cst_4_apply,
    val_main_cst_3_apply, val_main_v14_apply, Ideal.hostDivf_def, Ideal.maximumf_def, Ideal.ofBits_def,
    Ideal.hostAbsf_def, absf_def]
  rw [Ideal.ofBits_zero_f32, zero_add, max_comm]
  rfl

/-- The gate matrix, quantized to -1, 0, 1 at its scale. -/
theorem ref_wg (x1 : A2 8192 2048) (f : Fin 8192) (d : Fin 2048) :
    val_main_v26 (F := Ideal) x1 (ix2 f d) = wQuant through x1 f d := by
  simp only [val_main_v26_apply, val_main_v25_apply, val_main_v24_apply, val_main_v22_apply, val_main_call5_v4_apply,
    val_main_call5_v3_apply, val_main_c_8_apply, val_main_call5_v2_apply, val_main_call5_v1_apply,
    val_main_call5_v0_apply, val_main_c_7_apply, val_main_v21_apply, val_main_v20_apply, val_main_v19_apply,
    val_main_v23_apply, ref_wg_scale, Ideal.addf_def, Ideal.subf_def, Ideal.hostDivf_def, Ideal.minimumf_def,
    Ideal.maximumf_def, Ideal.hostUnary_roundeven_def, Ideal.mulf_def, sitofp_def, toInt_1, toInt_neg1]
  rfl

/-- The scale of the up matrix: one over the larger of the threshold and the mean magnitude. -/
theorem ref_wu_scale (x2 : A2 8192 2048) (j : S_.Idx) : val_main_v47 (F := Ideal) x2 j = wScale x2 := by
  rw [val_main_v47_apply, val_main_v46_apply, val_main_v45_apply, val_main_v44_apply]
  simp only [val_main_cst_17_apply, val_main_call10_v0_apply, val_main_cst_16_apply, val_main_cst_15_apply,
    val_main_cst_14_apply, val_main_v43_apply, Ideal.hostDivf_def, Ideal.maximumf_def, Ideal.ofBits_def,
    Ideal.hostAbsf_def, absf_def]
  rw [Ideal.ofBits_zero_f32, zero_add, max_comm]
  rfl

/-- The up matrix, quantized to -1, 0, 1 at its scale. -/
theorem ref_wu (x2 : A2 8192 2048) (f : Fin 8192) (d : Fin 2048) :
    val_main_v55 (F := Ideal) x2 (ix2 f d) = wQuant through x2 f d := by
  simp only [val_main_v55_apply, val_main_v54_apply, val_main_v53_apply, val_main_v51_apply, val_main_call12_v4_apply,
    val_main_call12_v3_apply, val_main_c_19_apply, val_main_call12_v2_apply, val_main_call12_v1_apply,
    val_main_call12_v0_apply, val_main_c_18_apply, val_main_v50_apply, val_main_v49_apply, val_main_v48_apply,
    val_main_v52_apply, ref_wu_scale, Ideal.addf_def, Ideal.subf_def, Ideal.hostDivf_def, Ideal.minimumf_def,
    Ideal.maximumf_def, Ideal.hostUnary_roundeven_def, Ideal.mulf_def, sitofp_def, toInt_1, toInt_neg1]
  rfl

/-- The scale of the down matrix: one over the larger of the threshold and the mean magnitude. -/
theorem ref_wd_scale (x3 : A2 2048 8192) (j : S_.Idx) : val_main_v89 (F := Ideal) x3 j = wScale x3 := by
  rw [val_main_v89_apply, val_main_v88_apply, val_main_v87_apply, val_main_v86_apply]
  simp only [val_main_cst_31_apply, val_main_call16_v0_apply, val_main_cst_30_apply, val_main_cst_29_apply,
    val_main_cst_28_apply, val_main_v85_apply, Ideal.hostDivf_def, Ideal.maximumf_def, Ideal.ofBits_def,
    Ideal.hostAbsf_def, absf_def]
  rw [Ideal.ofBits_zero_f32, zero_add, max_comm]
  rfl

/-- The down matrix, quantized to -1, 0, 1 at its scale. -/
theorem ref_wd (x3 : A2 2048 8192) (d : Fin 2048) (f : Fin 8192) :
    val_main_v97 (F := Ideal) x3 (ix2 d f) = wQuant through x3 d f := by
  simp only [val_main_v97_apply, val_main_v96_apply, val_main_v95_apply, val_main_v93_apply, val_main_call18_v4_apply,
    val_main_call18_v3_apply, val_main_c_33_apply, val_main_call18_v2_apply, val_main_call18_v1_apply,
    val_main_call18_v0_apply, val_main_c_32_apply, val_main_v92_apply, val_main_v91_apply, val_main_v90_apply,
    val_main_v94_apply, ref_wd_scale, Ideal.addf_def, Ideal.subf_def, Ideal.hostDivf_def, Ideal.minimumf_def,
    Ideal.maximumf_def, Ideal.hostUnary_roundeven_def, Ideal.mulf_def, sitofp_def, toInt_1, toInt_neg1]
  rfl

/-! ### The tokens -/

/-- A host's reduction fact over the last of four axes is also a kernel's (the result has an axis). -/
theorem reduces4_of_reducesTo {A B C D : Nat} (h' : (⟨4, ![A, B, C, D]⟩ : Shape).ReducesTo [3] ⟨3, ![A, B, C]⟩) :
    (⟨4, ![A, B, C, D]⟩ : Shape).Reduces [3] ⟨3, ![A, B, C]⟩ := by
  obtain ⟨h1, h2⟩ := h'
  exact ⟨h1, Nat.succ_pos 2, h2⟩

/-- The index over (a, b, c) with d inserted on the last axis is (a, b, c, d). -/
theorem lift_ix3 {A B C D : Nat} (h : (⟨4, ![A, B, C, D]⟩ : Shape).Reduces [3] ⟨3, ![A, B, C]⟩) (a : Fin A) (b : Fin B)
    (c : Fin C) (d : Fin D) : h.lift (ix3 a b c) d = ix4 a b c d := by
  funext e
  match e with
  | ⟨0, _⟩ => rfl
  | ⟨1, _⟩ => rfl
  | ⟨2, _⟩ => rfl
  | ⟨3, _⟩ => rfl

/-- The host's maximum over the last axis of a rank-4 array from the scalar v, read at (a, b, c), is the maximum of v
    and the supremum of x (a, b, c, d) over d. -/
theorem hostReduce_maximumf_last4 {A B C D : Nat} (x : (⟨4, ![A, B, C, D]⟩ : Shape).Idx → EReal)
    (v : (⟨0, ![]⟩ : Shape).Idx → EReal) (h' : (⟨4, ![A, B, C, D]⟩ : Shape).ReducesTo [3] ⟨3, ![A, B, C]⟩)
    (hu : 0 < (⟨0, ![]⟩ : Shape).numel) (a : Fin A) (b : Fin B) (c : Fin C) :
    Host.reduce (FloatOps.maximumf (F := Ideal) (φ := .f32)) x v h' hu (ix3 a b c)
      = max (v ix0) (Finset.univ.sup fun d : Fin D => x (ix4 a b c d)) := by
  have h := reduces4_of_reducesTo h'
  refine (Host.reduce_eq_fold_single (FloatOps.maximumf (F := Ideal) (φ := .f32)) x v h' h hu (ix3 a b c)).trans ?_
  refine (Cert.LibRowReduce.fold_max_eq_max_sup _ _ _).trans ?_
  rw [eq_ix0 (Shape.Idx.first hu)]
  exact congrArg (fun f => max (v ix0) (Finset.univ.sup f)) (funext fun d : Fin D => congrArg x (lift_ix3 h a b c d))

/-- The largest magnitude in token (b, c, h)'s row: the maximum from minus infinity over the last axis. -/
theorem ref_x_amax (x0 : A4 8 3 128 2048) (b : Fin 8) (c : Fin 3) (h : Fin 128) :
    val_main_v1 (F := Ideal) x0 (ix3 b c h) = Finset.univ.sup fun d : Fin 2048 => absE (x0 (ix4 b c h d)) := by
  unfold val_main_v1
  refine (hostReduce_maximumf_last4 _ _ _ _ b c h).trans ?_
  simp only [val_main_cst_apply, val_main_v0_apply, Ideal.ofBits_def, ofBits_ninf, Ideal.hostAbsf_def, absf_def,
    max_bot_left]

/-- The scale of token (b, c, h): 127 over the larger of the threshold and the row's largest magnitude. -/
theorem ref_x_scale (x0 : A4 8 3 128 2048) (b : Fin 8) (c : Fin 3) (h : Fin 128) :
    val_main_v5 (F := Ideal) x0 (ix4 b c h (⟨0, Nat.one_pos⟩ : Fin 1)) = actScale (fun d : Fin 2048 => x0 (ix4 b c h d)) := by
  have e2 : idx_main_v2 (ix4 b c h (⟨0, Nat.one_pos⟩ : Fin 1)) = ix3 b c h :=
    funext fun a => Fin.ext (by match a with | ⟨0, _⟩ => rfl | ⟨1, _⟩ => rfl | ⟨2, _⟩ => rfl)
  rw [val_main_v5_apply, val_main_v4_apply, val_main_cst_1_apply, val_main_v3_apply, val_main_call0_v1_apply,
    val_main_call0_v0_apply, val_main_cst_0_apply, val_main_v2_apply, e2, ref_x_amax]
  simp only [Ideal.hostDivf_def, Ideal.maximumf_def, Ideal.ofBits_def]
  rw [max_comm]
  rfl

/-- Token (b, c, h)'s entry d: quantized to the integers from -128 to 127 at the token's scale. -/
theorem ref_xq (x0 : A4 8 3 128 2048) (b : Fin 8) (c : Fin 3) (h : Fin 128) (d : Fin 2048) :
    val_main_v13 (F := Ideal) x0 (ix4 b c h d) = rowQuant through (flat x0) (tok b c h) d := by
  have e6 : idx_main_v6 (ix4 b c h d) = ix4 b c h (⟨0, Nat.one_pos⟩ : Fin 1) :=
    funext fun a => Fin.ext (by match a with | ⟨0, _⟩ => rfl | ⟨1, _⟩ => rfl | ⟨2, _⟩ => rfl | ⟨3, _⟩ => rfl)
  have e10 : idx_main_v10 (ix4 b c h d) = ix4 b c h (⟨0, Nat.one_pos⟩ : Fin 1) :=
    funext fun a => Fin.ext (by match a with | ⟨0, _⟩ => rfl | ⟨1, _⟩ => rfl | ⟨2, _⟩ => rfl | ⟨3, _⟩ => rfl)
  unfold rowQuant actQuant
  simp only [flat_tok]
  rw [val_main_v13_apply, val_main_v12_apply, val_main_v11_apply, val_main_v9_apply, val_main_call2_v4_apply,
    val_main_call2_v3_apply, val_main_c_2_apply, val_main_call2_v2_apply, val_main_call2_v1_apply,
    val_main_call2_v0_apply, val_main_c_apply, val_main_v8_apply, val_main_v7_apply, val_main_v6_apply,
    val_main_v10_apply, e6, e10, ref_x_scale]
  simp only [Ideal.addf_def, Ideal.subf_def, Ideal.hostDivf_def, Ideal.minimumf_def, Ideal.maximumf_def,
    Ideal.hostUnary_roundeven_def, Ideal.mulf_def, sitofp_def, toInt_127, toInt_neg128]
  rfl

/-- The largest magnitude in token (b, c, h)'s row, computed a second time. -/
theorem ref_x_amax' (x0 : A4 8 3 128 2048) (b : Fin 8) (c : Fin 3) (h : Fin 128) :
    val_main_v30 (F := Ideal) x0 (ix3 b c h) = Finset.univ.sup fun d : Fin 2048 => absE (x0 (ix4 b c h d)) := by
  unfold val_main_v30
  refine (hostReduce_maximumf_last4 _ _ _ _ b c h).trans ?_
  simp only [val_main_cst_9_apply, val_main_v29_apply, Ideal.ofBits_def, ofBits_ninf, Ideal.hostAbsf_def, absf_def,
    max_bot_left]

/-- The scale of token (b, c, h), computed a second time. -/
theorem ref_x_scale' (x0 : A4 8 3 128 2048) (b : Fin 8) (c : Fin 3) (h : Fin 128) :
    val_main_v34 (F := Ideal) x0 (ix4 b c h (⟨0, Nat.one_pos⟩ : Fin 1)) = actScale (fun d : Fin 2048 => x0 (ix4 b c h d)) := by
  have e2 : idx_main_v31 (ix4 b c h (⟨0, Nat.one_pos⟩ : Fin 1)) = ix3 b c h :=
    funext fun a => Fin.ext (by match a with | ⟨0, _⟩ => rfl | ⟨1, _⟩ => rfl | ⟨2, _⟩ => rfl)
  rw [val_main_v34_apply, val_main_v33_apply, val_main_cst_11_apply, val_main_v32_apply, val_main_call7_v1_apply,
    val_main_call7_v0_apply, val_main_cst_10_apply, val_main_v31_apply, e2, ref_x_amax']
  simp only [Ideal.hostDivf_def, Ideal.maximumf_def, Ideal.ofBits_def]
  rw [max_comm]
  rfl

/-- Token (b, c, h)'s entry d, quantized a second time: quantized to the integers from -128 to 127 at the token's scale. -/
theorem ref_xq' (x0 : A4 8 3 128 2048) (b : Fin 8) (c : Fin 3) (h : Fin 128) (d : Fin 2048) :
    val_main_v42 (F := Ideal) x0 (ix4 b c h d) = rowQuant through (flat x0) (tok b c h) d := by
  have e6 : idx_main_v35 (ix4 b c h d) = ix4 b c h (⟨0, Nat.one_pos⟩ : Fin 1) :=
    funext fun a => Fin.ext (by match a with | ⟨0, _⟩ => rfl | ⟨1, _⟩ => rfl | ⟨2, _⟩ => rfl | ⟨3, _⟩ => rfl)
  have e10 : idx_main_v39 (ix4 b c h d) = ix4 b c h (⟨0, Nat.one_pos⟩ : Fin 1) :=
    funext fun a => Fin.ext (by match a with | ⟨0, _⟩ => rfl | ⟨1, _⟩ => rfl | ⟨2, _⟩ => rfl | ⟨3, _⟩ => rfl)
  unfold rowQuant actQuant
  simp only [flat_tok]
  rw [val_main_v42_apply, val_main_v41_apply, val_main_v40_apply, val_main_v38_apply, val_main_call9_v4_apply,
    val_main_call9_v3_apply, val_main_c_13_apply, val_main_call9_v2_apply, val_main_call9_v1_apply,
    val_main_call9_v0_apply, val_main_c_12_apply, val_main_v37_apply, val_main_v36_apply, val_main_v35_apply,
    val_main_v39_apply, e6, e10, ref_x_scale']
  simp only [Ideal.addf_def, Ideal.subf_def, Ideal.hostDivf_def, Ideal.minimumf_def, Ideal.maximumf_def,
    Ideal.hostUnary_roundeven_def, Ideal.mulf_def, sitofp_def, toInt_127, toInt_neg128]
  rfl

end Cert.ReferenceIdeal.RefVal

end
-- ==== Proof.RefChain.lean ====
/-
  The reference program from its quantized inputs to the down projection, each stage read at one index.

  Token (b, c, h) is a row of 2048 numbers; the program keeps the tokens as a rank-4 array [8, 3, 128, ·] and the
  specification as a matrix of 3072 rows, row (b·3 + c)·128 + h. With the five quantized inputs already identified
  (the tokens, quantized twice by the program, and the three weight matrices), the remaining operations are:

  * two products contracting the last axis of both factors: the gate g and the up projection u of the quantized tokens;
  * the hidden activations g · (1 / (1 + exp (-g))) · u, whose middle factor is the logistic function of g;
  * the normalization of each hidden row: the sum of its squares (from zero) divided by 8192, plus a small number,
    under a reciprocal root, times the row, times a weight vector broadcast along the three token axes;
  * the eight-bit quantization of each normalized row: the row's largest magnitude is a maximum from minus infinity
    over the last axis, the scale is 127 over the larger of that and a threshold, and an entry a re-enters as
    a + (q - a) with q the entry scaled, rounded, clipped to the integers from -128 to 127 and divided back;
  * the product of the quantized rows with the quantized down matrix, again contracting the last axis of both.

  Each stage is stated at an index (b, c, h, ·) of the program's array and at row `tok b c h` of the specification's;
  a stage's operand in the specification is the matrix `arr2 F` of the previous stage `F`, read back by
  `arr2 F (ix2 t k) = F t k`. The last theorem is the specification's whole pipeline.
-/
import proofs.«122326_j3453153706638_2_alg».proof.Proof.Spec
import proofs.«122326_j3453153706638_2_alg».proof.Proof.RefReadPatched
import proofs.«122326_j3453153706638_2_alg».proof.Proof.Consts
import proofs.«122326_j3453153706638_2_alg».proof.Proof.RefQuant

noncomputable section

open scoped BigOperators

namespace Cert.ReferenceIdeal.RefVal

open Cert.ReferenceIdeal Cert.ReferenceIdeal.ReadP Cert.Spec Idealize.ShloMosaic Idealize.ShloMosaic.ValueIdx

/-! ### Two spellings used below -/

namespace Chain

/-- A sum whose terms are the products of a row of `a` with a row of `w` is their product contracting the last axis. -/
theorem sum_eq_dotT {T K N : Nat} (a : A2 T K) (w : A2 N K) (t : Fin T) (n : Fin N) (g : Fin K → EReal)
    (hg : ∀ k, g k = a (ix2 t k) * w (ix2 n k)) : ∑ k, g k = dotT a w t n :=
  Finset.sum_congr rfl fun k _ => hg k

/-- A row's entry quantized with the quantized value re-entering as a + (q - a), spelt out: a is the entry, q the
    entry scaled by the row's scale, rounded, clipped to the integers from -128 to 127 and divided back. -/
theorem rowQuant_through_apply {T n : Nat} (a : A2 T n) (t : Fin T) (j : Fin n) :
    rowQuant through a t j
      = a (ix2 t j) + (Ideal.div (min ((127 : ℝ) : EReal) (max ((-128 : ℝ) : EReal)
          (Ideal.liftRound Ideal.roundHalfEven (a (ix2 t j) * actScale fun j' => a (ix2 t j')))))
          (actScale fun j' => a (ix2 t j')) - a (ix2 t j)) := rfl

end Chain

/-! ### The stages -/

/-- The gate projection: the quantized tokens against the quantized gate matrix, contracting the last axis of both. -/
theorem ref_gate (x0 : A4 8 3 128 2048) (x1 : A2 8192 2048) (b : Fin 8) (c : Fin 3) (h : Fin 128) (f : Fin 8192) :
    val_main_v27 (F := Ideal) x0 x1 (ix4 b c h f) = dotT (arr2 (rowQuant through (flat x0))) (arr2 (wQuant through x1)) (tok b c h) f := by
  rw [val_main_v27_apply]
  refine Chain.sum_eq_dotT _ _ _ _ _ fun k => ?_
  have el : lidx_main_v27 (ix4 b c h f) k = ix4 b c h k := funext fun a => Fin.ext (by match a with | ⟨0, _⟩ => rfl | ⟨1, _⟩ => rfl | ⟨2, _⟩ => rfl | ⟨3, _⟩ => rfl)
  have er : ridx_main_v27 (ix4 b c h f) k = ix2 f k := funext fun a => Fin.ext (by match a with | ⟨0, _⟩ => rfl | ⟨1, _⟩ => rfl)
  beta_reduce
  rw [el, er, ref_xq, ref_wg, arr2_ix2, arr2_ix2]

/-- The up projection: the same tokens, quantized by the program a second time, against the quantized up matrix. -/
theorem ref_up (x0 : A4 8 3 128 2048) (x2 : A2 8192 2048) (b : Fin 8) (c : Fin 3) (h : Fin 128) (f : Fin 8192) :
    val_main_v56 (F := Ideal) x0 x2 (ix4 b c h f) = dotT (arr2 (rowQuant through (flat x0))) (arr2 (wQuant through x2)) (tok b c h) f := by
  rw [val_main_v56_apply]
  refine Chain.sum_eq_dotT _ _ _ _ _ fun k => ?_
  have el : lidx_main_v56 (ix4 b c h f) k = ix4 b c h k := funext fun a => Fin.ext (by match a with | ⟨0, _⟩ => rfl | ⟨1, _⟩ => rfl | ⟨2, _⟩ => rfl | ⟨3, _⟩ => rfl)
  have er : ridx_main_v56 (ix4 b c h f) k = ix2 f k := funext fun a => Fin.ext (by match a with | ⟨0, _⟩ => rfl | ⟨1, _⟩ => rfl)
  beta_reduce
  rw [el, er, ref_xq', ref_wu, arr2_ix2, arr2_ix2]

/-- The hidden activations: g · (1 / (1 + exp (-g))) · u, the middle factor being the logistic function of g. -/
theorem ref_hidden (x0 : A4 8 3 128 2048) (x1 x2 : A2 8192 2048) (b : Fin 8) (c : Fin 3) (h : Fin 128) (f : Fin 8192) :
    val_main_v57 (F := Ideal) x0 x1 x2 (ix4 b c h f) = swiglu (arr2 (rowQuant through (flat x0))) (arr2 (wQuant through x1)) (arr2 (wQuant through x2)) (tok b c h) f := by
  rw [val_main_v57_apply, val_main_v28_apply, val_main_call6_v5_apply, val_main_call6_v4_apply, val_main_call6_cst_0_apply,
    val_main_call6_v3_apply, val_main_call6_v2_apply, val_main_call6_cst_apply, val_main_call6_v1_apply,
    val_main_call6_v0_apply, ref_gate, ref_up]
  simp only [Ideal.mulf_def, Ideal.hostDivf_def, Ideal.addf_def, Ideal.hostUnary_exp_def, Ideal.hostNegf_def,
    Ideal.negf_def, Ideal.ofBits_def]
  rw [show Ideal.ofBits .f32 0x3F800000#32 = (1 : EReal) from w1_eq]
  unfold swiglu Ideal.logistic
  rfl

/-- One over the root mean square of a row of hidden activations: the sum of the squares over the row, from zero,
    divided by 8192, plus the small number, under the reciprocal root. -/
theorem ref_hidden_rmsInv (x0 : A4 8 3 128 2048) (x1 x2 : A2 8192 2048) (b : Fin 8) (c : Fin 3) (h : Fin 128) (z : Fin 1) :
    val_main_v65 (F := Ideal) x0 x1 x2 (ix4 b c h z) = rmsInv (arr2 (swiglu (arr2 (rowQuant through (flat x0))) (arr2 (wQuant through x1)) (arr2 (wQuant through x2)))) (tok b c h) := by
  rw [val_main_v65_apply, val_main_v64_apply, val_main_v62_apply, val_main_v60_apply, val_main_v59_apply,
    val_main_v61_apply, val_main_cst_21_apply, val_main_v63_apply, val_main_cst_22_apply, val_main_cst_20_apply]
  have e : idx_main_v60 (ix4 b c h z) = ix3 b c h := funext fun a => Fin.ext (by match a with | ⟨0, _⟩ => rfl | ⟨1, _⟩ => rfl | ⟨2, _⟩ => rfl)
  rw [e]
  have hs : ∑ k : Fin 8192, val_main_v58 (F := Ideal) x0 x1 x2 (idx_main_v59 (ix3 b c h) k)
      = ∑ f' : Fin 8192, (arr2 (swiglu (arr2 (rowQuant through (flat x0))) (arr2 (wQuant through x1)) (arr2 (wQuant through x2)))) (ix2 (tok b c h) f') * (arr2 (swiglu (arr2 (rowQuant through (flat x0))) (arr2 (wQuant through x1)) (arr2 (wQuant through x2)))) (ix2 (tok b c h) f') :=
    Finset.sum_congr rfl fun k _ => by
      rw [show idx_main_v59 (ix3 b c h) k = ix4 b c h k from funext fun a => Fin.ext (by match a with | ⟨0, _⟩ => rfl | ⟨1, _⟩ => rfl | ⟨2, _⟩ => rfl | ⟨3, _⟩ => rfl), val_main_v58_apply, ref_hidden, arr2_ix2]
      rfl
  rw [hs]
  simp only [Ideal.hostUnary_rsqrt_def, Ideal.addf_def, Ideal.hostDivf_def, Ideal.ofBits_def]
  rw [Ideal.ofBits_zero_f32, zero_add]
  rfl

/-- The normalized activations: the hidden row times one over its root mean square times the weight vector, the
    vector broadcast along the three token axes. -/
theorem ref_normalized (x0 : A4 8 3 128 2048) (x1 x2 : A2 8192 2048) (x4 : A1 8192) (b : Fin 8) (c : Fin 3) (h : Fin 128)
    (f : Fin 8192) :
    val_main_v70 (F := Ideal) x0 x1 x2 x4 (ix4 b c h f) = normed (arr2 (swiglu (arr2 (rowQuant through (flat x0))) (arr2 (wQuant through x1)) (arr2 (wQuant through x2)))) (fun f' => x4 (ix1 f')) (tok b c h) f := by
  rw [val_main_v70_apply, val_main_v67_apply, val_main_v66_apply, val_main_v69_apply, val_main_v68_apply, ref_hidden]
  have e1 : idx_main_v66 (ix4 b c h f) = ix4 b c h (0 : Fin 1) := funext fun a => Fin.ext (by match a with | ⟨0, _⟩ => rfl | ⟨1, _⟩ => rfl | ⟨2, _⟩ => rfl | ⟨3, _⟩ => rfl)
  have e2 : idx_main_v68 (idx_main_v69 (ix4 b c h f)) = ix1 f := funext fun a => Fin.ext (by match a with | ⟨0, _⟩ => rfl)
  rw [e1, e2, ref_hidden_rmsInv]
  simp only [Ideal.mulf_def]
  unfold normed
  rw [arr2_ix2]

/-- The largest magnitude of a row of normalized activations: the maximum from minus infinity over the row. -/
theorem ref_normalized_rowMax (x0 : A4 8 3 128 2048) (x1 x2 : A2 8192 2048) (x4 : A1 8192) (b : Fin 8) (c : Fin 3) (h : Fin 128) :
    val_main_v72 (F := Ideal) x0 x1 x2 x4 (ix3 b c h)
      = Finset.univ.sup fun f' : Fin 8192 => absE ((arr2 (normed (arr2 (swiglu (arr2 (rowQuant through (flat x0))) (arr2 (wQuant through x1)) (arr2 (wQuant through x2)))) (fun f' => x4 (ix1 f')))) (ix2 (tok b c h) f')) := by
  unfold val_main_v72
  refine (hostReduce_maximumf_last4 (val_main_v71 (F := Ideal) x0 x1 x2 x4) (val_main_cst_23 (F := Ideal)) _ _ b c h).trans ?_
  rw [val_main_cst_23_apply, Ideal.ofBits_def, ofBits_ninf, max_bot_left]
  refine congrArg Finset.univ.sup (funext fun f' => ?_)
  rw [val_main_v71_apply, ref_normalized, arr2_ix2]
  rfl

/-- The scale of a row of normalized activations: 127 over the row's largest magnitude, the divisor never below the
    threshold. -/
theorem ref_normalized_actScale (x0 : A4 8 3 128 2048) (x1 x2 : A2 8192 2048) (x4 : A1 8192) (b : Fin 8) (c : Fin 3) (h : Fin 128)
    (z : Fin 1) :
    val_main_v76 (F := Ideal) x0 x1 x2 x4 (ix4 b c h z) = actScale (fun f' => (arr2 (normed (arr2 (swiglu (arr2 (rowQuant through (flat x0))) (arr2 (wQuant through x1)) (arr2 (wQuant through x2)))) (fun f' => x4 (ix1 f')))) (ix2 (tok b c h) f')) := by
  rw [val_main_v76_apply, val_main_v75_apply, val_main_cst_25_apply, val_main_v74_apply, val_main_call13_v1_apply,
    val_main_call13_v0_apply, val_main_cst_24_apply, val_main_v73_apply]
  have e : idx_main_v73 (ix4 b c h z) = ix3 b c h := funext fun a => Fin.ext (by match a with | ⟨0, _⟩ => rfl | ⟨1, _⟩ => rfl | ⟨2, _⟩ => rfl)
  rw [e, ref_normalized_rowMax]
  simp only [Ideal.hostDivf_def, Ideal.maximumf_def, Ideal.ofBits_def]
  rw [max_comm]
  rfl

/-- The normalized activations quantized row by row, the quantized value re-entering as a + (q - a). -/
theorem ref_quantized (x0 : A4 8 3 128 2048) (x1 x2 : A2 8192 2048) (x4 : A1 8192) (b : Fin 8) (c : Fin 3) (h : Fin 128)
    (f : Fin 8192) :
    val_main_v84 (F := Ideal) x0 x1 x2 x4 (ix4 b c h f) = rowQuant through (arr2 (normed (arr2 (swiglu (arr2 (rowQuant through (flat x0))) (arr2 (wQuant through x1)) (arr2 (wQuant through x2)))) (fun f' => x4 (ix1 f')))) (tok b c h) f := by
  rw [val_main_v84_apply, val_main_v83_apply, val_main_v82_apply, val_main_v81_apply, val_main_v80_apply,
    val_main_call15_v4_apply, val_main_call15_v3_apply, val_main_c_27_apply, val_main_call15_v2_apply,
    val_main_call15_v1_apply, val_main_call15_v0_apply, val_main_c_26_apply, val_main_v79_apply, val_main_v78_apply,
    val_main_v77_apply]
  have e1 : idx_main_v81 (ix4 b c h f) = ix4 b c h (0 : Fin 1) := funext fun a => Fin.ext (by match a with | ⟨0, _⟩ => rfl | ⟨1, _⟩ => rfl | ⟨2, _⟩ => rfl | ⟨3, _⟩ => rfl)
  have e2 : idx_main_v77 (ix4 b c h f) = ix4 b c h (0 : Fin 1) := funext fun a => Fin.ext (by match a with | ⟨0, _⟩ => rfl | ⟨1, _⟩ => rfl | ⟨2, _⟩ => rfl | ⟨3, _⟩ => rfl)
  rw [e1, e2, ref_normalized_actScale, ref_normalized, sitofp_def, sitofp_def, toInt_127, toInt_neg128]
  simp only [Ideal.addf_def, Ideal.subf_def, Ideal.hostDivf_def, Ideal.minimumf_def, Ideal.maximumf_def,
    Ideal.hostUnary_roundeven_def, Ideal.mulf_def]
  rw [Chain.rowQuant_through_apply, arr2_ix2]

/-- The down projection of the quantized normalized activations against the quantized down matrix: the whole
    computation up to the pooling. -/
theorem ref_pipeline (x0 : A4 8 3 128 2048) (x1 x2 : A2 8192 2048) (x3 : A2 2048 8192) (x4 : A1 8192) (b : Fin 8)
    (c : Fin 3) (h : Fin 128) (d : Fin 2048) :
    val_main_v98 (F := Ideal) x0 x1 x2 x3 x4 (ix4 b c h d)
      = pipeline through (flat x0) x1 x2 x3 (fun f => x4 (ix1 f)) (tok b c h) d := by
  rw [val_main_v98_apply]
  unfold pipeline
  refine Chain.sum_eq_dotT _ _ _ _ _ fun k => ?_
  have el : lidx_main_v98 (ix4 b c h d) k = ix4 b c h k := funext fun a => Fin.ext (by match a with | ⟨0, _⟩ => rfl | ⟨1, _⟩ => rfl | ⟨2, _⟩ => rfl | ⟨3, _⟩ => rfl)
  have er : ridx_main_v98 (ix4 b c h d) k = ix2 d k := funext fun a => Fin.ext (by match a with | ⟨0, _⟩ => rfl | ⟨1, _⟩ => rfl)
  beta_reduce
  rw [el, er, ref_quantized, ref_wd, arr2_ix2, arr2_ix2]

end Cert.ReferenceIdeal.RefVal

end
-- ==== Proof.Math.lean ====
/-
  Realness carried through every stage of the computation, and the one law that joins the two programs.

  The two programs differ only in how a quantized value q of a number a re-enters: as q, or as a + (q - a). On the
  extended reals these differ only when a or q is infinite (the difference is then not cancelled); on ordinary reals
  a + (q - a) = q. So it is enough to see that every number that is ever quantized, and every quantized value, is an
  ordinary real, given that the inputs are.

  * A requantized value is real whatever is fed in: its numerator is clipped between two reals, and dividing by a
    nonzero real is multiplying by a real.
  * A row's scale and a matrix's scale are nonzero reals: the largest of finitely many real magnitudes (or the mean of
    them) is real or -∞, its maximum with a positive threshold is a positive real, and a real over a positive real is a
    nonzero real.
  * Finite sums and products of reals are real; the logistic function of a real is real; one over the root of a
    positive real is real, and a mean of squares plus a positive number is positive.

  With these, the first quantizations agree on real inputs; after that the normalized hidden array is the same
  array for both programs, it is real entry by entry, and so the second quantization of the rows agrees too.
-/
import Mathlib
import Idealize.ShloMosaic.PureOps.Ideal
import proofs.«122326_j3453153706638_2_alg».proof.Proof.Spec
import proofs.«122326_j3453153706638_2_alg».proof.Proof.Consts

noncomputable section

namespace Cert.Spec

open Idealize.ShloMosaic Idealize.ShloMosaic.ValueIdx

/-! ### Reals among the extended reals -/

theorem isReal_coe (r : ℝ) : IsReal (r : EReal) := ⟨r, rfl⟩

/-- An extended real that is neither infinity is a real. -/
theorem isReal_of_ne {x : EReal} (h1 : x ≠ ⊤) (h2 : x ≠ ⊥) : IsReal x :=
  ⟨x.toReal, (EReal.coe_toReal h1 h2).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

/-- The larger of two reals is one of them. -/
theorem IsReal.max {x y : EReal} (hx : IsReal x) (hy : IsReal y) : IsReal (max x y) := by
  rcases max_choice x y with h | h
  · rw [h]; exact hx
  · rw [h]; exact hy

theorem absE_isReal {x : EReal} (hx : IsReal x) : IsReal (absE x) := hx.max hx.neg

/-- A finite sum of reals is real. -/
theorem isReal_sum {ι : Type*} (s : Finset ι) (f : ι → EReal) (h : ∀ i ∈ s, IsReal (f i)) :
    IsReal (∑ i ∈ s, f i) := by
  classical
  revert h
  refine Finset.induction_on s ?_ ?_
  · intro _; exact ⟨0, by simp⟩
  · intro a s ha ih h
    rw [Finset.sum_insert ha]
    exact (h a (Finset.mem_insert_self a s)).add (ih fun i hi => h i (Finset.mem_insert_of_mem hi))

/-- On reals, a + (q - a) = q: the two ways a quantized value re-enters agree. -/
theorem through_eq_direct {a q : EReal} (ha : IsReal a) (hq : IsReal q) : through a q = direct a q := by
  obtain ⟨a, rfl⟩ := ha; obtain ⟨q, rfl⟩ := hq
  unfold through direct
  rw [← EReal.coe_sub, ← EReal.coe_add]
  congr 1; ring

/-- A way of re-entering that keeps reals real. Both ways do. -/
def StReal (st : EReal → EReal → EReal) : Prop := ∀ a q, IsReal a → IsReal q → IsReal (st a q)

theorem stReal_direct : StReal direct := fun _ _ _ hq => hq

theorem stReal_through : StReal through := fun _ _ ha hq => ha.add (hq.sub ha)

/-! ### Requantization -/

/-- A requantized value at a nonzero real scale is real, whatever is requantized: the clipped numerator lies between
    the two real bounds (below the upper one, and above the smaller of the two), and division by a nonzero real is a
    product with a real. -/
theorem requant_isReal (lo hi : ℝ) {s : EReal} (hs : ∃ r : ℝ, r ≠ 0 ∧ s = (r : EReal)) (v : EReal) :
    IsReal (requant lo hi s v) := by
  obtain ⟨r, hr, rfl⟩ := hs
  unfold requant
  rw [Ideal.div_coe hr]
  refine IsReal.mul (isReal_of_ne ?_ ?_) (isReal_coe _)
  · exact (lt_of_le_of_lt (min_le_left _ _) (EReal.coe_lt_top hi)).ne
  · exact (lt_min (EReal.bot_lt_coe hi) (lt_max_of_lt_left (EReal.bot_lt_coe lo))).ne'

/-- The maximum of something below +∞ with a positive real is a positive real. -/
theorem max_pos_real {S e : EReal} (hS : S ≠ ⊤) (he : ∃ r : ℝ, 0 < r ∧ e = (r : EReal)) :
    ∃ d : ℝ, 0 < d ∧ max S e = (d : EReal) := by
  obtain ⟨ε, hε, rfl⟩ := he
  rcases max_choice S (ε : EReal) with h | h
  · have hle : (ε : EReal) ≤ S := by
      have := le_max_right S (ε : EReal); rwa [h] at this
    have hbot : S ≠ ⊥ := (lt_of_lt_of_le (EReal.bot_lt_coe ε) hle).ne'
    have hpos : (0 : EReal) < S := lt_of_lt_of_le (EReal.coe_pos.2 hε) hle
    refine ⟨S.toReal, ?_, by rw [h, EReal.coe_toReal hS hbot]⟩
    rw [← EReal.coe_toReal hS hbot] at hpos
    exact EReal.coe_pos.1 hpos
  · exact ⟨ε, hε, h⟩

/-- The largest of finitely many reals is not +∞ (it is -∞ when there are none). -/
theorem sup_ne_top {n : Nat} (f : Fin n → EReal) (h : ∀ j, IsReal (f j)) : (Finset.univ.sup f) ≠ ⊤ := by
  have : Finset.univ.sup f < ⊤ :=
    (Finset.sup_lt_iff (bot_lt_top : (⊥ : EReal) < ⊤)).2 (fun j _ => by
      obtain ⟨r, hr⟩ := h j; rw [hr]; exact EReal.coe_lt_top r)
  exact this.ne

/-! ### The activations' scale and quantization -/

/-- A row of reals has a nonzero real scale: 127 over a positive real. -/
theorem actScale_real {n : Nat} (row : Fin n → EReal) (h : ∀ j, IsReal (row j)) :
    ∃ r : ℝ, r ≠ 0 ∧ actScale row = (r : EReal) := by
  obtain ⟨d, hd, hmax⟩ :=
    max_pos_real (sup_ne_top (fun j => absE (row j)) (fun j => absE_isReal (h j))) eps5_pos
  refine ⟨127 * (1 / d), mul_ne_zero (by norm_num) (one_div_ne_zero hd.ne'), ?_⟩
  unfold actScale
  rw [hmax, Ideal.div_coe hd.ne', w127_eq, ← EReal.coe_mul]

theorem actQuant_isReal {st : EReal → EReal → EReal} (hst : StReal st) {n : Nat} (row : Fin n → EReal)
    (h : ∀ j, IsReal (row j)) (j : Fin n) : IsReal (actQuant st row j) := by
  unfold actQuant
  exact hst _ _ (h j) (requant_isReal _ _ (actScale_real row h) _)

theorem actQuant_through_eq {n : Nat} (row : Fin n → EReal) (h : ∀ j, IsReal (row j)) (j : Fin n) :
    actQuant through row j = actQuant direct row j := by
  unfold actQuant
  exact through_eq_direct (h j) (requant_isReal _ _ (actScale_real row h) _)

theorem rowQuant_isReal {st : EReal → EReal → EReal} (hst : StReal st) {T n : Nat} (a : A2 T n)
    (h : ∀ i, IsReal (a i)) (t : Fin T) (j : Fin n) : IsReal (rowQuant st a t j) := by
  unfold rowQuant
  exact actQuant_isReal hst _ (fun j' => h _) j

theorem rowQuant_through_eq {T n : Nat} (a : A2 T n) (h : ∀ i, IsReal (a i)) (t : Fin T) (j : Fin n) :
    rowQuant through a t j = rowQuant direct a t j := by
  unfold rowQuant
  exact actQuant_through_eq _ (fun j' => h _) j

/-! ### The weights' scale and quantization -/

/-- A matrix of reals has a nonzero real scale: one over a positive real. -/
theorem wScale_real {n0 n1 : Nat} (w : A2 n0 n1) (h : ∀ i, IsReal (w i)) :
    ∃ r : ℝ, r ≠ 0 ∧ wScale w = (r : EReal) := by
  obtain ⟨σ, hσ⟩ := isReal_sum Finset.univ (fun i => absE (w i)) (fun i _ => absE_isReal (h i))
  have h24 : (16777216 : ℝ) ≠ 0 := by norm_num
  have hdiv : Ideal.div (∑ i, absE (w i)) w2p24 = ((σ * (1 / 16777216) : ℝ) : EReal) := by
    rw [hσ, w2p24_eq, Ideal.div_coe h24, ← EReal.coe_mul]
  obtain ⟨d, hd, hmax⟩ :=
    max_pos_real (S := Ideal.div (∑ i, absE (w i)) w2p24) (by rw [hdiv]; exact EReal.coe_ne_top _) eps5_pos
  refine ⟨1 * (1 / d), mul_ne_zero one_ne_zero (one_div_ne_zero hd.ne'), ?_⟩
  unfold wScale
  rw [hmax, Ideal.div_coe hd.ne', w1_eq, ← EReal.coe_one, ← EReal.coe_mul]

theorem wQuant_isReal {st : EReal → EReal → EReal} (hst : StReal st) {n0 n1 : Nat} (w : A2 n0 n1)
    (h : ∀ i, IsReal (w i)) (i : Fin n0) (j : Fin n1) : IsReal (wQuant st w i j) := by
  unfold wQuant
  exact hst _ _ (h _) (requant_isReal _ _ (wScale_real w h) _)

theorem wQuant_through_eq {n0 n1 : Nat} (w : A2 n0 n1) (h : ∀ i, IsReal (w i)) (i : Fin n0) (j : Fin n1) :
    wQuant through w i j = wQuant direct w i j := by
  unfold wQuant
  exact through_eq_direct (h _) (requant_isReal _ _ (wScale_real w h) _)

/-! ### Products, the gate, the normalization -/

theorem dotT_isReal {T K N : Nat} (a : A2 T K) (w : A2 N K) (ha : ∀ i, IsReal (a i)) (hw : ∀ i, IsReal (w i))
    (t : Fin T) (n : Fin N) : IsReal (dotT a w t n) := by
  unfold dotT
  exact isReal_sum _ _ (fun k _ => (ha _).mul (hw _))

theorem logistic_isReal {x : EReal} (h : IsReal x) : IsReal (Ideal.logistic x) := by
  obtain ⟨r, rfl⟩ := h
  exact ⟨_, Ideal.logistic_coe r⟩

theorem swiglu_isReal {T K N : Nat} (a : A2 T K) (wg wu : A2 N K) (ha : ∀ i, IsReal (a i))
    (hg : ∀ i, IsReal (wg i)) (hu : ∀ i, IsReal (wu i)) (t : Fin T) (f : Fin N) : IsReal (swiglu a wg wu t f) := by
  unfold swiglu
  exact ((dotT_isReal a wg ha hg t f).mul (logistic_isReal (dotT_isReal a wg ha hg t f))).mul
    (dotT_isReal a wu ha hu t f)

/-- One over the root of a mean of squares of reals plus a positive number: the sum of squares is a real that is not
    negative, so what is under the root is a positive real. -/
theorem rmsInv_isReal {T N : Nat} (h : A2 T N) (hh : ∀ i, IsReal (h i)) (t : Fin T) : IsReal (rmsInv h t) := by
  have hnn : (0 : EReal) ≤ ∑ f : Fin N, h (ix2 t f) * h (ix2 t f) :=
    Finset.sum_nonneg (fun f _ => by
      obtain ⟨r, hr⟩ := hh (ix2 t f)
      rw [hr, ← EReal.coe_mul]
      exact EReal.coe_nonneg.2 (mul_self_nonneg r))
  obtain ⟨σ, hσ⟩ :=
    isReal_sum Finset.univ (fun f : Fin N => h (ix2 t f) * h (ix2 t f)) (fun f _ => (hh _).mul (hh _))
  obtain ⟨ε, hε, he⟩ := eps6_pos
  have hσ0 : 0 ≤ σ := by rw [hσ] at hnn; exact EReal.coe_nonneg.1 hnn
  have h8 : (8192 : ℝ) ≠ 0 := by norm_num
  have hpos : 0 < σ * (1 / 8192) + ε := add_pos_of_nonneg_of_pos (mul_nonneg hσ0 (by norm_num)) hε
  unfold rmsInv
  rw [hσ, he, w8192_eq, Ideal.div_coe h8, ← EReal.coe_mul, ← EReal.coe_add, Ideal.rsqrt_coe,
    if_neg (not_lt.2 hpos.le), if_neg hpos.ne']
  exact isReal_coe _

theorem normed_isReal {T N : Nat} (h : A2 T N) (lnw : Fin N → EReal) (hh : ∀ i, IsReal (h i))
    (hl : ∀ f, IsReal (lnw f)) (t : Fin T) (f : Fin N) : IsReal (normed h lnw t f) := by
  unfold normed
  exact ((hh _).mul (rmsInv_isReal h hh t)).mul (hl f)

/-! ### Matrices from their entries -/

/-- Matrices with equal entries are equal. -/
theorem arr2_congr {a b : Nat} {f g : Fin a → Fin b → EReal} (h : ∀ t d, f t d = g t d) : arr2 f = arr2 g := by
  funext i
  unfold arr2
  exact h _ _

/-- A matrix with real entries is real at every index. -/
theorem arr2_isReal {a b : Nat} {f : Fin a → Fin b → EReal} (h : ∀ t d, IsReal (f t d)) (i) :
    IsReal (arr2 f i) := by
  unfold arr2
  exact h _ _

/-! ### The whole computation -/

/-- The whole computation, one way of re-entering or the other, is real on real inputs. -/
theorem pipeline_isReal {st : EReal → EReal → EReal} (hst : StReal st) (x : A2 3072 2048) (Wg Wu : A2 8192 2048)
    (Wd : A2 2048 8192) (lnw : Fin 8192 → EReal) (hx : ∀ i, IsReal (x i)) (hWg : ∀ i, IsReal (Wg i))
    (hWu : ∀ i, IsReal (Wu i)) (hWd : ∀ i, IsReal (Wd i)) (hl : ∀ f, IsReal (lnw f)) (t : Fin 3072)
    (d : Fin 2048) : IsReal (pipeline st x Wg Wu Wd lnw t d) := by
  unfold pipeline
  refine dotT_isReal _ _ (arr2_isReal (rowQuant_isReal hst _ (arr2_isReal (normed_isReal _ lnw
    (arr2_isReal (swiglu_isReal _ _ _ (arr2_isReal (rowQuant_isReal hst x hx))
      (arr2_isReal (wQuant_isReal hst Wg hWg)) (arr2_isReal (wQuant_isReal hst Wu hWu)))) hl))))
    (arr2_isReal (wQuant_isReal hst Wd hWd)) t d

/-- On real inputs the two programs compute the same thing: the first quantizations agree entry by entry, the
    normalized hidden array is then the same array and is real, so its quantization agrees as well. -/
theorem pipeline_through_eq_direct (x : A2 3072 2048) (Wg Wu : A2 8192 2048) (Wd : A2 2048 8192)
    (lnw : Fin 8192 → EReal) (hx : ∀ i, IsReal (x i)) (hWg : ∀ i, IsReal (Wg i)) (hWu : ∀ i, IsReal (Wu i))
    (hWd : ∀ i, IsReal (Wd i)) (hl : ∀ f, IsReal (lnw f)) (t : Fin 3072) (d : Fin 2048) :
    pipeline through x Wg Wu Wd lnw t d = pipeline direct x Wg Wu Wd lnw t d := by
  have ex : arr2 (rowQuant through x) = arr2 (rowQuant direct x) := arr2_congr (rowQuant_through_eq x hx)
  have eg : arr2 (wQuant through Wg) = arr2 (wQuant direct Wg) := arr2_congr (wQuant_through_eq Wg hWg)
  have eu : arr2 (wQuant through Wu) = arr2 (wQuant direct Wu) := arr2_congr (wQuant_through_eq Wu hWu)
  have ed : arr2 (wQuant through Wd) = arr2 (wQuant direct Wd) := arr2_congr (wQuant_through_eq Wd hWd)
  have hH : ∀ i, IsReal (arr2 (normed (arr2 (swiglu (arr2 (rowQuant direct x)) (arr2 (wQuant direct Wg))
      (arr2 (wQuant direct Wu)))) lnw) i) :=
    arr2_isReal (normed_isReal _ lnw
      (arr2_isReal (swiglu_isReal _ _ _ (arr2_isReal (rowQuant_isReal stReal_direct x hx))
        (arr2_isReal (wQuant_isReal stReal_direct Wg hWg)) (arr2_isReal (wQuant_isReal stReal_direct Wu hWu)))) hl)
  have eh := arr2_congr (rowQuant_through_eq _ hH)
  unfold pipeline
  rw [ex, eg, eu, ed, eh]

end Cert.Spec

end
-- ==== Proof.PreReal.lean ====
/-
  From the precondition to realness.

  The precondition says, of each of the seven input arrays, that every entry x satisfies |x| < +∞, and joins the seven
  statements by "and". Read at the one index of its result, the conjunction splits into its seven parts; a conjunction over
  all entries of an array that holds gives the comparison at every entry; and an extended real whose magnitude
  max x (-x) is below +∞ is neither +∞ (its magnitude would be +∞) nor -∞ (its negation would be +∞): it is a real.
  Only the first five arrays enter the computation whose two forms are compared, so only those five are recorded.
-/
import Idealize.ShloMosaic.Lib.ReduceAll
import Idealize.ShloMosaic.Lib.ValueIdx
import proofs.«122326_j3453153706638_2_alg».proof.Pre_finite_inputs
import proofs.«122326_j3453153706638_2_alg».proof.Proof.Consts

noncomputable section

namespace Cert.Spec

open Idealize.ShloMosaic Idealize.ShloMosaic.ValueIdx

/-- The word with sign 0, all-ones exponent and zero fraction is +∞. -/
theorem ofBits_pinf : Ideal.ofBits .f32 0x7F800000#32 = ⊤ := by
  simp [Ideal.ofBits, Ideal.ieee]

/-- An extended real whose magnitude is below +∞ is a real. -/
theorem isReal_of_abs_lt_inf (x : EReal)
    (h : Ideal.cmp .olt (max x (-x)) (Ideal.ofBits .f32 0x7F800000#32) = 1#1) : IsReal x := by
  rw [ofBits_pinf] at h
  induction x using EReal.rec with
  | bot => simp [Ideal.cmp] at h
  | top => simp [Ideal.cmp] at h
  | coe r => exact ⟨r, rfl⟩

/-- The result of a reduction over all axes has one index. -/
instance : Subsingleton Cert.Pre_finite_inputs.S_.Idx := ⟨fun _ _ => funext fun d => d.elim0⟩

/-- One array's part of the precondition: if "every entry's magnitude is below +∞" came out true, every entry is a
    real. -/
theorem reals_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a)
            (broadcastInDim s ![] hb (constant Cert.Pre_finite_inputs.S_ .f32 0x7F800000#32)))
          (constantI Cert.Pre_finite_inputs.S_ 1 1#1) hr hu ix0 = 1#1) :
    ∀ i, IsReal (a i) := fun i =>
  isReal_of_abs_lt_inf (a i) (Host.reduce_andi_all _ _ hr hu ix0 e i)

/-- The precondition gives that every entry of the five arrays the computation reads is a real. -/
theorem reals_of_finite [Cert.Pre_finite_inputs.Facts]
    (a0 : FVec Ideal Cert.Pre_finite_inputs.S8x3x128x2048 .f32)
    (a1 a2 : FVec Ideal Cert.Pre_finite_inputs.S8192x2048 .f32)
    (a3 : FVec Ideal Cert.Pre_finite_inputs.S2048x8192 .f32)
    (a4 : FVec Ideal Cert.Pre_finite_inputs.S8192 .f32)
    (a5 : FVec Ideal Cert.Pre_finite_inputs.S1000x3 .f32)
    (a6 : FVec Ideal Cert.Pre_finite_inputs.S1000 .f32)
    (h : Cert.Pre_finite_inputs.fn (F := Ideal) a0 a1 a2 a3 a4 a5 a6 = (fun _ => 1#1)) :
    (∀ i, IsReal (a0 i)) ∧ (∀ i, IsReal (a1 i)) ∧ (∀ i, IsReal (a2 i)) ∧ (∀ i, IsReal (a3 i))
      ∧ (∀ i, IsReal (a4 i)) := by
  have e := congrFun h ix0
  dsimp only [Cert.Pre_finite_inputs.fn, Cert.Pre_finite_inputs.fn_part1, andi] at e
  simp only [IntOp.andi_eq_one] at e
  obtain ⟨⟨⟨⟨⟨⟨e0, e1⟩, e2⟩, e3⟩, e4⟩, -⟩, -⟩ := e
  exact ⟨reals_of_all a0 _ _ _ e0, reals_of_all a1 _ _ _ e1, reals_of_all a2 _ _ _ e2,
    reals_of_all a3 _ _ _ e3, reals_of_all a4 _ _ _ e4⟩

end Cert.Spec

end
-- ==== Proof.Bridge.lean ====
/-
  The two programs' results agree.

  Both programs end with the same pooling and classifier applied to a rank-4 array [8, 3, 128, 2048]: the kernel
  program's is its last region's output reshaped, the reference's is its down projection. Entry (b, c, h, d) of the
  first is entry ((b·3 + c)·128 + h, d) of the region's output, which the chain of the four regions gives as the
  specification with every quantized value used directly; the same entry of the second is the specification with
  every quantized value reached through a difference. On real inputs — which the precondition gives — the two
  specifications agree.
-/
import proofs.«122326_j3453153706638_2_alg».proof.Proof.KTail
import proofs.«122326_j3453153706638_2_alg».proof.Proof.KChain
import proofs.«122326_j3453153706638_2_alg».proof.Proof.RefChain
import proofs.«122326_j3453153706638_2_alg».proof.Proof.Math
import proofs.«122326_j3453153706638_2_alg».proof.Proof.PreReal

set_option maxRecDepth 16384

noncomputable section

namespace Cert.Proof.Bridge

open Cert.Spec Idealize.ShloMosaic Idealize.ShloMosaic.TcCoe Idealize.ShloMosaic.ValueIdx Idealize.SL.Sem
open Cert.KernelIdeal.Val Cert.ReferenceIdeal.RefVal

/-- The reference's result is the same pooling and classifier of its down projection. -/
theorem ref_tail (x0 : A4 8 3 128 2048) (x1 x2 : A2 8192 2048) (x3 : A2 2048 8192) (x4 : A1 8192)
    (x5 : A2 1000 3) (x6 : A1 1000) :
    Cert.ReferenceIdeal.ReadP.val_main_v106 (F := Ideal) x0 x1 x2 x3 x4 x5 x6
      = Cert.KernelIdeal.Val.tail (Cert.ReferenceIdeal.ReadP.val_main_v98 (F := Ideal) x0 x1 x2 x3 x4) x5 x6 := rfl

section

open Cert.KernelIdeal Cert.KernelIdeal.Gen

variable (m : (ℓ : Loc nD τ sig) → Buf (Elt Ideal) ℓ) (ρ : Dev nD → PrngReg)

/-- The last region's output, reshaped to rank 4, is the reference's down projection of the same arguments, when
    the five arrays the computation reads hold real numbers. -/
theorem out4_eq (c : Dev nD)
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (h4 : ∀ i, IsReal (m ((c : Thread nD τ).loc main_arg4) i)) :
    shapeCast S8x3x128x2048 (W17 (F := Ideal) m ρ c (Proc.devRef .tc main_v41)) shapeCasts_S3072x2048_S8x3x128x2048
      = Cert.ReferenceIdeal.ReadP.val_main_v98 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) := by
  funext i
  obtain ⟨b, cc, h, d, rfl⟩ : ∃ (b : Fin 8) (cc : Fin 3) (h : Fin 128) (d : Fin 2048), i = ix4 b cc h d :=
    ⟨i 0, i 1, i 2, i 3, eq_ix4 i⟩
  have hflat : ∀ j, IsReal (flat (m ((c : Thread nD τ).loc main_arg0)) j) := fun j => h0 _
  rw [ref_pipeline,
    pipeline_through_eq_direct _ _ _ _ _ hflat h1 h2 h3 (fun f => h4 _),
    ← kernel_out m ρ c (tok b cc h) d]
  refine shapeCast_apply _ _ _ _ ?_
  show ((⟨2, ![3072, 2048]⟩ : Shape).rowMajor (ix2 (tok b cc h) d)).val
    = ((⟨4, ![8, 3, 128, 2048]⟩ : Shape).rowMajor (ix4 b cc h d)).val
  rw [Shape.rowMajor_val_two, Shape.rowMajor_val_four]
  rfl

/-- The two results agree under the precondition. -/
theorem results_agree [Cert.Pre_finite_inputs.Facts] (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = (fun _ => 1#1)) :
    Cert.ReferenceIdeal.ReadP.val_main_v106 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
      = W18 (F := Ideal) m ρ c (Proc.devRef .tc main_v50) := by
  obtain ⟨h0, h1, h2, h3, h4⟩ := reals_of_finite _ _ _ _ _ _ _ hpre
  rw [result_eq m ρ c, ref_tail, out4_eq m ρ c h0 h1 h2 h3 h4]

end

end Cert.Proof.Bridge

end
-- ==== Proof.lean ====
/-
  The certificate's five claims.

  The two printed kernel programs run, without a fault, and leave their arguments as launched: each is four pipelined
  regions among stretches of host operations, and the run of those segments is the generated frame. The reference
  program is a straight line of host operations; its run, read one operation at a time, leaves each buffer at the
  stage the operation computes, and the arguments untouched. The idealization rewrote no operation of the kernel.

  At the ideal instance both programs compute the same numbers when the inputs are finite. The kernel program
  quantizes the tokens row by row (127 over the row's largest magnitude), the three weight matrices by one scale
  each (one over the mean magnitude), projects, gates by g · logistic g · u, divides each row by its root mean
  square, multiplies by a weight vector, quantizes the rows again and projects down; the reference computes the
  same stages but re-enters each quantized value q of a number a as a + (q - a). On real numbers a + (q - a) = q, and
  every number so treated is real because every scale's divisor is at least a positive threshold. Both programs then
  apply the same mean over the last two axes and the same classifier.
-/
import proofs.«122326_j3453153706638_2_alg».proof.Defs
import proofs.«122326_j3453153706638_2_alg».proof.Proof.Gen.Kernel
import proofs.«122326_j3453153706638_2_alg».proof.Proof.Gen.Kernel.Frame
import proofs.«122326_j3453153706638_2_alg».proof.Proof.Gen.KernelIdeal
import proofs.«122326_j3453153706638_2_alg».proof.Proof.Gen.KernelIdeal.Frame
import proofs.«122326_j3453153706638_2_alg».proof.Proof.Gen.ReferenceIdeal
import proofs.«122326_j3453153706638_2_alg».proof.Proof.Gen.Pre_finite_inputs
import proofs.«122326_j3453153706638_2_alg».proof.Proof.KRun
import proofs.«122326_j3453153706638_2_alg».proof.Proof.RefRun
import proofs.«122326_j3453153706638_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel :=
  fun m ρ _ => Cert.Kernel.Gen.frame m ρ

/-- The idealized kernel program runs and keeps its arguments. -/
theorem frame_kernelIdeal : Cert.frame_KernelIdeal :=
  fun m ρ _ => Cert.KernelIdeal.Gen.frame m ρ

/-- The reference program runs and keeps its arguments: its run with the result dropped. -/
theorem frame_reference : Cert.frame_ReferenceIdeal :=
  fun m ρ _ => (θ_run Cert.ReferenceIdeal.defs _ _).mono (fun _ h c => (h c).2)
    (Cert.ReferenceIdeal.RefVal.ref_run m ρ)

/-- From memories that agree on the arguments both programs end with the same result. -/
theorem algebraic : Cert.algebraic_KernelIdeal_ReferenceIdeal := by
  intro m ρ m' ρ' hpre hagree
  refine ⟨fun c => Cert.KernelIdeal.Gen.W18 (F := Ideal) m ρ c (Proc.devRef .tc Cert.KernelIdeal.main_v50),
    Cert.KernelIdeal.Val.run_main m ρ, ?_⟩
  refine (θ_run Cert.ReferenceIdeal.defs _ _).mono (fun _ h c => ⟨(h c).1.trans ?_, (h c).2⟩)
    (Cert.ReferenceIdeal.RefVal.ref_run m' ρ')
  obtain ⟨e0, e1, e2, e3, e4, e5, e6⟩ := hagree c
  rw [e0, e1, e2, e3, e4, e5, e6]
  exact Cert.Proof.Bridge.results_agree m ρ c (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
